-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg12 : FVec F S256 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S512x512 .f32) (main_arg9 : FVec F S512x512 .f32) (main_arg10 : FVec F S512 .f32) (main_arg11 : FVec F S256x512 .f32) (main_arg12 : FVec F S256 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S256x512 .f32 := Host.absf main_arg11
  let main_cst_18 : FVec F S_ .f32 := constant S_ .f32 0x7F800000#32
  let main_v50 : FVec F S256x512 .f32 := broadcastInDim S256x512 ![] bcast_S_S256x512 main_cst_18
  fn_part3 (F := F) main_arg12 main_v48 main_v49 main_v50

def fn_part1 {F : FTy → Type} [FloatOps F] (main_arg5 : FVec F S512x512 .f32) (main_arg6 : FVec F S512x512 .f32) (main_arg7 : FVec F S512x512 .f32) (main_arg8 : FVec F S512x512 .f32) (main_arg9 : FVec F S512x512 .f32) (main_arg10 : FVec F S512 .f32) (main_arg11 : FVec F S256x512 .f32) (main_arg12 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x512 .f32) (main_arg1 : IVec S2x160000 32) (main_arg2 : FVec F S20000x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S512x512 .f32) (main_arg9 : FVec F S512x512 .f32) (main_arg10 : FVec F S512 .f32) (main_arg11 : FVec F S256x512 .f32) (main_arg12 : FVec F S256 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S20000x512 .f32 := Host.absf main_arg2
  let main_cst_0 : FVec F S_ .f32 := constant S_ .f32 0x7F800000#32
  let main_v5 : FVec F S20000x512 .f32 := broadcastInDim S20000x512 ![] bcast_S_S20000x512 main_cst_0
  let main_v6 : IVec S20000x512 1 := cmpf .olt main_v4 main_v5
  let main_c_1 : IVec S_ 1 := constantI S_ 1 1#1
  let main_v7 : IVec S_ 1 := (fun x v => Host.reduce IntOp.andi x v reducesTo_S20000x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_arg12 main_v13 main_v16
-- ==== Kernel.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1000x512 : Shape := ⟨2, ![1000, 512]⟩
abbrev S1000 : Shape := ⟨1, ![1000]⟩
abbrev S1000x1 : Shape := ⟨2, ![1000, 1]⟩
abbrev S512x256 : Shape := ⟨2, ![512, 256]⟩
abbrev S1x512 : Shape := ⟨2, ![1, 512]⟩
abbrev S1x256 : Shape := ⟨2, ![1, 256]⟩
abbrev S20000x256 : Shape := ⟨2, ![20000, 256]⟩
abbrev S1000x256 : Shape := ⟨2, ![1000, 256]⟩

abbrev nBuf : Space → Nat
  | .hbm => 70
  | .vmem => 32
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S20000x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S256x512, .f32⟩
  | .hbm, ⟨12, _⟩ => ⟨S256, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S20000x512, .f32⟩
  | .hbm, ⟨28, _⟩ => ⟨S160000x1, .i32⟩
  | .hbm, ⟨29, _⟩ => ⟨S20000x512, .f32⟩
  | .hbm, ⟨30, _⟩ => ⟨S512x512, .f32⟩
  | .hbm, ⟨31, _⟩ => ⟨S512x512, .f32⟩
  | .hbm, ⟨32, _⟩ => ⟨S20000x512, .f32⟩
  | .hbm, ⟨33, _⟩ => ⟨S_, .i32⟩
  | .hbm, ⟨34, _⟩ => ⟨S160000, .i32⟩
  | .hbm, ⟨35, _⟩ => ⟨S160000, .i1⟩
  | .hbm, ⟨36, _⟩ => ⟨S_, .i32⟩
  | .hbm, ⟨37, _⟩ => ⟨S160000, .i32⟩
  | .hbm, ⟨38, _⟩ => ⟨S160000, .i32⟩
  | .hbm, ⟨39, _⟩ => ⟨S160000, .i32⟩
  | .hbm, ⟨40, _⟩ => ⟨S160000x1, .i32⟩
  | .hbm, ⟨41, _⟩ => ⟨S160000x512, .f32⟩
  | .hbm, ⟨42, _⟩ => ⟨S_, .f32⟩
  | .hbm, ⟨43, _⟩ => ⟨S20000x512, .f32⟩
  | .hbm, ⟨44, _⟩ => ⟨S160000x1, .i32⟩
  | .hbm, ⟨45, _⟩ => ⟨S20000x512, .f32⟩
  | .hbm, ⟨46, _⟩ => ⟨S512x512, .f32⟩
  | .hbm, ⟨47, _⟩ => ⟨S512x512, .f32⟩
  | .hbm, ⟨48, _⟩ => ⟨S20000x512, .f32⟩
  | .hbm, ⟨49, _⟩ => ⟨S_, .i32⟩
  | .hbm, ⟨50, _⟩ => ⟨S160000, .i32⟩
  | .hbm, ⟨51, _⟩ => ⟨S160000, .i1⟩
  | .hbm, ⟨52, _⟩ => ⟨S_, .i32⟩
  | .hbm, ⟨53, _⟩ => ⟨S160000, .i32⟩
  | .hbm, ⟨54, _⟩ => ⟨S160000, .i32⟩
  | .hbm, ⟨55, _⟩ => ⟨S160000, .i32⟩
  | .hbm, ⟨56, _⟩ => ⟨S160000x1, .i32⟩
  | .hbm, ⟨57, _⟩ => ⟨S160000x512, .f32⟩
  | .hbm, ⟨58, _⟩ => ⟨S_, .f32⟩
  | .hbm, ⟨59, _⟩ => ⟨S20000x512, .f32⟩
  | .hbm, ⟨60, _⟩ => ⟨S160000x1, .i32⟩
  | .hbm, ⟨61, _⟩ => ⟨S20000x512, .f32⟩
  | .hbm, ⟨62, _⟩ => ⟨S512x512, .f32⟩
  | .hbm, ⟨63, _⟩ => ⟨S512x512, .f32⟩
  | .hbm, ⟨64, _⟩ => ⟨S20000x512, .f32⟩
  | .hbm, ⟨65, _⟩ => ⟨S512x512, .f32⟩
  | .hbm, ⟨66, _⟩ => ⟨S512x256, .f32⟩
  | .hbm, ⟨67, _⟩ => ⟨S1x512, .f32⟩
  | .hbm, ⟨68, _⟩ => ⟨S1x256, .f32⟩
  | .hbm, ⟨69, _⟩ => ⟨S20000x256, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S512x512, .f32⟩
  | .local _ .vmem, ⟨13, _⟩ => ⟨S512x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S512x512, .f32⟩
  | .local _ .vmem, ⟨21, _⟩ => ⟨S512x512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S512x512, .f32⟩
  | .local _ .vmem, ⟨27, _⟩ => ⟨S1x512, .f32⟩
  | .local _ .vmem, ⟨28, _⟩ => ⟨S512x256, .f32⟩
  | .local _ .vmem, ⟨29, _⟩ => ⟨S1x256, .f32⟩
  | .local _ .vmem, ⟨30, _⟩ => ⟨S1000x256, .f32⟩
  | .local _ .vmem, ⟨31, _⟩ => ⟨S1000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  transposes_S512x512_S512x512_1_0 : S512x512.Transposes [1, 0] S512x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1000x512_S1000 : S1000x512.Reduces [1] S1000
  shapeCasts_S1000_S1000x1 : S1000.ShapeCasts S1000x1
  broadcasts_S1000x1_S1000x512 : S1000x1.Broadcasts S1000x512
  transposes_S256x512_S512x256_1_0 : S256x512.Transposes [1, 0] S512x256
  shapeCasts_S512_S1x512 : S512.ShapeCasts S1x512
  shapeCasts_S256_S1x256 : S256.ShapeCasts S1x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S20000x512.size a
  hwx0_1 : ∀ i : grid0.Coords, EltTy.bits .f32 = 32 ∨ (Rect.block (s := S20000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S20000x512.size a
  hwx0_4 : ∀ i : grid0.Coords, EltTy.bits .f32 = 32 ∨ (Rect.block (s := S20000x512) S1000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S20000x512.size a
  hwx1_0 : ∀ i : grid1.Coords, EltTy.bits .f32 = 32 ∨ (Rect.block (s := S20000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S20000x512.size a
  hwx1_1 : ∀ i : grid1.Coords, EltTy.bits .f32 = 32 ∨ (Rect.block (s := S20000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S20000x512.size a
  hwx1_4 : ∀ i : grid1.Coords, EltTy.bits .f32 = 32 ∨ (Rect.block (s := S20000x512) S1000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S20000x512.size a
  hwx2_0 : ∀ i : grid2.Coords, EltTy.bits .f32 = 32 ∨ (Rect.block (s := S20000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S20000x512.size a
  hwx2_1 : ∀ i : grid2.Coords, EltTy.bits .f32 = 32 ∨ (Rect.block (s := S20000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x512.size a ≤ S20000x512.size a
  hwx2_4 : ∀ i : grid2.Coords, EltTy.bits .f32 = 32 ∨ (Rect.block (s := S20000x512) S1000x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S20000x512.size a
  hwx3_0 : ∀ i : grid3.Coords, EltTy.bits .f32 = 32 ∨ (Rect.block (s := S20000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S512x256.size a
  hwx3_3 : ∀ i : grid3.Coords, EltTy.bits .f32 = 32 ∨ (Rect.block (s := S512x256) S512x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S20000x256.size a
  hwx3_5 : ∀ i : grid3.Coords, EltTy.bits .f32 = 32 ∨ (Rect.block (s := S20000x256) S1000x256.size (cc3_transform_5 i) (hinb3_5 i)).WholeWords (EltTy.packing .f32)

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_v13) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1000x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S512x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S1000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S256x512 : Shape := ⟨2, ![256, 512]⟩
abbrev S256 : Shape := ⟨1, ![256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S20000 : Shape := ⟨1, ![20000]⟩
abbrev S20000x1 : Shape := ⟨2, ![20000, 1]⟩
abbrev S1x512 : Shape := ⟨2, ![1, 512]⟩
abbrev S512x256 : Shape := ⟨2, ![512, 256]⟩
abbrev S20000x256 : Shape := ⟨2, ![20000, 256]⟩
abbrev S1x256 : Shape := ⟨2, ![1, 256]⟩

abbrev nBuf : Space → Nat
  | .hbm => 135
  | .vmem => 0
  | .smem => 0
  | _ => 0

abbrev hbmTy0_0 (i : Nat) : BufTy := match i % 128 with
  | 0 => ⟨S20000x512, .f32⟩
  | 1 => ⟨S2x160000, .i32⟩
  | 2 => ⟨S20000x512, .f32⟩
  | 3 => ⟨S512x512, .f32⟩
  | 4 => ⟨S512x512, .f32⟩
  | 5 => ⟨S512x512, .f32⟩
  | 6 => ⟨S512x512, .f32⟩
  | 7 => ⟨S512x512, .f32⟩
  | 8 => ⟨S512x512, .f32⟩
  | 9 => ⟨S512x512, .f32⟩
  | 10 => ⟨S512, .f32⟩
  | 11 => ⟨S256x512, .f32⟩
  | 12 => ⟨S256, .f32⟩
  | 13 => ⟨S1x160000, .i32⟩
  | 14 => ⟨S160000, .i32⟩
  | 15 => ⟨S1x160000, .i32⟩
  | 16 => ⟨S160000, .i32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x512, .f32⟩
  | 26 => ⟨S_, .f32⟩
  | 27 => ⟨S20000x512, .f32⟩
  | 28 => ⟨S160000x1, .i32⟩
  | 29 => ⟨S20000x512, .f32⟩
  | 30 => ⟨S512x512, .f32⟩
  | 31 => ⟨S20000x512, .f32⟩
  | 32 => ⟨S512x512, .f32⟩
  | 33 => ⟨S20000x512, .f32⟩
  | 34 => ⟨S20000x512, .f32⟩
  | 35 => ⟨S20000x512, .f32⟩
  | 36 => ⟨S_, .f32⟩
  | 37 => ⟨S20000, .f32⟩
  | 38 => ⟨S20000x1, .f32⟩
  | 39 => ⟨S20000x1, .f32⟩
  | 40 => ⟨S_, .f32⟩
  | 41 => ⟨S20000x1, .f32⟩
  | 42 => ⟨S20000x1, .f32⟩
  | 43 => ⟨S20000x512, .f32⟩
  | 44 => ⟨S20000x512, .f32⟩
  | 45 => ⟨S_, .f32⟩
  | 46 => ⟨S20000x512, .f32⟩
  | 47 => ⟨S20000x512, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x512, .f32⟩
  | 57 => ⟨S_, .f32⟩
  | 58 => ⟨S20000x512, .f32⟩
  | 59 => ⟨S160000x1, .i32⟩
  | 60 => ⟨S20000x512, .f32⟩
  | 61 => ⟨S512x512, .f32⟩
  | 62 => ⟨S20000x512, .f32⟩
  | 63 => ⟨S512x512, .f32⟩
  | 64 => ⟨S20000x512, .f32⟩
  | 65 => ⟨S20000x512, .f32⟩
  | 66 => ⟨S20000x512, .f32⟩
  | 67 => ⟨S_, .f32⟩
  | 68 => ⟨S20000, .f32⟩
  | 69 => ⟨S20000x1, .f32⟩
  | 70 => ⟨S20000x1, .f32⟩
  | 71 => ⟨S_, .f32⟩
  | 72 => ⟨S20000x1, .f32⟩
  | 73 => ⟨S20000x1, .f32⟩
  | 74 => ⟨S20000x512, .f32⟩
  | 75 => ⟨S20000x512, .f32⟩
  | 76 => ⟨S_, .f32⟩
  | 77 => ⟨S20000x512, .f32⟩
  | 78 => ⟨S20000x512, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S160000x512, .f32⟩
  | 88 => ⟨S_, .f32⟩
  | 89 => ⟨S20000x512, .f32⟩
  | 90 => ⟨S160000x1, .i32⟩
  | 91 => ⟨S20000x512, .f32⟩
  | 92 => ⟨S512x512, .f32⟩
  | 93 => ⟨S20000x512, .f32⟩
  | 94 => ⟨S512x512, .f32⟩
  | 95 => ⟨S20000x512, .f32⟩
  | 96 => ⟨S20000x512, .f32⟩
  | 97 => ⟨S20000x512, .f32⟩
  | 98 => ⟨S_, .f32⟩
  | 99 => ⟨S20000, .f32⟩
  | 100 => ⟨S20000x1, .f32⟩
  | 101 => ⟨S20000x1, .f32⟩
  | 102 => ⟨S_, .f32⟩
  | 103 => ⟨S20000x1, .f32⟩
  | 104 => ⟨S20000x1, .f32⟩
  | 105 => ⟨S20000x512, .f32⟩
  | 106 => ⟨S20000x512, .f32⟩
  | 107 => ⟨S_, .f32⟩
  | 108 => ⟨S20000x512, .f32⟩
  | 109 => ⟨S20000x512, .f32⟩
  | 110 => ⟨S512x512, .f32⟩
  | 111 => ⟨S20000x512, .f32⟩
  | 112 => ⟨S1x512, .f32⟩
  | 113 => ⟨S20000x512, .f32⟩
  | 114 => ⟨S20000x512, .f32⟩
  | 115 => ⟨S512x256, .f32⟩
  | 116 => ⟨S20000x256, .f32⟩
  | 117 => ⟨S1x256, .f32⟩
  | 118 => ⟨S20000x256, .f32⟩
  | 119 => ⟨S20000x256, .f32⟩
  | 120 => ⟨S_, .f32⟩
  | 121 => ⟨S20000, .f32⟩
  | 122 => ⟨S_, .f32⟩
  | 123 => ⟨S20000, .f32⟩
  | 124 => ⟨S20000, .f32⟩
  | 125 => ⟨S20000x1, .f32⟩
  | 126 => ⟨S20000x256, .f32⟩
  | 127 => ⟨S20000x256, .f32⟩
  | _ => ⟨S20000x512, .f32⟩

abbrev hbmTy0_1 (i : Nat) : BufTy := match i % 128 with
  | 0 => ⟨S20000x256, .f32⟩
  | 1 => ⟨S_, .f32⟩
  | 2 => ⟨S20000, .f32⟩
  | 3 => ⟨S20000x1, .f32⟩
  | 4 => ⟨S20000x1, .f32⟩
  | 5 => ⟨S20000x256, .f32⟩
  | 6 => ⟨S20000x256, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_3 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_cst : Ref sig .tc := ⟨.hbm, 107, rfl⟩
abbrev main_call2_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call3_cst : Ref sig .tc := ⟨.hbm, 120, rfl⟩
abbrev main_call3_v0 : Ref sig .tc := ⟨.hbm, 121, rfl⟩
abbrev main_call3_cst_0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_cst_1 : Ref sig .tc := ⟨.hbm, 129, rfl⟩
abbrev main_call3_v7 : Ref sig .tc := ⟨.hbm, 130, rfl⟩
abbrev main_call3_v8 : Ref sig .tc := ⟨.hbm, 131, rfl⟩
abbrev main_call3_v9 : Ref sig .tc := ⟨.hbm, 132, rfl⟩
abbrev main_call3_v10 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  transposes_S512x512_S512x512_1_0 : S512x512.Transposes [1, 0] S512x512
  reducesTo_S20000x512_S20000_d1 : S20000x512.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x512_0_1 : S20000x1.BroadcastsInDim S20000x512 (![0, 1] : Fin 2 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  transposes_S256x512_S512x256_1_0 : S256x512.Transposes [1, 0] S512x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  bcast_S_S20000 : S_.BroadcastsInDim S20000 (![] : Fin 0 → Fin S20000.rank)
  bcast_S20000x1_S20000x256_0_1 : S20000x1.BroadcastsInDim S20000x256 (![0, 1] : Fin 2 → Fin S20000x256.rank)
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x512_S20000x512_1_0_0_1_n_n_wf : DotDims.WF S20000x512 S512x512 S20000x512 [1] [0] [0] [1] [] []
  dot_S20000x512_S512x256_S20000x256_1_0_0_1_n_n_wf : DotDims.WF S20000x512 S512x256 S20000x256 [1] [0] [0] [1] [] []

variable [Facts₀]

def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.KernelRun.lean ====
/-
  The idealized kernel program's run, with its result named.

  @main is eight segments: a stretch of host operations, an aggregation layer's region, and so on three times, then the
  read-out's stretch and region.  Every weakly fair execution passes through the buffer contents W0 … W8 at the segment
  boundaries (each stretch the fold of its operations, each region its arrays at what the write-backs leave), so it ends with
  every buffer — the result among them — at W8, and the arguments as launched.  This is the launch of the frame theorem
  once more, reading one more buffer off the last boundary.
-/
import proofs.«102595_j29858612642389_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run_value : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Hand

end
-- ==== Proof.Spec.lean ====
/-
  The network both programs compute, entry by entry, over the extended reals.

  One aggregation layer takes the summed neighbour rows `agg`, the node rows `h` and two weight matrices already
  transposed, forms the row  o(r, ·) = agg(r, ·)·Wr + h(r, ·)·Wl,  divides it by  max(‖o(r, ·)‖₂, ε)  and clips it at 0.
  The read-out takes node rows through two affine maps and a row-wise log-softmax: with z the row of logits and
  m = max z,  out(c) = (z(c) − m) − log Σ_c' exp(z(c') − m).  Everything is a function of ONE row of the activations
  (and of the whole weight matrices), which is why computing it a block of rows at a time changes nothing.
-/
import Idealize.ShloMosaic.PureOps.Ideal
import Idealize.ShloMosaic.Lib.ValueIdx

noncomputable section

namespace SageNet

open Idealize.ShloMosaic Idealize.ShloMosaic.ValueIdx

/-- The normalisation floor ε, the word both programs carry. -/
abbrev epsW : EReal := Ideal.ofBits .f32 0x2B8CBCCC#32
/-- The word of 0.0 (the clip level). -/
abbrev zeroW : EReal := Ideal.ofBits .f32 0x00000000#32
/-- The word of −∞ (where a running maximum starts). -/
abbrev negInfW : EReal := Ideal.ofBits .f32 0xFF800000#32

variable {M K N J : ℕ}

/-- Row `r` of the pre-activation: agg(r, ·)·Wr + h(r, ·)·Wl at column `c`. -/
def pre (agg h : FVec Ideal ⟨2, ![M, K]⟩ .f32) (wr wl : FVec Ideal ⟨2, ![K, N]⟩ .f32) (r : Fin M) (c : Fin N) : EReal :=
  (∑ k : Fin K, agg (ix2 r k) * wr (ix2 k c)) + ∑ k : Fin K, h (ix2 r k) * wl (ix2 k c)

/-- One entry of a row divided by max(its Euclidean norm, ε) and clipped at 0. -/
def unitRelu (o : Fin N → EReal) (c : Fin N) : EReal :=
  max (Ideal.div (o c) (max (Ideal.sqrt (∑ c' : Fin N, o c' * o c')) epsW)) zeroW

/-- The layer as one function of whole arrays. -/
def layer (agg h : FVec Ideal ⟨2, ![M, K]⟩ .f32) (wr wl : FVec Ideal ⟨2, ![K, N]⟩ .f32) : FVec Ideal ⟨2, ![M, N]⟩ .f32 :=
  fun i => unitRelu (pre agg h wr wl (i 0)) (i 1)

theorem layer_ix2 (agg h : FVec Ideal ⟨2, ![M, K]⟩ .f32) (wr wl : FVec Ideal ⟨2, ![K, N]⟩ .f32) (r : Fin M) (c : Fin N) :
    layer agg h wr wl (ix2 r c) = unitRelu (pre agg h wr wl r) c := rfl

/-- A row of the pre-activation depends on that row of `agg` and of `h` only. -/
theorem pre_congr_row {M' : ℕ} (agg h : FVec Ideal ⟨2, ![M, K]⟩ .f32) (agg' h' : FVec Ideal ⟨2, ![M', K]⟩ .f32)
    (wr wl : FVec Ideal ⟨2, ![K, N]⟩ .f32) (r : Fin M) (r' : Fin M')
    (ha : ∀ k, agg' (ix2 r' k) = agg (ix2 r k)) (hh : ∀ k, h' (ix2 r' k) = h (ix2 r k)) :
    pre agg' h' wr wl r' = pre agg h wr wl r := by
  funext c
  unfold pre
  simp only [ha, hh]

/-- Row `r` of the hidden activations of the read-out: h(r, ·)·W₁ + b₁. -/
def hid (h : FVec Ideal ⟨2, ![M, K]⟩ .f32) (w1 : FVec Ideal ⟨2, ![K, J]⟩ .f32) (b1 : FVec Ideal ⟨1, ![J]⟩ .f32)
    (r : Fin M) (j : Fin J) : EReal :=
  (∑ k : Fin K, h (ix2 r k) * w1 (ix2 k j)) + b1 (ix1 j)

/-- Row `r` of the logits: hid(r, ·)·W₂ + b₂. -/
def logit (h : FVec Ideal ⟨2, ![M, K]⟩ .f32) (w1 : FVec Ideal ⟨2, ![K, J]⟩ .f32) (b1 : FVec Ideal ⟨1, ![J]⟩ .f32)
    (w2 : FVec Ideal ⟨2, ![J, N]⟩ .f32) (b2 : FVec Ideal ⟨1, ![N]⟩ .f32) (r : Fin M) (c : Fin N) : EReal :=
  (∑ j : Fin J, hid h w1 b1 r j * w2 (ix2 j c)) + b2 (ix1 c)

/-- The log-softmax of a row of logits at one position, shifted by the row's maximum. -/
def logSoftmax (z : Fin N → EReal) (c : Fin N) : EReal :=
  (z c - (Finset.univ : Finset (Fin N)).fold max negInfW z)
    - Ideal.log (∑ c' : Fin N, Ideal.exp (z c' - (Finset.univ : Finset (Fin N)).fold max negInfW z))

/-- The read-out as one function of whole arrays. -/
def readout (h : FVec Ideal ⟨2, ![M, K]⟩ .f32) (w1 : FVec Ideal ⟨2, ![K, J]⟩ .f32) (b1 : FVec Ideal ⟨1, ![J]⟩ .f32)
    (w2 : FVec Ideal ⟨2, ![J, N]⟩ .f32) (b2 : FVec Ideal ⟨1, ![N]⟩ .f32) : FVec Ideal ⟨2, ![M, N]⟩ .f32 :=
  fun i => logSoftmax (logit h w1 b1 w2 b2 (i 0)) (i 1)

theorem readout_ix2 (h : FVec Ideal ⟨2, ![M, K]⟩ .f32) (w1 : FVec Ideal ⟨2, ![K, J]⟩ .f32) (b1 : FVec Ideal ⟨1, ![J]⟩ .f32)
    (w2 : FVec Ideal ⟨2, ![J, N]⟩ .f32) (b2 : FVec Ideal ⟨1, ![N]⟩ .f32) (r : Fin M) (c : Fin N) :
    readout h w1 b1 w2 b2 (ix2 r c) = logSoftmax (logit h w1 b1 w2 b2 r) c := rfl

/-- A row of the logits depends on that row of `h` only. -/
theorem logit_congr_row {M' : ℕ} (h : FVec Ideal ⟨2, ![M, K]⟩ .f32) (h' : FVec Ideal ⟨2, ![M', K]⟩ .f32)
    (w1 : FVec Ideal ⟨2, ![K, J]⟩ .f32) (b1 : FVec Ideal ⟨1, ![J]⟩ .f32)
    (w2 : FVec Ideal ⟨2, ![J, N]⟩ .f32) (b2 : FVec Ideal ⟨1, ![N]⟩ .f32) (r : Fin M) (r' : Fin M')
    (hh : ∀ k, h' (ix2 r' k) = h (ix2 r k)) :
    logit h' w1 b1 w2 b2 r' = logit h w1 b1 w2 b2 r := by
  funext c
  unfold logit hid
  simp only [hh]

end SageNet

end
-- ==== Proof.KernelStretches.lean ====
/-
  The values the idealized kernel program holds at its segment boundaries.

  Each stretch of host operations is read as a function of the contents it starts from: the source and destination ids are the
  two rows of the edge array, the aggregated features are the scatter-add, by destination, of the rows gathered by source
  (carried as ONE function `agg`, never opened), the weights are transposed, the biases become rows; every buffer a stretch does not
  write keeps its contents.
-/
import proofs.«102595_j29858612642389_1_alg».proof.Proof.Gen.KernelIdeal.Frame
import proofs.«102595_j29858612642389_1_alg».proof.Proof.Spec
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

/-- The source node of every edge: row 0 of the edge array. -/
def srcIds (e : (⟨S2x160000, .i32⟩ : BufTy).Contents (Elt Ideal)) : (⟨S160000, .i32⟩ : BufTy).Contents (Elt Ideal) :=
  shapeCast _ (extractStridedSlice S1x160000 ![0, 0] e slices_S2x160000_S1x160000_0_0) shapeCasts_S1x160000_S160000

/-- The destination node of every edge: row 1 of the edge array. -/
def dstIds (e : (⟨S2x160000, .i32⟩ : BufTy).Contents (Elt Ideal)) : (⟨S160000, .i32⟩ : BufTy).Contents (Elt Ideal) :=
  shapeCast _ (extractStridedSlice S1x160000 ![1, 0] e slices_S2x160000_S1x160000_1_0) shapeCasts_S1x160000_S160000

/-- The neighbour sum: the rows of `h` gathered at the source ids (a negative id counted from the end), added into a zero
    array at the destination ids. -/
def agg (src dst : (⟨S160000, .i32⟩ : BufTy).Contents (Elt Ideal)) (h : (⟨S20000x512, .f32⟩ : BufTy).Contents (Elt Ideal)) :
    (⟨S20000x512, .f32⟩ : BufTy).Contents (Elt Ideal) :=
  Host.scatterAdd (F := Ideal) scatter_S20000x512_S160000x1_S160000x512_1_0_0_1
    (broadcastInDim S20000x512 ![] bcast_S_S20000x512 (constant (F := Ideal) S_ .f32 0x00000000#32))
    (broadcastInDim S160000x1 ![0] bcast_S160000_S160000x1_0 dst)
    (Host.gather gather_S20000x512_S160000x1_S160000x512_1_0_n_n_0_1_1512 h
      (broadcastInDim S160000x1 ![0] bcast_S160000_S160000x1_0
        (select (cmpi .slt src (broadcastInDim S160000 ![] bcast_S_S160000 (constantI S_ 32 0#32)))
          (addi src (broadcastInDim S160000 ![] bcast_S_S160000 (constantI S_ 32 20000#32))) src)))

/-- A square weight matrix transposed. -/
def tr (w : (⟨S512x512, .f32⟩ : BufTy).Contents (Elt Ideal)) : (⟨S512x512, .f32⟩ : BufTy).Contents (Elt Ideal) :=
  transpose S512x512 [1, 0] w transposes_S512x512_S512x512_1_0

/-- The read-out's second weight matrix transposed. -/
def tr2 (w : (⟨S256x512, .f32⟩ : BufTy).Contents (Elt Ideal)) : (⟨S512x256, .f32⟩ : BufTy).Contents (Elt Ideal) :=
  transpose S512x256 [1, 0] w transposes_S256x512_S512x256_1_0

/-! ## The first stretch: ids, the first neighbour sum, the first layer's weights -/

theorem s0_v1 (W : Valuation τ sig (Elt Ideal)) :
    StableHlo.after (hostOps0 (F := Ideal)) W (Proc.devRef .tc main_v1) = srcIds (W (Proc.devRef .tc main_arg1)) := by
  dsimp only [hostOps0]; after_results; rfl

theorem s0_v3 (W : Valuation τ sig (Elt Ideal)) :
    StableHlo.after (hostOps0 (F := Ideal)) W (Proc.devRef .tc main_v3) = dstIds (W (Proc.devRef .tc main_arg1)) := by
  dsimp only [hostOps0]; after_results; rfl

theorem s0_v13 (W : Valuation τ sig (Elt Ideal)) :
    StableHlo.after (hostOps0 (F := Ideal)) W (Proc.devRef .tc main_v13)
      = agg (srcIds (W (Proc.devRef .tc main_arg1))) (dstIds (W (Proc.devRef .tc main_arg1))) (W (Proc.devRef .tc main_arg2)) := by
  dsimp only [hostOps0]; after_results; rfl

theorem s0_v14 (W : Valuation τ sig (Elt Ideal)) :
    StableHlo.after (hostOps0 (F := Ideal)) W (Proc.devRef .tc main_v14) = tr (W (Proc.devRef .tc main_arg4)) := by
  dsimp only [hostOps0]; after_results; rfl

theorem s0_v15 (W : Valuation τ sig (Elt Ideal)) :
    StableHlo.after (hostOps0 (F := Ideal)) W (Proc.devRef .tc main_v15) = tr (W (Proc.devRef .tc main_arg3)) := by
  dsimp only [hostOps0]; after_results; rfl

/-! ## The second stretch -/

theorem s1_v26 (W : Valuation τ sig (Elt Ideal)) :
    StableHlo.after (hostOps1 (F := Ideal)) W (Proc.devRef .tc main_v26)
      = agg (W (Proc.devRef .tc main_v1)) (W (Proc.devRef .tc main_v3)) (W (Proc.devRef .tc main_v16)) := by
  dsimp only [hostOps1]; after_results; rfl

theorem s1_v27 (W : Valuation τ sig (Elt Ideal)) :
    StableHlo.after (hostOps1 (F := Ideal)) W (Proc.devRef .tc main_v27) = tr (W (Proc.devRef .tc main_arg6)) := by
  dsimp only [hostOps1]; after_results; rfl

theorem s1_v28 (W : Valuation τ sig (Elt Ideal)) :
    StableHlo.after (hostOps1 (F := Ideal)) W (Proc.devRef .tc main_v28) = tr (W (Proc.devRef .tc main_arg5)) := by
  dsimp only [hostOps1]; after_results; rfl

/-! ## The third stretch -/

theorem s2_v39 (W : Valuation τ sig (Elt Ideal)) :
    StableHlo.after (hostOps2 (F := Ideal)) W (Proc.devRef .tc main_v39)
      = agg (W (Proc.devRef .tc main_v1)) (W (Proc.devRef .tc main_v3)) (W (Proc.devRef .tc main_v29)) := by
  dsimp only [hostOps2]; after_results; rfl

theorem s2_v40 (W : Valuation τ sig (Elt Ideal)) :
    StableHlo.after (hostOps2 (F := Ideal)) W (Proc.devRef .tc main_v40) = tr (W (Proc.devRef .tc main_arg8)) := by
  dsimp only [hostOps2]; after_results; rfl

theorem s2_v41 (W : Valuation τ sig (Elt Ideal)) :
    StableHlo.after (hostOps2 (F := Ideal)) W (Proc.devRef .tc main_v41) = tr (W (Proc.devRef .tc main_arg7)) := by
  dsimp only [hostOps2]; after_results; rfl

/-! ## The last stretch: the read-out's weights transposed, its biases as rows -/

theorem s3_v43 (W : Valuation τ sig (Elt Ideal)) :
    StableHlo.after (hostOps3 (F := Ideal)) W (Proc.devRef .tc main_v43) = tr (W (Proc.devRef .tc main_arg9)) := by
  dsimp only [hostOps3]; after_results; rfl

theorem s3_v44 (W : Valuation τ sig (Elt Ideal)) :
    StableHlo.after (hostOps3 (F := Ideal)) W (Proc.devRef .tc main_v44) = tr2 (W (Proc.devRef .tc main_arg11)) := by
  dsimp only [hostOps3]; after_results; rfl

theorem s3_v45 (W : Valuation τ sig (Elt Ideal)) :
    StableHlo.after (hostOps3 (F := Ideal)) W (Proc.devRef .tc main_v45)
      = shapeCast S1x512 (W (Proc.devRef .tc main_arg10)) shapeCasts_S512_S1x512 := by
  dsimp only [hostOps3]; after_results; rfl

theorem s3_v46 (W : Valuation τ sig (Elt Ideal)) :
    StableHlo.after (hostOps3 (F := Ideal)) W (Proc.devRef .tc main_v46)
      = shapeCast S1x256 (W (Proc.devRef .tc main_arg12)) shapeCasts_S256_S1x256 := by
  dsimp only [hostOps3]; after_results; rfl

/-! ## What a stretch does not write keeps its contents -/

theorem keep0_arg2 (W : Valuation τ sig (Elt Ideal)) :
    StableHlo.after (hostOps0 (F := Ideal)) W (Proc.devRef .tc main_arg2) = W (Proc.devRef .tc main_arg2) := by
  dsimp only [hostOps0]; after_results

theorem keep0_arg5 (W : Valuation τ sig (Elt Ideal)) :
    StableHlo.after (hostOps0 (F := Ideal)) W (Proc.devRef .tc main_arg5) = W (Proc.devRef .tc main_arg5) := by
  dsimp only [hostOps0]; after_results

theorem keep0_arg6 (W : Valuation τ sig (Elt Ideal)) :
    StableHlo.after (hostOps0 (F := Ideal)) W (Proc.devRef .tc main_arg6) = W (Proc.devRef .tc main_arg6) := by
  dsimp only [hostOps0]; after_results

theorem keep0_arg7 (W : Valuation τ sig (Elt Ideal)) :
    StableHlo.after (hostOps0 (F := Ideal)) W (Proc.devRef .tc main_arg7) = W (Proc.devRef .tc main_arg7) := by
  dsimp only [hostOps0]; after_results

theorem keep0_arg8 (W : Valuation τ sig (Elt Ideal)) :
    StableHlo.after (hostOps0 (F := Ideal)) W (Proc.devRef .tc main_arg8) = W (Proc.devRef .tc main_arg8) := by
  dsimp only [hostOps0]; after_results

theorem keep0_arg9 (W : Valuation τ sig (Elt Ideal)) :
    StableHlo.after (hostOps0 (F := Ideal)) W (Proc.devRef .tc main_arg9) = W (Proc.devRef .tc main_arg9) := by
  dsimp only [hostOps0]; after_results

theorem keep0_arg10 (W : Valuation τ sig (Elt Ideal)) :
    StableHlo.after (hostOps0 (F := Ideal)) W (Proc.devRef .tc main_arg10) = W (Proc.devRef .tc main_arg10) := by
  dsimp only [hostOps0]; after_results

theorem keep0_arg11 (W : Valuation τ sig (Elt Ideal)) :
    StableHlo.after (hostOps0 (F := Ideal)) W (Proc.devRef .tc main_arg11) = W (Proc.devRef .tc main_arg11) := by
  dsimp only [hostOps0]; after_results

theorem keep0_arg12 (W : Valuation τ sig (Elt Ideal)) :
    StableHlo.after (hostOps0 (F := Ideal)) W (Proc.devRef .tc main_arg12) = W (Proc.devRef .tc main_arg12) := by
  dsimp only [hostOps0]; after_results

theorem keep1_v16 (W : Valuation τ sig (Elt Ideal)) :
    StableHlo.after (hostOps1 (F := Ideal)) W (Proc.devRef .tc main_v16) = W (Proc.devRef .tc main_v16) := by
  dsimp only [hostOps1]; after_results

theorem keep1_v1 (W : Valuation τ sig (Elt Ideal)) :
    StableHlo.after (hostOps1 (F := Ideal)) W (Proc.devRef .tc main_v1) = W (Proc.devRef .tc main_v1) := by
  dsimp only [hostOps1]; after_results

theorem keep1_v3 (W : Valuation τ sig (Elt Ideal)) :
    StableHlo.after (hostOps1 (F := Ideal)) W (Proc.devRef .tc main_v3) = W (Proc.devRef .tc main_v3) := by
  dsimp only [hostOps1]; after_results

theorem keep1_arg7 (W : Valuation τ sig (Elt Ideal)) :
    StableHlo.after (hostOps1 (F := Ideal)) W (Proc.devRef .tc main_arg7) = W (Proc.devRef .tc main_arg7) := by
  dsimp only [hostOps1]; after_results

theorem keep1_arg8 (W : Valuation τ sig (Elt Ideal)) :
    StableHlo.after (hostOps1 (F := Ideal)) W (Proc.devRef .tc main_arg8) = W (Proc.devRef .tc main_arg8) := by
  dsimp only [hostOps1]; after_results

theorem keep1_arg9 (W : Valuation τ sig (Elt Ideal)) :
    StableHlo.after (hostOps1 (F := Ideal)) W (Proc.devRef .tc main_arg9) = W (Proc.devRef .tc main_arg9) := by
  dsimp only [hostOps1]; after_results

theorem keep1_arg10 (W : Valuation τ sig (Elt Ideal)) :
    StableHlo.after (hostOps1 (F := Ideal)) W (Proc.devRef .tc main_arg10) = W (Proc.devRef .tc main_arg10) := by
  dsimp only [hostOps1]; after_results

theorem keep1_arg11 (W : Valuation τ sig (Elt Ideal)) :
    StableHlo.after (hostOps1 (F := Ideal)) W (Proc.devRef .tc main_arg11) = W (Proc.devRef .tc main_arg11) := by
  dsimp only [hostOps1]; after_results

theorem keep1_arg12 (W : Valuation τ sig (Elt Ideal)) :
    StableHlo.after (hostOps1 (F := Ideal)) W (Proc.devRef .tc main_arg12) = W (Proc.devRef .tc main_arg12) := by
  dsimp only [hostOps1]; after_results

theorem keep2_v29 (W : Valuation τ sig (Elt Ideal)) :
    StableHlo.after (hostOps2 (F := Ideal)) W (Proc.devRef .tc main_v29) = W (Proc.devRef .tc main_v29) := by
  dsimp only [hostOps2]; after_results

theorem keep2_arg9 (W : Valuation τ sig (Elt Ideal)) :
    StableHlo.after (hostOps2 (F := Ideal)) W (Proc.devRef .tc main_arg9) = W (Proc.devRef .tc main_arg9) := by
  dsimp only [hostOps2]; after_results

theorem keep2_arg10 (W : Valuation τ sig (Elt Ideal)) :
    StableHlo.after (hostOps2 (F := Ideal)) W (Proc.devRef .tc main_arg10) = W (Proc.devRef .tc main_arg10) := by
  dsimp only [hostOps2]; after_results

theorem keep2_arg11 (W : Valuation τ sig (Elt Ideal)) :
    StableHlo.after (hostOps2 (F := Ideal)) W (Proc.devRef .tc main_arg11) = W (Proc.devRef .tc main_arg11) := by
  dsimp only [hostOps2]; after_results

theorem keep2_arg12 (W : Valuation τ sig (Elt Ideal)) :
    StableHlo.after (hostOps2 (F := Ideal)) W (Proc.devRef .tc main_arg12) = W (Proc.devRef .tc main_arg12) := by
  dsimp only [hostOps2]; after_results

theorem keep3_v42 (W : Valuation τ sig (Elt Ideal)) :
    StableHlo.after (hostOps3 (F := Ideal)) W (Proc.devRef .tc main_v42) = W (Proc.devRef .tc main_v42) := by
  dsimp only [hostOps3]; after_results

end Cert.KernelIdeal.Hand

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.Pay0.lean ====
/-
  What one grid point of an aggregation layer computes, entry by entry.

  The body takes a block of 1000 rows of the summed neighbour features and of the node features and the two whole
  (already transposed) weight matrices, forms  o = agg·Wr + h·Wl,  each product exact into a zero accumulator (the roundings to the narrow
  format are the identity on exact values), and for every row divides by  max(√(Σ_c o(r,c)²), ε)  and clips at 0.
  Read at row p and column q this is `SageNet.unitRelu` of row p of `SageNet.pre`: the entry depends on row p of the two
  activation blocks only.  The three layers' bodies differ by one same-shape cast; they are one function.
-/
import proofs.«102595_j29858612642389_1_alg».proof.Proof.Gen.KernelIdeal.Skeleton
import proofs.«102595_j29858612642389_1_alg».proof.Proof.Spec
import proofs.«102595_j29858612642389_1_alg».proof.Proof.LibPlainMatmul
import proofs.«102595_j29858612642389_1_alg».proof.Proof.LibRowReduce
import proofs.«102595_j29858612642389_1_alg».proof.Proof.LibKeepdimsColumn
import Idealize.ShloMosaic.Lib.Pipeline.Value

noncomputable section

namespace Cert.KernelIdeal.Hand

open Cert.KernelIdeal Cert.KernelIdeal.Gen Idealize.ShloMosaic Idealize.ShloMosaic.ValueIdx

/-- The two products into zero accumulators, added: the block of pre-activations. -/
def sagePre (x0 x1 : FVec Ideal S1000x512 .f32) (x2 x3 : FVec Ideal S512x512 .f32) : FVec Ideal S1000x512 .f32 :=
  addf (matmul (F := Ideal) dot_S1000x512_S512x512_S1000x512_1_0_0_1_n_n none (truncf .bf16 x0 bitsLt_bf16_f32) (truncf .bf16 x2 bitsLt_bf16_f32)
      (constant (F := Ideal) S1000x512 .f32 0x00000000#32))
    (matmul (F := Ideal) dot_S1000x512_S512x512_S1000x512_1_0_0_1_n_n none (truncf .bf16 x1 bitsLt_bf16_f32) (truncf .bf16 x3 bitsLt_bf16_f32)
      (constant (F := Ideal) S1000x512 .f32 0x00000000#32))

/-- Row normalisation and clipping of a block of pre-activations, as the body spells it. -/
def sageCore (o : FVec Ideal S1000x512 .f32) : FVec Ideal S1000x512 .f32 :=
  maximumf
    (divf o
      (broadcastTo S1000x512
        (maximumf
          (sqrt (shapeCast S1000x1
            (multiReduction (F := Ideal) .add [1] S1000 (mulf o o) 0x00000000#32 reduces_S1000x512_S1000 (.inl rfl) rfl)
            shapeCasts_S1000_S1000x1))
          (broadcast S1000x1 (Scalar.ofBits (F := Ideal) .f32 0x2B8CBCCC#32)))
        broadcasts_S1000x1_S1000x512))
    (broadcast S1000x512 (Scalar.ofBits (F := Ideal) .f32 0x00000000#32))

/-- An entry of the block of pre-activations is the two dot products of row p with column c. -/
theorem sagePre_apply (x0 x1 : FVec Ideal S1000x512 .f32) (x2 x3 : FVec Ideal S512x512 .f32) (p : Fin 1000) (c : Fin 512) :
    sagePre x0 x1 x2 x3 (ix2 p c) = SageNet.pre x0 x1 x2 x3 p c := by
  unfold sagePre SageNet.pre
  rw [addf_apply]
  exact congrArg₂ (· + ·)
    (PlainMatmul.apply_zero (M := 1000) (K := 512) (N := 512) (truncf .bf16 x0 bitsLt_bf16_f32) (truncf .bf16 x2 bitsLt_bf16_f32) p c)
    (PlainMatmul.apply_zero (M := 1000) (K := 512) (N := 512) (truncf .bf16 x1 bitsLt_bf16_f32) (truncf .bf16 x3 bitsLt_bf16_f32) p c)

/-- An entry of the normalised, clipped block depends on its row of pre-activations only. -/
theorem sageCore_apply (o : FVec Ideal S1000x512 .f32) (p : Fin 1000) (q : Fin 512) :
    sageCore o (ix2 p q) = SageNet.unitRelu (fun c => o (ix2 p c)) q := by
  unfold sageCore SageNet.unitRelu
  rw [maximumf_apply, divf_apply, KeepdimsColumn.broadcastTo_a1_ab_apply, maximumf_apply]
  show max (Ideal.div (o (ix2 p q)) (max (Ideal.sqrt (shapeCast S1000x1 _ shapeCasts_S1000_S1000x1 (ix2 p (0 : Fin 1)))) SageNet.epsW)) SageNet.zeroW = _
  rw [KeepdimsColumn.shapeCast_a_a1_apply]
  refine congrArg (fun s => max (Ideal.div (o (ix2 p q)) (max (Ideal.sqrt s) SageNet.epsW)) SageNet.zeroW) ?_
  exact RowReduce.laneSum_at (a := 1000) (b := 512) (mulf o o) 0x00000000#32 reduces_S1000x512_S1000 (.inl rfl) rfl p

/-- The first layer's body at an entry. -/
theorem k0_pay1_apply (x0 x1 : FVec Ideal S1000x512 .f32) (x2 x3 : FVec Ideal S512x512 .f32) (p : Fin 1000) (q : Fin 512) :
    k0_pay1 (F := Ideal) x0 x1 x2 x3 (ix2 p q) = SageNet.unitRelu (SageNet.pre x0 x1 x2 x3 p) q := by
  have e : k0_pay1 (F := Ideal) x0 x1 x2 x3 = sageCore (sagePre x0 x1 x2 x3) := by
    unfold k0_pay1 sageCore sagePre
    simp only [shapeCast_self]
  rw [e, sageCore_apply]
  exact congrArg (SageNet.unitRelu · q) (funext fun c => sagePre_apply x0 x1 x2 x3 p c)

/-- The second layer's body at an entry. -/
theorem k1_pay1_apply (x0 x1 : FVec Ideal S1000x512 .f32) (x2 x3 : FVec Ideal S512x512 .f32) (p : Fin 1000) (q : Fin 512) :
    k1_pay1 (F := Ideal) x0 x1 x2 x3 (ix2 p q) = SageNet.unitRelu (SageNet.pre x0 x1 x2 x3 p) q := by
  have e : k1_pay1 (F := Ideal) x0 x1 x2 x3 = sageCore (sagePre x0 x1 x2 x3) := by
    unfold k1_pay1 sageCore sagePre
    simp only [shapeCast_self]
  rw [e, sageCore_apply]
  exact congrArg (SageNet.unitRelu · q) (funext fun c => sagePre_apply x0 x1 x2 x3 p c)

/-- The third layer's body at an entry. -/
theorem k2_pay1_apply (x0 x1 : FVec Ideal S1000x512 .f32) (x2 x3 : FVec Ideal S512x512 .f32) (p : Fin 1000) (q : Fin 512) :
    k2_pay1 (F := Ideal) x0 x1 x2 x3 (ix2 p q) = SageNet.unitRelu (SageNet.pre x0 x1 x2 x3 p) q := by
  have e : k2_pay1 (F := Ideal) x0 x1 x2 x3 = sageCore (sagePre x0 x1 x2 x3) := by
    unfold k2_pay1 sageCore sagePre
    simp only [shapeCast_self]
  rw [e, sageCore_apply]
  exact congrArg (SageNet.unitRelu · q) (funext fun c => sagePre_apply x0 x1 x2 x3 p c)

end Cert.KernelIdeal.Hand

end
-- ==== Proof.Blocks0.lean ====
/-
  Aggregation layer 0: from what each grid point writes back to the whole output array.

  Grid point t stages rows [1000 t, 1000 t + 1000) of the summed neighbour features and of the node features, and both
  weight matrices whole, and writes back rows [1000 t, 1000 t + 1000) of the output.  An output entry depends on its own
  row of the two activation arrays only, so the block point t writes is the restriction to those rows of ONE function of
  the whole arrays, `SageNet.layer`; the twenty blocks tile the 20000 rows, so the output array ends holding that function.
-/
import proofs.«102595_j29858612642389_1_alg».proof.Proof.Gen.KernelIdeal.Frame
import proofs.«102595_j29858612642389_1_alg».proof.Proof.Pay0
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The layer's output as one function of the four arrays the region finds. -/
def G0 (c : Dev nD) : FVec Ideal ⟨2, ![20000, 512]⟩ .f32 :=
  SageNet.layer (M := 20000) (K := 512) (N := 512) (V c main_v13) (V c main_arg2) (V c main_v14) (V c main_v15)

/-- The block indices over the grid: the two activation windows and the output move one block of rows per point, the
    weight windows stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point t, at (p, k), is the array's entry (1000 t + p, k). -/
theorem iblk0_0_apply (c : Dev nD) (t : Fin cfg0.N) (y : S1000x512.Idx) (i : S20000x512.Idx)
    (h0 : (i 0).val = 1000 * t.val + (y 0).val) (h1 : (i 1).val = (y 1).val) :
    (iblk0 V c 0 t : Vec Ideal S1000x512 .f32) y = (V c main_v13 : S20000x512.Idx → Elt Ideal .f32) i := by
  obtain ⟨e00, e01, -⟩ := idx_facts0 t
  unfold iblk0
  rw [View.read_apply]
  show V c main_v13 _ = V c main_v13 _
  congr 1
  funext a
  apply Fin.ext
  match a with
  | ⟨0, _⟩ => show win0_0.index t (0 : Fin 2) * 1000 + 1 * (y 0).val = (i 0).val; rw [e00, h0]; omega
  | ⟨1, _⟩ => show win0_0.index t (1 : Fin 2) * 512 + 1 * (y 1).val = (i 1).val; rw [e01, h1]; omega

/-- Window 1's block at point t, at (p, k), is the array's entry (1000 t + p, k). -/
theorem iblk0_1_apply (c : Dev nD) (t : Fin cfg0.N) (y : S1000x512.Idx) (i : S20000x512.Idx)
    (h0 : (i 0).val = 1000 * t.val + (y 0).val) (h1 : (i 1).val = (y 1).val) :
    (iblk0 V c 1 t : Vec Ideal S1000x512 .f32) y = (V c main_arg2 : S20000x512.Idx → Elt Ideal .f32) i := by
  obtain ⟨-, -, e10, e11, -⟩ := idx_facts0 t
  unfold iblk0
  rw [View.read_apply]
  show V c main_arg2 _ = V c main_arg2 _
  congr 1
  funext a
  apply Fin.ext
  match a with
  | ⟨0, _⟩ => show win0_1.index t (0 : Fin 2) * 1000 + 1 * (y 0).val = (i 0).val; rw [e10, h0]; omega
  | ⟨1, _⟩ => show win0_1.index t (1 : Fin 2) * 512 + 1 * (y 1).val = (i 1).val; rw [e11, h1]; omega

/-- Window 2's block is the whole first weight matrix at every point. -/
theorem iblk0_2_apply (c : Dev nD) (t : Fin cfg0.N) (y : S512x512.Idx) :
    (iblk0 V c 2 t : Vec Ideal S512x512 .f32) y = (V c main_v14 : S512x512.Idx → Elt Ideal .f32) y := by
  obtain ⟨-, -, -, -, e20, e21, -⟩ := idx_facts0 t
  unfold iblk0
  rw [View.read_apply]
  show V c main_v14 _ = V c main_v14 _
  congr 1
  funext a
  apply Fin.ext
  match a with
  | ⟨0, _⟩ => show win0_2.index t (0 : Fin 2) * 512 + 1 * (y 0).val = (y 0).val; rw [e20]; omega
  | ⟨1, _⟩ => show win0_2.index t (1 : Fin 2) * 512 + 1 * (y 1).val = (y 1).val; rw [e21]; omega

/-- Window 3's block is the whole second weight matrix at every point. -/
theorem iblk0_3_apply (c : Dev nD) (t : Fin cfg0.N) (y : S512x512.Idx) :
    (iblk0 V c 3 t : Vec Ideal S512x512 .f32) y = (V c main_v15 : S512x512.Idx → Elt Ideal .f32) y := by
  obtain ⟨-, -, -, -, -, -, e30, e31, -⟩ := idx_facts0 t
  unfold iblk0
  rw [View.read_apply]
  show V c main_v15 _ = V c main_v15 _
  congr 1
  funext a
  apply Fin.ext
  match a with
  | ⟨0, _⟩ => show win0_3.index t (0 : Fin 2) * 512 + 1 * (y 0).val = (y 0).val; rw [e30]; omega
  | ⟨1, _⟩ => show win0_3.index t (1 : Fin 2) * 512 + 1 * (y 1).val = (y 1).val; rw [e31]; omega

/-- The body's value at a block entry is the layer's value at the array entry in the same row, whenever the blocks hold
    that row of the activations and the weights whole. -/
theorem block_entry0 (x0 x1 : FVec Ideal S1000x512 .f32) (x2 x3 : FVec Ideal S512x512 .f32)
    (A H : FVec Ideal ⟨2, ![20000, 512]⟩ .f32) (WR WL : FVec Ideal S512x512 .f32)
    (y : S1000x512.Idx) (i : S20000x512.Idx)
    (h0 : ∀ k : Fin 512, x0 (ix2 (y 0) k) = A (ix2 (i 0) k)) (h1 : ∀ k : Fin 512, x1 (ix2 (y 0) k) = H (ix2 (i 0) k))
    (h2 : ∀ z, x2 z = WR z) (h3 : ∀ z, x3 z = WL z) (hc : (y 1).val = (i 1).val) :
    k0_pay1 (F := Ideal) x0 x1 x2 x3 y = SageNet.layer (M := 20000) (K := 512) (N := 512) A H WR WL i := by
  obtain rfl : x2 = WR := funext h2
  obtain rfl : x3 = WL := funext h3
  obtain ⟨p, q, rfl⟩ : ∃ (p : Fin 1000) (q : Fin 512), y = ix2 p q := ⟨y 0, y 1, eq_ix2 y⟩
  obtain ⟨r, s, rfl⟩ : ∃ (r : Fin 20000) (s : Fin 512), i = ix2 r s := ⟨i 0, i 1, eq_ix2 i⟩
  obtain rfl : q = s := Fin.ext hc
  rw [k0_pay1_apply, SageNet.layer_ix2]
  exact congrArg (SageNet.unitRelu · q) (SageNet.pre_congr_row A H x0 x1 x2 x3 r p h0 h1)

/-- WHAT POINT t WRITES BACK is block t of the layer's output. -/
theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz0]
  simp only [View.ld_unit_zero (S := S1000x512) hz0, View.ld_unit_zero (S := S512x512) hz0]
  funext j
  show k0_pay1 (F := Ideal) (iblk0 V c 0 t) (iblk0 V c 1 t) (iblk0 V c 2 t) (iblk0 V c 3 t) j
    = G0 V c (((cfg0.win 4).blk t).view.emb j)
  obtain ⟨-, -, -, -, -, -, -, -, e40, e41⟩ := idx_facts0 t
  have hE0 : ((((cfg0.win 4).blk t).view.emb j) 0).val = 1000 * t.val + (j 0).val := by
    show win0_4.index t (0 : Fin 2) * 1000 + 1 * (j 0).val = _
    rw [e40]; omega
  have hE1 : ((((cfg0.win 4).blk t).view.emb j) 1).val = (j 1).val := by
    show win0_4.index t (1 : Fin 2) * 512 + 1 * (j 1).val = _
    rw [e41]; omega
  unfold G0
  refine block_entry0 _ _ _ _ _ _ _ _ j _ (fun k => ?_) (fun k => ?_) (fun z => ?_) (fun z => ?_) hE1.symm
  · exact iblk0_0_apply V c t _ _ hE0 rfl
  · exact iblk0_1_apply V c t _ _ hE0 rfl
  · exact iblk0_2_apply V c t z
  · exact iblk0_3_apply V c t z

/-- Every row of the output lies in the block of the point that owns its thousand. -/
theorem cover0 (i : S20000x512.Idx) :
    ∃ t : Fin cfg0.N, (cfg0.win 4).flush t = true ∧ i ∈ ((cfg0.win 4).blk t).view.set := by
  have hN : cfg0.N = 20 := N_0
  have hi0 : (i 0).val < 20000 := (i 0).isLt
  have hi1 : (i 1).val < 512 := (i 1).isLt
  have ht : (i 0).val / 1000 < cfg0.N := by rw [hN]; omega
  refine ⟨⟨(i 0).val / 1000, ht⟩, flush0_4 _, ?_⟩
  obtain ⟨-, -, -, -, -, -, -, -, e40, e41⟩ := idx_facts0 ⟨(i 0).val / 1000, ht⟩
  show i ∈ ((View.whole main_v16).slice (win0_4.rect ⟨(i 0).val / 1000, ht⟩)).set
  rw [View.set_slice_whole, Rect.mem_set_unit]
  intro a
  match a with
  | ⟨0, _⟩ =>
    show win0_4.index ⟨(i 0).val / 1000, ht⟩ (0 : Fin 2) * 1000 ≤ (i 0).val
      ∧ (i 0).val < win0_4.index ⟨(i 0).val / 1000, ht⟩ (0 : Fin 2) * 1000 + 1000
    rw [e40]
    show (i 0).val / 1000 * 1000 ≤ (i 0).val ∧ (i 0).val < (i 0).val / 1000 * 1000 + 1000
    omega
  | ⟨1, _⟩ =>
    show win0_4.index ⟨(i 0).val / 1000, ht⟩ (1 : Fin 2) * 512 ≤ (i 1).val
      ∧ (i 1).val < win0_4.index ⟨(i 0).val / 1000, ht⟩ (1 : Fin 2) * 512 + 512
    rw [e41]
    omega

/-- THE OUTPUT ARRAY after the region: the layer of the four arrays the region found. -/
theorem final0 (c : Dev nD) : (dat0 V c).arrAt 4 cfg0.N = G0 V c :=
  (dat0 V c).arrAt_eq_of_cover 4 (G0 V c) (fun t _ => flushed0_eq V c t) cover0

end Cert.KernelIdeal.Hand

end
-- ==== Proof.Blocks1.lean ====
/-
  Aggregation layer 1: from what each grid point writes back to the whole output array.

  Grid point t stages rows [1000 t, 1000 t + 1000) of the summed neighbour features and of the node features, and both
  weight matrices whole, and writes back rows [1000 t, 1000 t + 1000) of the output.  An output entry depends on its own
  row of the two activation arrays only, so the block point t writes is the restriction to those rows of ONE function of
  the whole arrays, `SageNet.layer`; the twenty blocks tile the 20000 rows, so the output array ends holding that function.
-/
import proofs.«102595_j29858612642389_1_alg».proof.Proof.Gen.KernelIdeal.Frame
import proofs.«102595_j29858612642389_1_alg».proof.Proof.Pay0
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The layer's output as one function of the four arrays the region finds. -/
def G1 (c : Dev nD) : FVec Ideal ⟨2, ![20000, 512]⟩ .f32 :=
  SageNet.layer (M := 20000) (K := 512) (N := 512) (V c main_v26) (V c main_v16) (V c main_v27) (V c main_v28)

/-- The block indices over the grid: the two activation windows and the output move one block of rows per point, the
    weight windows stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t, at (p, k), is the array's entry (1000 t + p, k). -/
theorem iblk1_0_apply (c : Dev nD) (t : Fin cfg1.N) (y : S1000x512.Idx) (i : S20000x512.Idx)
    (h0 : (i 0).val = 1000 * t.val + (y 0).val) (h1 : (i 1).val = (y 1).val) :
    (iblk1 V c 0 t : Vec Ideal S1000x512 .f32) y = (V c main_v26 : S20000x512.Idx → Elt Ideal .f32) i := by
  obtain ⟨e00, e01, -⟩ := idx_facts1 t
  unfold iblk1
  rw [View.read_apply]
  show V c main_v26 _ = V c main_v26 _
  congr 1
  funext a
  apply Fin.ext
  match a with
  | ⟨0, _⟩ => show win1_0.index t (0 : Fin 2) * 1000 + 1 * (y 0).val = (i 0).val; rw [e00, h0]; omega
  | ⟨1, _⟩ => show win1_0.index t (1 : Fin 2) * 512 + 1 * (y 1).val = (i 1).val; rw [e01, h1]; omega

/-- Window 1's block at point t, at (p, k), is the array's entry (1000 t + p, k). -/
theorem iblk1_1_apply (c : Dev nD) (t : Fin cfg1.N) (y : S1000x512.Idx) (i : S20000x512.Idx)
    (h0 : (i 0).val = 1000 * t.val + (y 0).val) (h1 : (i 1).val = (y 1).val) :
    (iblk1 V c 1 t : Vec Ideal S1000x512 .f32) y = (V c main_v16 : S20000x512.Idx → Elt Ideal .f32) i := by
  obtain ⟨-, -, e10, e11, -⟩ := idx_facts1 t
  unfold iblk1
  rw [View.read_apply]
  show V c main_v16 _ = V c main_v16 _
  congr 1
  funext a
  apply Fin.ext
  match a with
  | ⟨0, _⟩ => show win1_1.index t (0 : Fin 2) * 1000 + 1 * (y 0).val = (i 0).val; rw [e10, h0]; omega
  | ⟨1, _⟩ => show win1_1.index t (1 : Fin 2) * 512 + 1 * (y 1).val = (i 1).val; rw [e11, h1]; omega

/-- Window 2's block is the whole first weight matrix at every point. -/
theorem iblk1_2_apply (c : Dev nD) (t : Fin cfg1.N) (y : S512x512.Idx) :
    (iblk1 V c 2 t : Vec Ideal S512x512 .f32) y = (V c main_v27 : S512x512.Idx → Elt Ideal .f32) y := by
  obtain ⟨-, -, -, -, e20, e21, -⟩ := idx_facts1 t
  unfold iblk1
  rw [View.read_apply]
  show V c main_v27 _ = V c main_v27 _
  congr 1
  funext a
  apply Fin.ext
  match a with
  | ⟨0, _⟩ => show win1_2.index t (0 : Fin 2) * 512 + 1 * (y 0).val = (y 0).val; rw [e20]; omega
  | ⟨1, _⟩ => show win1_2.index t (1 : Fin 2) * 512 + 1 * (y 1).val = (y 1).val; rw [e21]; omega

/-- Window 3's block is the whole second weight matrix at every point. -/
theorem iblk1_3_apply (c : Dev nD) (t : Fin cfg1.N) (y : S512x512.Idx) :
    (iblk1 V c 3 t : Vec Ideal S512x512 .f32) y = (V c main_v28 : S512x512.Idx → Elt Ideal .f32) y := by
  obtain ⟨-, -, -, -, -, -, e30, e31, -⟩ := idx_facts1 t
  unfold iblk1
  rw [View.read_apply]
  show V c main_v28 _ = V c main_v28 _
  congr 1
  funext a
  apply Fin.ext
  match a with
  | ⟨0, _⟩ => show win1_3.index t (0 : Fin 2) * 512 + 1 * (y 0).val = (y 0).val; rw [e30]; omega
  | ⟨1, _⟩ => show win1_3.index t (1 : Fin 2) * 512 + 1 * (y 1).val = (y 1).val; rw [e31]; omega

/-- The body's value at a block entry is the layer's value at the array entry in the same row, whenever the blocks hold
    that row of the activations and the weights whole. -/
theorem block_entry1 (x0 x1 : FVec Ideal S1000x512 .f32) (x2 x3 : FVec Ideal S512x512 .f32)
    (A H : FVec Ideal ⟨2, ![20000, 512]⟩ .f32) (WR WL : FVec Ideal S512x512 .f32)
    (y : S1000x512.Idx) (i : S20000x512.Idx)
    (h0 : ∀ k : Fin 512, x0 (ix2 (y 0) k) = A (ix2 (i 0) k)) (h1 : ∀ k : Fin 512, x1 (ix2 (y 0) k) = H (ix2 (i 0) k))
    (h2 : ∀ z, x2 z = WR z) (h3 : ∀ z, x3 z = WL z) (hc : (y 1).val = (i 1).val) :
    k1_pay1 (F := Ideal) x0 x1 x2 x3 y = SageNet.layer (M := 20000) (K := 512) (N := 512) A H WR WL i := by
  obtain rfl : x2 = WR := funext h2
  obtain rfl : x3 = WL := funext h3
  obtain ⟨p, q, rfl⟩ : ∃ (p : Fin 1000) (q : Fin 512), y = ix2 p q := ⟨y 0, y 1, eq_ix2 y⟩
  obtain ⟨r, s, rfl⟩ : ∃ (r : Fin 20000) (s : Fin 512), i = ix2 r s := ⟨i 0, i 1, eq_ix2 i⟩
  obtain rfl : q = s := Fin.ext hc
  rw [k1_pay1_apply, SageNet.layer_ix2]
  exact congrArg (SageNet.unitRelu · q) (SageNet.pre_congr_row A H x0 x1 x2 x3 r p h0 h1)

/-- WHAT POINT t WRITES BACK is block t of the layer's output. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S1000x512) hz1, View.ld_unit_zero (S := S512x512) hz1]
  funext j
  show k1_pay1 (F := Ideal) (iblk1 V c 0 t) (iblk1 V c 1 t) (iblk1 V c 2 t) (iblk1 V c 3 t) j
    = G1 V c (((cfg1.win 4).blk t).view.emb j)
  obtain ⟨-, -, -, -, -, -, -, -, e40, e41⟩ := idx_facts1 t
  have hE0 : ((((cfg1.win 4).blk t).view.emb j) 0).val = 1000 * t.val + (j 0).val := by
    show win1_4.index t (0 : Fin 2) * 1000 + 1 * (j 0).val = _
    rw [e40]; omega
  have hE1 : ((((cfg1.win 4).blk t).view.emb j) 1).val = (j 1).val := by
    show win1_4.index t (1 : Fin 2) * 512 + 1 * (j 1).val = _
    rw [e41]; omega
  unfold G1
  refine block_entry1 _ _ _ _ _ _ _ _ j _ (fun k => ?_) (fun k => ?_) (fun z => ?_) (fun z => ?_) hE1.symm
  · exact iblk1_0_apply V c t _ _ hE0 rfl
  · exact iblk1_1_apply V c t _ _ hE0 rfl
  · exact iblk1_2_apply V c t z
  · exact iblk1_3_apply V c t z

/-- Every row of the output lies in the block of the point that owns its thousand. -/
theorem cover1 (i : S20000x512.Idx) :
    ∃ t : Fin cfg1.N, (cfg1.win 4).flush t = true ∧ i ∈ ((cfg1.win 4).blk t).view.set := by
  have hN : cfg1.N = 20 := N_1
  have hi0 : (i 0).val < 20000 := (i 0).isLt
  have hi1 : (i 1).val < 512 := (i 1).isLt
  have ht : (i 0).val / 1000 < cfg1.N := by rw [hN]; omega
  refine ⟨⟨(i 0).val / 1000, ht⟩, flush1_4 _, ?_⟩
  obtain ⟨-, -, -, -, -, -, -, -, e40, e41⟩ := idx_facts1 ⟨(i 0).val / 1000, ht⟩
  show i ∈ ((View.whole main_v29).slice (win1_4.rect ⟨(i 0).val / 1000, ht⟩)).set
  rw [View.set_slice_whole, Rect.mem_set_unit]
  intro a
  match a with
  | ⟨0, _⟩ =>
    show win1_4.index ⟨(i 0).val / 1000, ht⟩ (0 : Fin 2) * 1000 ≤ (i 0).val
      ∧ (i 0).val < win1_4.index ⟨(i 0).val / 1000, ht⟩ (0 : Fin 2) * 1000 + 1000
    rw [e40]
    show (i 0).val / 1000 * 1000 ≤ (i 0).val ∧ (i 0).val < (i 0).val / 1000 * 1000 + 1000
    omega
  | ⟨1, _⟩ =>
    show win1_4.index ⟨(i 0).val / 1000, ht⟩ (1 : Fin 2) * 512 ≤ (i 1).val
      ∧ (i 1).val < win1_4.index ⟨(i 0).val / 1000, ht⟩ (1 : Fin 2) * 512 + 512
    rw [e41]
    omega

/-- THE OUTPUT ARRAY after the region: the layer of the four arrays the region found. -/
theorem final1 (c : Dev nD) : (dat1 V c).arrAt 4 cfg1.N = G1 V c :=
  (dat1 V c).arrAt_eq_of_cover 4 (G1 V c) (fun t _ => flushed1_eq V c t) cover1

end Cert.KernelIdeal.Hand

end
-- ==== Proof.Blocks2.lean ====
/-
  Aggregation layer 2: from what each grid point writes back to the whole output array.

  Grid point t stages rows [1000 t, 1000 t + 1000) of the summed neighbour features and of the node features, and both
  weight matrices whole, and writes back rows [1000 t, 1000 t + 1000) of the output.  An output entry depends on its own
  row of the two activation arrays only, so the block point t writes is the restriction to those rows of ONE function of
  the whole arrays, `SageNet.layer`; the twenty blocks tile the 20000 rows, so the output array ends holding that function.
-/
import proofs.«102595_j29858612642389_1_alg».proof.Proof.Gen.KernelIdeal.Frame
import proofs.«102595_j29858612642389_1_alg».proof.Proof.Pay0
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The layer's output as one function of the four arrays the region finds. -/
def G2 (c : Dev nD) : FVec Ideal ⟨2, ![20000, 512]⟩ .f32 :=
  SageNet.layer (M := 20000) (K := 512) (N := 512) (V c main_v39) (V c main_v29) (V c main_v40) (V c main_v41)

/-- The block indices over the grid: the two activation windows and the output move one block of rows per point, the
    weight windows stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point t, at (p, k), is the array's entry (1000 t + p, k). -/
theorem iblk2_0_apply (c : Dev nD) (t : Fin cfg2.N) (y : S1000x512.Idx) (i : S20000x512.Idx)
    (h0 : (i 0).val = 1000 * t.val + (y 0).val) (h1 : (i 1).val = (y 1).val) :
    (iblk2 V c 0 t : Vec Ideal S1000x512 .f32) y = (V c main_v39 : S20000x512.Idx → Elt Ideal .f32) i := by
  obtain ⟨e00, e01, -⟩ := idx_facts2 t
  unfold iblk2
  rw [View.read_apply]
  show V c main_v39 _ = V c main_v39 _
  congr 1
  funext a
  apply Fin.ext
  match a with
  | ⟨0, _⟩ => show win2_0.index t (0 : Fin 2) * 1000 + 1 * (y 0).val = (i 0).val; rw [e00, h0]; omega
  | ⟨1, _⟩ => show win2_0.index t (1 : Fin 2) * 512 + 1 * (y 1).val = (i 1).val; rw [e01, h1]; omega

/-- Window 1's block at point t, at (p, k), is the array's entry (1000 t + p, k). -/
theorem iblk2_1_apply (c : Dev nD) (t : Fin cfg2.N) (y : S1000x512.Idx) (i : S20000x512.Idx)
    (h0 : (i 0).val = 1000 * t.val + (y 0).val) (h1 : (i 1).val = (y 1).val) :
    (iblk2 V c 1 t : Vec Ideal S1000x512 .f32) y = (V c main_v29 : S20000x512.Idx → Elt Ideal .f32) i := by
  obtain ⟨-, -, e10, e11, -⟩ := idx_facts2 t
  unfold iblk2
  rw [View.read_apply]
  show V c main_v29 _ = V c main_v29 _
  congr 1
  funext a
  apply Fin.ext
  match a with
  | ⟨0, _⟩ => show win2_1.index t (0 : Fin 2) * 1000 + 1 * (y 0).val = (i 0).val; rw [e10, h0]; omega
  | ⟨1, _⟩ => show win2_1.index t (1 : Fin 2) * 512 + 1 * (y 1).val = (i 1).val; rw [e11, h1]; omega

/-- Window 2's block is the whole first weight matrix at every point. -/
theorem iblk2_2_apply (c : Dev nD) (t : Fin cfg2.N) (y : S512x512.Idx) :
    (iblk2 V c 2 t : Vec Ideal S512x512 .f32) y = (V c main_v40 : S512x512.Idx → Elt Ideal .f32) y := by
  obtain ⟨-, -, -, -, e20, e21, -⟩ := idx_facts2 t
  unfold iblk2
  rw [View.read_apply]
  show V c main_v40 _ = V c main_v40 _
  congr 1
  funext a
  apply Fin.ext
  match a with
  | ⟨0, _⟩ => show win2_2.index t (0 : Fin 2) * 512 + 1 * (y 0).val = (y 0).val; rw [e20]; omega
  | ⟨1, _⟩ => show win2_2.index t (1 : Fin 2) * 512 + 1 * (y 1).val = (y 1).val; rw [e21]; omega

/-- Window 3's block is the whole second weight matrix at every point. -/
theorem iblk2_3_apply (c : Dev nD) (t : Fin cfg2.N) (y : S512x512.Idx) :
    (iblk2 V c 3 t : Vec Ideal S512x512 .f32) y = (V c main_v41 : S512x512.Idx → Elt Ideal .f32) y := by
  obtain ⟨-, -, -, -, -, -, e30, e31, -⟩ := idx_facts2 t
  unfold iblk2
  rw [View.read_apply]
  show V c main_v41 _ = V c main_v41 _
  congr 1
  funext a
  apply Fin.ext
  match a with
  | ⟨0, _⟩ => show win2_3.index t (0 : Fin 2) * 512 + 1 * (y 0).val = (y 0).val; rw [e30]; omega
  | ⟨1, _⟩ => show win2_3.index t (1 : Fin 2) * 512 + 1 * (y 1).val = (y 1).val; rw [e31]; omega

/-- The body's value at a block entry is the layer's value at the array entry in the same row, whenever the blocks hold
    that row of the activations and the weights whole. -/
theorem block_entry2 (x0 x1 : FVec Ideal S1000x512 .f32) (x2 x3 : FVec Ideal S512x512 .f32)
    (A H : FVec Ideal ⟨2, ![20000, 512]⟩ .f32) (WR WL : FVec Ideal S512x512 .f32)
    (y : S1000x512.Idx) (i : S20000x512.Idx)
    (h0 : ∀ k : Fin 512, x0 (ix2 (y 0) k) = A (ix2 (i 0) k)) (h1 : ∀ k : Fin 512, x1 (ix2 (y 0) k) = H (ix2 (i 0) k))
    (h2 : ∀ z, x2 z = WR z) (h3 : ∀ z, x3 z = WL z) (hc : (y 1).val = (i 1).val) :
    k2_pay1 (F := Ideal) x0 x1 x2 x3 y = SageNet.layer (M := 20000) (K := 512) (N := 512) A H WR WL i := by
  obtain rfl : x2 = WR := funext h2
  obtain rfl : x3 = WL := funext h3
  obtain ⟨p, q, rfl⟩ : ∃ (p : Fin 1000) (q : Fin 512), y = ix2 p q := ⟨y 0, y 1, eq_ix2 y⟩
  obtain ⟨r, s, rfl⟩ : ∃ (r : Fin 20000) (s : Fin 512), i = ix2 r s := ⟨i 0, i 1, eq_ix2 i⟩
  obtain rfl : q = s := Fin.ext hc
  rw [k2_pay1_apply, SageNet.layer_ix2]
  exact congrArg (SageNet.unitRelu · q) (SageNet.pre_congr_row A H x0 x1 x2 x3 r p h0 h1)

/-- WHAT POINT t WRITES BACK is block t of the layer's output. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S1000x512) hz2, View.ld_unit_zero (S := S512x512) hz2]
  funext j
  show k2_pay1 (F := Ideal) (iblk2 V c 0 t) (iblk2 V c 1 t) (iblk2 V c 2 t) (iblk2 V c 3 t) j
    = G2 V c (((cfg2.win 4).blk t).view.emb j)
  obtain ⟨-, -, -, -, -, -, -, -, e40, e41⟩ := idx_facts2 t
  have hE0 : ((((cfg2.win 4).blk t).view.emb j) 0).val = 1000 * t.val + (j 0).val := by
    show win2_4.index t (0 : Fin 2) * 1000 + 1 * (j 0).val = _
    rw [e40]; omega
  have hE1 : ((((cfg2.win 4).blk t).view.emb j) 1).val = (j 1).val := by
    show win2_4.index t (1 : Fin 2) * 512 + 1 * (j 1).val = _
    rw [e41]; omega
  unfold G2
  refine block_entry2 _ _ _ _ _ _ _ _ j _ (fun k => ?_) (fun k => ?_) (fun z => ?_) (fun z => ?_) hE1.symm
  · exact iblk2_0_apply V c t _ _ hE0 rfl
  · exact iblk2_1_apply V c t _ _ hE0 rfl
  · exact iblk2_2_apply V c t z
  · exact iblk2_3_apply V c t z

/-- Every row of the output lies in the block of the point that owns its thousand. -/
theorem cover2 (i : S20000x512.Idx) :
    ∃ t : Fin cfg2.N, (cfg2.win 4).flush t = true ∧ i ∈ ((cfg2.win 4).blk t).view.set := by
  have hN : cfg2.N = 20 := N_2
  have hi0 : (i 0).val < 20000 := (i 0).isLt
  have hi1 : (i 1).val < 512 := (i 1).isLt
  have ht : (i 0).val / 1000 < cfg2.N := by rw [hN]; omega
  refine ⟨⟨(i 0).val / 1000, ht⟩, flush2_4 _, ?_⟩
  obtain ⟨-, -, -, -, -, -, -, -, e40, e41⟩ := idx_facts2 ⟨(i 0).val / 1000, ht⟩
  show i ∈ ((View.whole main_v42).slice (win2_4.rect ⟨(i 0).val / 1000, ht⟩)).set
  rw [View.set_slice_whole, Rect.mem_set_unit]
  intro a
  match a with
  | ⟨0, _⟩ =>
    show win2_4.index ⟨(i 0).val / 1000, ht⟩ (0 : Fin 2) * 1000 ≤ (i 0).val
      ∧ (i 0).val < win2_4.index ⟨(i 0).val / 1000, ht⟩ (0 : Fin 2) * 1000 + 1000
    rw [e40]
    show (i 0).val / 1000 * 1000 ≤ (i 0).val ∧ (i 0).val < (i 0).val / 1000 * 1000 + 1000
    omega
  | ⟨1, _⟩ =>
    show win2_4.index ⟨(i 0).val / 1000, ht⟩ (1 : Fin 2) * 512 ≤ (i 1).val
      ∧ (i 1).val < win2_4.index ⟨(i 0).val / 1000, ht⟩ (1 : Fin 2) * 512 + 512
    rw [e41]
    omega

/-- THE OUTPUT ARRAY after the region: the layer of the four arrays the region found. -/
theorem final2 (c : Dev nD) : (dat2 V c).arrAt 4 cfg2.N = G2 V c :=
  (dat2 V c).arrAt_eq_of_cover 4 (G2 V c) (fun t _ => flushed2_eq V c t) cover2

end Cert.KernelIdeal.Hand

end
-- ==== Proof.Pay3.lean ====
/-
  What one grid point of the read-out computes, entry by entry.

  The body takes a block of 1000 rows of the activations, the two whole (already transposed) weight matrices and the two
  bias rows. It forms the hidden rows  h = x·W₁ + b₁  and the logits  z = h·W₂ + b₂,  each product exact into a zero
  accumulator (the roundings to the narrow format are the identity on exact values), takes per row the maximum m of z starting from −∞, and returns
  (z − m) − log Σ_c exp(z(·, c) − m). Read at row p and column q this is `SageNet.logSoftmax` of row p of
  `SageNet.logit`: the entry depends on row p of the activation block only.
-/
import proofs.«102595_j29858612642389_1_alg».proof.Proof.Gen.KernelIdeal.Skeleton
import proofs.«102595_j29858612642389_1_alg».proof.Proof.Spec
import proofs.«102595_j29858612642389_1_alg».proof.Proof.LibPlainMatmul
import proofs.«102595_j29858612642389_1_alg».proof.Proof.LibRowReduce
import proofs.«102595_j29858612642389_1_alg».proof.Proof.LibKeepdimsColumn
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- A [1, J] row as a vector of J entries. -/
def rowVec {J : ℕ} (x : FVec Ideal ⟨2, ![1, J]⟩ .f32) : FVec Ideal ⟨1, ![J]⟩ .f32 := fun i => x (ix2 (0 : Fin 1) (i 0))

/-- The hidden block: the activations' product with W₁ into a zero accumulator, plus the bias row on every row. -/
def readHid (x0 : FVec Ideal S1000x512 .f32) (x1 : FVec Ideal S512x512 .f32) (x2 : FVec Ideal S1x512 .f32) : FVec Ideal S1000x512 .f32 :=
  addf (matmul (F := Ideal) dot_S1000x512_S512x512_S1000x512_1_0_0_1_n_n none (truncf .bf16 x0 bitsLt_bf16_f32) (truncf .bf16 x1 bitsLt_bf16_f32)
      (constant (F := Ideal) S1000x512 .f32 0x00000000#32))
    (broadcastTo S1000x512 x2 broadcasts_S1x512_S1000x512)

/-- The block of logits: the hidden block's product with W₂ into a zero accumulator, plus the bias row on every row. -/
def readLogit (h : FVec Ideal S1000x512 .f32) (x3 : FVec Ideal S512x256 .f32) (x4 : FVec Ideal S1x256 .f32) : FVec Ideal S1000x256 .f32 :=
  addf (matmul (F := Ideal) dot_S1000x512_S512x256_S1000x256_1_0_0_1_n_n none (truncf .bf16 h bitsLt_bf16_f32) (truncf .bf16 x3 bitsLt_bf16_f32)
      (constant (F := Ideal) S1000x256 .f32 0x00000000#32))
    (broadcastTo S1000x256 x4 broadcasts_S1x256_S1000x256)

/-- A block of logits with each row's maximum (taken from −∞) subtracted from the row. -/
def rowShift (z : FVec Ideal S1000x256 .f32) : FVec Ideal S1000x256 .f32 :=
  subf z
    (broadcastTo S1000x256
      (shapeCast S1000x1
        (multiReduction (F := Ideal) .maximumf [1] S1000 z 0xFF800000#32 reduces_S1000x256_S1000 (.inl rfl) rfl)
        shapeCasts_S1000_S1000x1)
      broadcasts_S1000x1_S1000x256)

/-- A shifted block minus, on each row, the logarithm of the row's sum of exponentials. -/
def rowLogNorm (s : FVec Ideal S1000x256 .f32) : FVec Ideal S1000x256 .f32 :=
  subf s
    (broadcastTo S1000x256
      (log (shapeCast S1000x1
        (multiReduction (F := Ideal) .add [1] S1000 (exp s) 0x00000000#32 reduces_S1000x256_S1000 (.inl rfl) rfl)
        shapeCasts_S1000_S1000x1))
      broadcasts_S1000x1_S1000x256)

/-- An entry of the hidden block is the dot product of row p with column j of W₁ plus the bias at j. -/
theorem readHid_apply (x0 : FVec Ideal S1000x512 .f32) (x1 : FVec Ideal S512x512 .f32) (x2 : FVec Ideal S1x512 .f32)
    (p : Fin 1000) (j : Fin 512) :
    readHid x0 x1 x2 (ix2 p j) = SageNet.hid x0 x1 (rowVec x2) p j := by
  unfold readHid SageNet.hid
  rw [addf_apply]
  exact congrArg₂ (· + ·)
    (PlainMatmul.apply_zero (M := 1000) (K := 512) (N := 512) (truncf .bf16 x0 bitsLt_bf16_f32) (truncf .bf16 x1 bitsLt_bf16_f32) p j)
    (broadcastTo_1b_ab_apply (a := 1000) (b := 512) x2 broadcasts_S1x512_S1000x512 p j)

/-- An entry of the block of logits is the dot product of row p of the hidden block with column c of W₂ plus the bias at c. -/
theorem readLogit_apply (h : FVec Ideal S1000x512 .f32) (x3 : FVec Ideal S512x256 .f32) (x4 : FVec Ideal S1x256 .f32)
    (p : Fin 1000) (c : Fin 256) :
    readLogit h x3 x4 (ix2 p c) = (∑ j : Fin 512, h (ix2 p j) * x3 (ix2 j c)) + rowVec x4 (ix1 c) := by
  unfold readLogit
  rw [addf_apply]
  exact congrArg₂ (· + ·)
    (PlainMatmul.apply_zero (M := 1000) (K := 512) (N := 256) (truncf .bf16 h bitsLt_bf16_f32) (truncf .bf16 x3 bitsLt_bf16_f32) p c)
    (broadcastTo_1b_ab_apply (a := 1000) (b := 256) x4 broadcasts_S1x256_S1000x256 p c)

/-- An entry of the shifted block: the logit minus the maximum of its row, the maximum starting from −∞. -/
theorem rowShift_apply (z : FVec Ideal S1000x256 .f32) (p : Fin 1000) (q : Fin 256) :
    rowShift z (ix2 p q) = z (ix2 p q) - (Finset.univ : Finset (Fin 256)).fold max SageNet.negInfW (fun c => z (ix2 p c)) := by
  unfold rowShift
  rw [subf_apply, KeepdimsColumn.broadcastTo_a1_ab_apply, KeepdimsColumn.shapeCast_a_a1_apply]
  exact congrArg (z (ix2 p q) - ·)
    (RowReduce.laneMax_at (a := 1000) (b := 256) z 0xFF800000#32 reduces_S1000x256_S1000 (.inl rfl) rfl p)

/-- An entry of the normalised block: the shifted entry minus the logarithm of its row's sum of exponentials. -/
theorem rowLogNorm_apply (s : FVec Ideal S1000x256 .f32) (p : Fin 1000) (q : Fin 256) :
    rowLogNorm s (ix2 p q) = s (ix2 p q) - Ideal.log (∑ c : Fin 256, Ideal.exp (s (ix2 p c))) := by
  unfold rowLogNorm
  rw [subf_apply, KeepdimsColumn.broadcastTo_a1_ab_apply]
  show s (ix2 p q) - Ideal.log (shapeCast S1000x1 _ shapeCasts_S1000_S1000x1 (ix2 p (0 : Fin 1))) = _
  rw [KeepdimsColumn.shapeCast_a_a1_apply]
  exact congrArg (fun t => s (ix2 p q) - Ideal.log t)
    (RowReduce.laneSum_at (a := 1000) (b := 256) (exp s) 0x00000000#32 reduces_S1000x256_S1000 (.inl rfl) rfl p)

/-- The read-out's body at an entry: the log-softmax of row p of the logits, at column q. -/
theorem k3_pay1_apply (x0 : FVec Ideal S1000x512 .f32) (x1 : FVec Ideal S512x512 .f32) (x2 : FVec Ideal S1x512 .f32)
    (x3 : FVec Ideal S512x256 .f32) (x4 : FVec Ideal S1x256 .f32) (p : Fin 1000) (q : Fin 256) :
    k3_pay1 (F := Ideal) x0 x1 x2 x3 x4 (ix2 p q)
      = SageNet.logSoftmax (SageNet.logit x0 x1 (rowVec x2) x3 (rowVec x4) p) q := by
  have e : k3_pay1 (F := Ideal) x0 x1 x2 x3 x4 = rowLogNorm (rowShift (readLogit (readHid x0 x1 x2) x3 x4)) := by
    unfold k3_pay1 rowLogNorm rowShift readLogit readHid
    simp only [shapeCast_self]
  have hz : ∀ c : Fin 256, readLogit (readHid x0 x1 x2) x3 x4 (ix2 p c) = SageNet.logit x0 x1 (rowVec x2) x3 (rowVec x4) p c := fun c => by
    rw [readLogit_apply]
    unfold SageNet.logit
    exact congrArg (· + rowVec x4 (ix1 c))
      (Finset.sum_congr rfl fun j _ => congrArg (· * x3 (ix2 j c)) (readHid_apply x0 x1 x2 p j))
  rw [e, rowLogNorm_apply]
  simp only [rowShift_apply, hz]
  rfl

end Cert.KernelIdeal.Hand

end
-- ==== Proof.Blocks3.lean ====
/-
  The read-out: from what each grid point writes back to the whole result array.

  Grid point t stages rows [1000 t, 1000 t + 1000) of the activations and, whole, the two weight matrices and the two
  bias rows, and writes back rows [1000 t, 1000 t + 1000) of the result.  A result entry depends on its own row of the
  activations only, so the block point t writes is the restriction to those rows of ONE function of the whole arrays,
  `SageNet.readout`; the twenty blocks tile the 20000 rows, so the result array ends holding that function.
-/
import proofs.«102595_j29858612642389_1_alg».proof.Proof.Gen.KernelIdeal.Frame
import proofs.«102595_j29858612642389_1_alg».proof.Proof.Pay3
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

/-- The read-out's result as one function of the five arrays the region finds: the activations, W₁, b₁, W₂, b₂. -/
def G3 (c : Dev nD) : FVec Ideal ⟨2, ![20000, 256]⟩ .f32 :=
  SageNet.readout (M := 20000) (K := 512) (J := 512) (N := 256) (V c main_v42) (V c main_v43) (rowVec (V c main_v45))
    (V c main_v44) (rowVec (V c main_v46))

/-- The block indices over the grid: the activations' window and the result's move one block of rows per point, the
    weights' and biases' windows stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t, at (p, k), is the array's entry (1000 t + p, k). -/
theorem iblk3_0_apply (c : Dev nD) (t : Fin cfg3.N) (y : S1000x512.Idx) (i : S20000x512.Idx)
    (h0 : (i 0).val = 1000 * t.val + (y 0).val) (h1 : (i 1).val = (y 1).val) :
    (iblk3 V c 0 t : Vec Ideal S1000x512 .f32) y = (V c main_v42 : S20000x512.Idx → Elt Ideal .f32) i := by
  obtain ⟨e00, e01, -⟩ := idx_facts3 t
  unfold iblk3
  rw [View.read_apply]
  show V c main_v42 _ = V c main_v42 _
  congr 1
  funext a
  apply Fin.ext
  match a with
  | ⟨0, _⟩ => show win3_0.index t (0 : Fin 2) * 1000 + 1 * (y 0).val = (i 0).val; rw [e00, h0]; omega
  | ⟨1, _⟩ => show win3_0.index t (1 : Fin 2) * 512 + 1 * (y 1).val = (i 1).val; rw [e01, h1]; omega

/-- Window 1's block is the whole first weight matrix at every point. -/
theorem iblk3_1_apply (c : Dev nD) (t : Fin cfg3.N) (y : S512x512.Idx) :
    (iblk3 V c 1 t : Vec Ideal S512x512 .f32) y = (V c main_v43 : S512x512.Idx → Elt Ideal .f32) y := by
  obtain ⟨-, -, e10, e11, -⟩ := idx_facts3 t
  unfold iblk3
  rw [View.read_apply]
  show V c main_v43 _ = V c main_v43 _
  congr 1
  funext a
  apply Fin.ext
  match a with
  | ⟨0, _⟩ => show win3_1.index t (0 : Fin 2) * 512 + 1 * (y 0).val = (y 0).val; rw [e10]; omega
  | ⟨1, _⟩ => show win3_1.index t (1 : Fin 2) * 512 + 1 * (y 1).val = (y 1).val; rw [e11]; omega

/-- Window 2's block is the whole first bias row at every point. -/
theorem iblk3_2_apply (c : Dev nD) (t : Fin cfg3.N) (y : S1x512.Idx) :
    (iblk3 V c 2 t : Vec Ideal S1x512 .f32) y = (V c main_v45 : S1x512.Idx → Elt Ideal .f32) y := by
  obtain ⟨-, -, -, -, e20, e21, -⟩ := idx_facts3 t
  unfold iblk3
  rw [View.read_apply]
  show V c main_v45 _ = V c main_v45 _
  congr 1
  funext a
  apply Fin.ext
  match a with
  | ⟨0, _⟩ => show win3_2.index t (0 : Fin 2) * 1 + 1 * (y 0).val = (y 0).val; rw [e20]; omega
  | ⟨1, _⟩ => show win3_2.index t (1 : Fin 2) * 512 + 1 * (y 1).val = (y 1).val; rw [e21]; omega

/-- Window 3's block is the whole second weight matrix at every point. -/
theorem iblk3_3_apply (c : Dev nD) (t : Fin cfg3.N) (y : S512x256.Idx) :
    (iblk3 V c 3 t : Vec Ideal S512x256 .f32) y = (V c main_v44 : S512x256.Idx → Elt Ideal .f32) y := by
  obtain ⟨-, -, -, -, -, -, e30, e31, -⟩ := idx_facts3 t
  unfold iblk3
  rw [View.read_apply]
  show V c main_v44 _ = V c main_v44 _
  congr 1
  funext a
  apply Fin.ext
  match a with
  | ⟨0, _⟩ => show win3_3.index t (0 : Fin 2) * 512 + 1 * (y 0).val = (y 0).val; rw [e30]; omega
  | ⟨1, _⟩ => show win3_3.index t (1 : Fin 2) * 256 + 1 * (y 1).val = (y 1).val; rw [e31]; omega

/-- Window 4's block is the whole second bias row at every point. -/
theorem iblk3_4_apply (c : Dev nD) (t : Fin cfg3.N) (y : S1x256.Idx) :
    (iblk3 V c 4 t : Vec Ideal S1x256 .f32) y = (V c main_v46 : S1x256.Idx → Elt Ideal .f32) y := by
  obtain ⟨-, -, -, -, -, -, -, -, e40, e41, -⟩ := idx_facts3 t
  unfold iblk3
  rw [View.read_apply]
  show V c main_v46 _ = V c main_v46 _
  congr 1
  funext a
  apply Fin.ext
  match a with
  | ⟨0, _⟩ => show win3_4.index t (0 : Fin 2) * 1 + 1 * (y 0).val = (y 0).val; rw [e40]; omega
  | ⟨1, _⟩ => show win3_4.index t (1 : Fin 2) * 256 + 1 * (y 1).val = (y 1).val; rw [e41]; omega

/-- The body's value at a block entry is the read-out's value at the array entry in the same row, whenever the first block
    holds that row of the activations and the other four hold the weights and biases whole. -/
theorem block_entry3 (x0 : FVec Ideal S1000x512 .f32) (x1 : FVec Ideal S512x512 .f32) (x2 : FVec Ideal S1x512 .f32)
    (x3 : FVec Ideal S512x256 .f32) (x4 : FVec Ideal S1x256 .f32)
    (H : FVec Ideal ⟨2, ![20000, 512]⟩ .f32) (W1 : FVec Ideal S512x512 .f32) (B1 : FVec Ideal S1x512 .f32)
    (W2 : FVec Ideal S512x256 .f32) (B2 : FVec Ideal S1x256 .f32)
    (y : S1000x256.Idx) (i : S20000x256.Idx)
    (h0 : ∀ k : Fin 512, x0 (ix2 (y 0) k) = H (ix2 (i 0) k))
    (h1 : ∀ z, x1 z = W1 z) (h2 : ∀ z, x2 z = B1 z) (h3 : ∀ z, x3 z = W2 z) (h4 : ∀ z, x4 z = B2 z)
    (hc : (y 1).val = (i 1).val) :
    k3_pay1 (F := Ideal) x0 x1 x2 x3 x4 y
      = SageNet.readout (M := 20000) (K := 512) (J := 512) (N := 256) H W1 (rowVec B1) W2 (rowVec B2) i := by
  obtain rfl : x1 = W1 := funext h1
  obtain rfl : x2 = B1 := funext h2
  obtain rfl : x3 = W2 := funext h3
  obtain rfl : x4 = B2 := funext h4
  obtain ⟨p, q, rfl⟩ : ∃ (p : Fin 1000) (q : Fin 256), y = ix2 p q := ⟨y 0, y 1, eq_ix2 y⟩
  obtain ⟨r, s, rfl⟩ : ∃ (r : Fin 20000) (s : Fin 256), i = ix2 r s := ⟨i 0, i 1, eq_ix2 i⟩
  obtain rfl : q = s := Fin.ext hc
  rw [k3_pay1_apply, SageNet.readout_ix2]
  exact congrArg (SageNet.logSoftmax · q) (SageNet.logit_congr_row H x0 x1 (rowVec x2) x3 (rowVec x4) r p h0)

/-- WHAT POINT t WRITES BACK is block t of the read-out's result. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S1000x512) hz3, View.ld_unit_zero (S := S512x512) hz3, View.ld_unit_zero (S := S1x512) hz3,
    View.ld_unit_zero (S := S512x256) hz3, View.ld_unit_zero (S := S1x256) hz3]
  funext j
  show k3_pay1 (F := Ideal) (iblk3 V c 0 t) (iblk3 V c 1 t) (iblk3 V c 2 t) (iblk3 V c 3 t) (iblk3 V c 4 t) j
    = G3 V c (((cfg3.win 5).blk t).view.emb j)
  obtain ⟨-, -, -, -, -, -, -, -, -, -, e50, e51⟩ := idx_facts3 t
  have hE0 : ((((cfg3.win 5).blk t).view.emb j) 0).val = 1000 * t.val + (j 0).val := by
    show win3_5.index t (0 : Fin 2) * 1000 + 1 * (j 0).val = _
    rw [e50]; omega
  have hE1 : ((((cfg3.win 5).blk t).view.emb j) 1).val = (j 1).val := by
    show win3_5.index t (1 : Fin 2) * 256 + 1 * (j 1).val = _
    rw [e51]; omega
  unfold G3
  refine block_entry3 _ _ _ _ _ _ _ _ _ _ j _ (fun k => ?_) (fun z => ?_) (fun z => ?_) (fun z => ?_) (fun z => ?_) hE1.symm
  · exact iblk3_0_apply V c t _ _ hE0 rfl
  · exact iblk3_1_apply V c t z
  · exact iblk3_2_apply V c t z
  · exact iblk3_3_apply V c t z
  · exact iblk3_4_apply V c t z

/-- Every row of the result lies in the block of the point that owns its thousand. -/
theorem cover3 (i : S20000x256.Idx) :
    ∃ t : Fin cfg3.N, (cfg3.win 5).flush t = true ∧ i ∈ ((cfg3.win 5).blk t).view.set := by
  have hN : cfg3.N = 20 := N_3
  have hi0 : (i 0).val < 20000 := (i 0).isLt
  have hi1 : (i 1).val < 256 := (i 1).isLt
  have ht : (i 0).val / 1000 < cfg3.N := by rw [hN]; omega
  refine ⟨⟨(i 0).val / 1000, ht⟩, flush3_5 _, ?_⟩
  obtain ⟨-, -, -, -, -, -, -, -, -, -, e50, e51⟩ := idx_facts3 ⟨(i 0).val / 1000, ht⟩
  show i ∈ ((View.whole main_v47).slice (win3_5.rect ⟨(i 0).val / 1000, ht⟩)).set
  rw [View.set_slice_whole, Rect.mem_set_unit]
  intro a
  match a with
  | ⟨0, _⟩ =>
    show win3_5.index ⟨(i 0).val / 1000, ht⟩ (0 : Fin 2) * 1000 ≤ (i 0).val
      ∧ (i 0).val < win3_5.index ⟨(i 0).val / 1000, ht⟩ (0 : Fin 2) * 1000 + 1000
    rw [e50]
    show (i 0).val / 1000 * 1000 ≤ (i 0).val ∧ (i 0).val < (i 0).val / 1000 * 1000 + 1000
    omega
  | ⟨1, _⟩ =>
    show win3_5.index ⟨(i 0).val / 1000, ht⟩ (1 : Fin 2) * 256 ≤ (i 1).val
      ∧ (i 1).val < win3_5.index ⟨(i 0).val / 1000, ht⟩ (1 : Fin 2) * 256 + 256
    rw [e51]
    omega

/-- THE RESULT ARRAY after the region: the read-out of the five arrays the region found. -/
theorem final3 (c : Dev nD) : (dat3 V c).arrAt 5 cfg3.N = G3 V c :=
  (dat3 V c).arrAt_eq_of_cover 5 (G3 V c) (fun t _ => flushed3_eq V c t) cover3

end Cert.KernelIdeal.Hand

end
-- ==== Proof.KernelChain.lean ====
/-
  The idealized kernel program's result as one function of its arguments.

  Walking the segment boundaries from the launch: the first stretch leaves the neighbour sum of the embeddings and the first
  layer's transposed weights, the first region leaves the first layer's output (blocks to array), the next stretch gathers and
  sums THAT, and so on; the last region leaves the read-out of the third layer's output.  Composed, the result buffer holds
  `net` of the arguments: three layers, each fed its own neighbour sum, then the read-out.
-/
import proofs.«102595_j29858612642389_1_alg».proof.Proof.Gen.KernelIdeal.Frame
import proofs.«102595_j29858612642389_1_alg».proof.Proof.KernelStretches
import proofs.«102595_j29858612642389_1_alg».proof.Proof.Blocks0
import proofs.«102595_j29858612642389_1_alg».proof.Proof.Blocks1
import proofs.«102595_j29858612642389_1_alg».proof.Proof.Blocks2
import proofs.«102595_j29858612642389_1_alg».proof.Proof.Blocks3
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

/-- One layer fed its own neighbour sum: the edges `e`, the node features `h`, the self weight `wl` and the neighbour weight `wr`. -/
def sage (e : (⟨S2x160000, .i32⟩ : BufTy).Contents (Elt Ideal)) (h : (⟨S20000x512, .f32⟩ : BufTy).Contents (Elt Ideal))
    (wl wr : (⟨S512x512, .f32⟩ : BufTy).Contents (Elt Ideal)) : (⟨S20000x512, .f32⟩ : BufTy).Contents (Elt Ideal) :=
  SageNet.layer (M := 20000) (K := 512) (N := 512) (agg (srcIds e) (dstIds e) h) h (tr wr) (tr wl)

/-- The whole network: three layers, then the read-out. -/
def net (e : (⟨S2x160000, .i32⟩ : BufTy).Contents (Elt Ideal)) (emb : (⟨S20000x512, .f32⟩ : BufTy).Contents (Elt Ideal))
    (wl0 wr0 wl1 wr1 wl2 wr2 w1 : (⟨S512x512, .f32⟩ : BufTy).Contents (Elt Ideal)) (b1 : (⟨S512, .f32⟩ : BufTy).Contents (Elt Ideal))
    (w2 : (⟨S256x512, .f32⟩ : BufTy).Contents (Elt Ideal)) (b2 : (⟨S256, .f32⟩ : BufTy).Contents (Elt Ideal)) :
    (⟨S20000x256, .f32⟩ : BufTy).Contents (Elt Ideal) :=
  SageNet.readout (M := 20000) (K := 512) (J := 512) (N := 256)
    (sage e (sage e (sage e emb wl0 wr0) wl1 wr1) wl2 wr2) (tr w1) b1 (tr2 w2) b2

variable (m : (ℓ : Loc nD τ sig) → Buf (Elt Ideal) ℓ) (ρ : Dev nD → PrngReg)

/-! ## The arguments reach every stretch as launched -/

theorem W2_arg5 (c : Dev nD) : W2 m ρ c (Proc.devRef .tc main_arg5) = (m ((c : Thread nD τ).loc main_arg5)) :=
  (W2_of_ne m ρ c main_arg5 (by decide)).trans (keep0_arg5 (W0 m ρ c))
theorem W2_arg6 (c : Dev nD) : W2 m ρ c (Proc.devRef .tc main_arg6) = (m ((c : Thread nD τ).loc main_arg6)) :=
  (W2_of_ne m ρ c main_arg6 (by decide)).trans (keep0_arg6 (W0 m ρ c))
theorem W2_arg7 (c : Dev nD) : W2 m ρ c (Proc.devRef .tc main_arg7) = (m ((c : Thread nD τ).loc main_arg7)) :=
  (W2_of_ne m ρ c main_arg7 (by decide)).trans (keep0_arg7 (W0 m ρ c))
theorem W2_arg8 (c : Dev nD) : W2 m ρ c (Proc.devRef .tc main_arg8) = (m ((c : Thread nD τ).loc main_arg8)) :=
  (W2_of_ne m ρ c main_arg8 (by decide)).trans (keep0_arg8 (W0 m ρ c))
theorem W2_arg9 (c : Dev nD) : W2 m ρ c (Proc.devRef .tc main_arg9) = (m ((c : Thread nD τ).loc main_arg9)) :=
  (W2_of_ne m ρ c main_arg9 (by decide)).trans (keep0_arg9 (W0 m ρ c))
theorem W2_arg10 (c : Dev nD) : W2 m ρ c (Proc.devRef .tc main_arg10) = (m ((c : Thread nD τ).loc main_arg10)) :=
  (W2_of_ne m ρ c main_arg10 (by decide)).trans (keep0_arg10 (W0 m ρ c))
theorem W2_arg11 (c : Dev nD) : W2 m ρ c (Proc.devRef .tc main_arg11) = (m ((c : Thread nD τ).loc main_arg11)) :=
  (W2_of_ne m ρ c main_arg11 (by decide)).trans (keep0_arg11 (W0 m ρ c))
theorem W2_arg12 (c : Dev nD) : W2 m ρ c (Proc.devRef .tc main_arg12) = (m ((c : Thread nD τ).loc main_arg12)) :=
  (W2_of_ne m ρ c main_arg12 (by decide)).trans (keep0_arg12 (W0 m ρ c))
theorem W4_arg7 (c : Dev nD) : W4 m ρ c (Proc.devRef .tc main_arg7) = (m ((c : Thread nD τ).loc main_arg7)) :=
  (W4_of_ne m ρ c main_arg7 (by decide)).trans ((keep1_arg7 (W2 m ρ c)).trans (W2_arg7 m ρ c))
theorem W4_arg8 (c : Dev nD) : W4 m ρ c (Proc.devRef .tc main_arg8) = (m ((c : Thread nD τ).loc main_arg8)) :=
  (W4_of_ne m ρ c main_arg8 (by decide)).trans ((keep1_arg8 (W2 m ρ c)).trans (W2_arg8 m ρ c))
theorem W4_arg9 (c : Dev nD) : W4 m ρ c (Proc.devRef .tc main_arg9) = (m ((c : Thread nD τ).loc main_arg9)) :=
  (W4_of_ne m ρ c main_arg9 (by decide)).trans ((keep1_arg9 (W2 m ρ c)).trans (W2_arg9 m ρ c))
theorem W4_arg10 (c : Dev nD) : W4 m ρ c (Proc.devRef .tc main_arg10) = (m ((c : Thread nD τ).loc main_arg10)) :=
  (W4_of_ne m ρ c main_arg10 (by decide)).trans ((keep1_arg10 (W2 m ρ c)).trans (W2_arg10 m ρ c))
theorem W4_arg11 (c : Dev nD) : W4 m ρ c (Proc.devRef .tc main_arg11) = (m ((c : Thread nD τ).loc main_arg11)) :=
  (W4_of_ne m ρ c main_arg11 (by decide)).trans ((keep1_arg11 (W2 m ρ c)).trans (W2_arg11 m ρ c))
theorem W4_arg12 (c : Dev nD) : W4 m ρ c (Proc.devRef .tc main_arg12) = (m ((c : Thread nD τ).loc main_arg12)) :=
  (W4_of_ne m ρ c main_arg12 (by decide)).trans ((keep1_arg12 (W2 m ρ c)).trans (W2_arg12 m ρ c))
theorem W6_arg9 (c : Dev nD) : W6 m ρ c (Proc.devRef .tc main_arg9) = (m ((c : Thread nD τ).loc main_arg9)) :=
  (W6_of_ne m ρ c main_arg9 (by decide)).trans ((keep2_arg9 (W4 m ρ c)).trans (W4_arg9 m ρ c))
theorem W6_arg10 (c : Dev nD) : W6 m ρ c (Proc.devRef .tc main_arg10) = (m ((c : Thread nD τ).loc main_arg10)) :=
  (W6_of_ne m ρ c main_arg10 (by decide)).trans ((keep2_arg10 (W4 m ρ c)).trans (W4_arg10 m ρ c))
theorem W6_arg11 (c : Dev nD) : W6 m ρ c (Proc.devRef .tc main_arg11) = (m ((c : Thread nD τ).loc main_arg11)) :=
  (W6_of_ne m ρ c main_arg11 (by decide)).trans ((keep2_arg11 (W4 m ρ c)).trans (W4_arg11 m ρ c))
theorem W6_arg12 (c : Dev nD) : W6 m ρ c (Proc.devRef .tc main_arg12) = (m ((c : Thread nD τ).loc main_arg12)) :=
  (W6_of_ne m ρ c main_arg12 (by decide)).trans ((keep2_arg12 (W4 m ρ c)).trans (W4_arg12 m ρ c))

/-! ## The ids, computed once, reach the later stretches -/

theorem W2_v1 (c : Dev nD) : W2 m ρ c (Proc.devRef .tc main_v1) = srcIds (m ((c : Thread nD τ).loc main_arg1)) :=
  (W2_of_ne m ρ c main_v1 (by decide)).trans (s0_v1 (W0 m ρ c))
theorem W2_v3 (c : Dev nD) : W2 m ρ c (Proc.devRef .tc main_v3) = dstIds (m ((c : Thread nD τ).loc main_arg1)) :=
  (W2_of_ne m ρ c main_v3 (by decide)).trans (s0_v3 (W0 m ρ c))
theorem W4_v1 (c : Dev nD) : W4 m ρ c (Proc.devRef .tc main_v1) = srcIds (m ((c : Thread nD τ).loc main_arg1)) :=
  (W4_of_ne m ρ c main_v1 (by decide)).trans ((keep1_v1 (W2 m ρ c)).trans (W2_v1 m ρ c))
theorem W4_v3 (c : Dev nD) : W4 m ρ c (Proc.devRef .tc main_v3) = dstIds (m ((c : Thread nD τ).loc main_arg1)) :=
  (W4_of_ne m ρ c main_v3 (by decide)).trans ((keep1_v3 (W2 m ρ c)).trans (W2_v3 m ρ c))

/-! ## The first layer -/

theorem V1_v13 (c : Dev nD) : V1 m ρ c main_v13 = agg (srcIds (m ((c : Thread nD τ).loc main_arg1))) (dstIds (m ((c : Thread nD τ).loc main_arg1))) (m ((c : Thread nD τ).loc main_arg2)) := s0_v13 (W0 m ρ c)
theorem V1_arg2 (c : Dev nD) : V1 m ρ c main_arg2 = (m ((c : Thread nD τ).loc main_arg2)) := keep0_arg2 (W0 m ρ c)
theorem V1_v14 (c : Dev nD) : V1 m ρ c main_v14 = tr (m ((c : Thread nD τ).loc main_arg4)) := s0_v14 (W0 m ρ c)
theorem V1_v15 (c : Dev nD) : V1 m ρ c main_v15 = tr (m ((c : Thread nD τ).loc main_arg3)) := s0_v15 (W0 m ρ c)

/-- The first layer's output array. -/
theorem W2_v16 (c : Dev nD) : W2 m ρ c (Proc.devRef .tc main_v16) = sage (m ((c : Thread nD τ).loc main_arg1)) (m ((c : Thread nD τ).loc main_arg2)) (m ((c : Thread nD τ).loc main_arg3)) (m ((c : Thread nD τ).loc main_arg4)) := by
  refine (W2_arr m ρ c 4).trans ((final0 (V1 m ρ) c).trans ?_)
  unfold G0 sage
  rw [V1_v13, V1_arg2, V1_v14, V1_v15]

/-! ## The second layer -/

theorem V3_v26 (c : Dev nD) : V3 m ρ c main_v26
    = agg (srcIds (m ((c : Thread nD τ).loc main_arg1))) (dstIds (m ((c : Thread nD τ).loc main_arg1))) (sage (m ((c : Thread nD τ).loc main_arg1)) (m ((c : Thread nD τ).loc main_arg2)) (m ((c : Thread nD τ).loc main_arg3)) (m ((c : Thread nD τ).loc main_arg4))) :=
  (s1_v26 (W2 m ρ c)).trans (by rw [W2_v1, W2_v3, W2_v16])
theorem V3_v16 (c : Dev nD) : V3 m ρ c main_v16 = sage (m ((c : Thread nD τ).loc main_arg1)) (m ((c : Thread nD τ).loc main_arg2)) (m ((c : Thread nD τ).loc main_arg3)) (m ((c : Thread nD τ).loc main_arg4)) :=
  (keep1_v16 (W2 m ρ c)).trans (W2_v16 m ρ c)
theorem V3_v27 (c : Dev nD) : V3 m ρ c main_v27 = tr (m ((c : Thread nD τ).loc main_arg6)) := (s1_v27 (W2 m ρ c)).trans (congrArg tr (W2_arg6 m ρ c))
theorem V3_v28 (c : Dev nD) : V3 m ρ c main_v28 = tr (m ((c : Thread nD τ).loc main_arg5)) := (s1_v28 (W2 m ρ c)).trans (congrArg tr (W2_arg5 m ρ c))

/-- The second layer's output array. -/
theorem W4_v29 (c : Dev nD) : W4 m ρ c (Proc.devRef .tc main_v29)
    = sage (m ((c : Thread nD τ).loc main_arg1)) (sage (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) := by
  refine (W4_arr m ρ c 4).trans ((final1 (V3 m ρ) c).trans ?_)
  unfold G1
  rw [V3_v26, V3_v16, V3_v27, V3_v28]
  rfl

/-! ## The third layer -/

theorem V5_v39 (c : Dev nD) : V5 m ρ c main_v39
    = agg (srcIds (m ((c : Thread nD τ).loc main_arg1))) (dstIds (m ((c : Thread nD τ).loc main_arg1))) (sage (m ((c : Thread nD τ).loc main_arg1)) (sage (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) :=
  (s2_v39 (W4 m ρ c)).trans (by rw [W4_v1, W4_v3, W4_v29])
theorem V5_v29 (c : Dev nD) : V5 m ρ c main_v29
    = sage (m ((c : Thread nD τ).loc main_arg1)) (sage (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) :=
  (keep2_v29 (W4 m ρ c)).trans (W4_v29 m ρ c)
theorem V5_v40 (c : Dev nD) : V5 m ρ c main_v40 = tr (m ((c : Thread nD τ).loc main_arg8)) := (s2_v40 (W4 m ρ c)).trans (congrArg tr (W4_arg8 m ρ c))
theorem V5_v41 (c : Dev nD) : V5 m ρ c main_v41 = tr (m ((c : Thread nD τ).loc main_arg7)) := (s2_v41 (W4 m ρ c)).trans (congrArg tr (W4_arg7 m ρ c))

/-- The third layer's output array. -/
theorem W6_v42 (c : Dev nD) : W6 m ρ c (Proc.devRef .tc main_v42)
    = sage (m ((c : Thread nD τ).loc main_arg1)) (sage (m ((c : Thread nD τ).loc main_arg1)) (sage (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)) := by
  refine (W6_arr m ρ c 4).trans ((final2 (V5 m ρ) c).trans ?_)
  unfold G2
  rw [V5_v39, V5_v29, V5_v40, V5_v41]
  rfl

/-! ## The read-out -/

theorem V7_v42 (c : Dev nD) : V7 m ρ c main_v42
    = sage (m ((c : Thread nD τ).loc main_arg1)) (sage (m ((c : Thread nD τ).loc main_arg1)) (sage (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)) :=
  (keep3_v42 (W6 m ρ c)).trans (W6_v42 m ρ c)
theorem V7_v43 (c : Dev nD) : V7 m ρ c main_v43 = tr (m ((c : Thread nD τ).loc main_arg9)) := (s3_v43 (W6 m ρ c)).trans (congrArg tr (W6_arg9 m ρ c))
theorem V7_v44 (c : Dev nD) : V7 m ρ c main_v44 = tr2 (m ((c : Thread nD τ).loc main_arg11)) := (s3_v44 (W6 m ρ c)).trans (congrArg tr2 (W6_arg11 m ρ c))
theorem V7_v45 (c : Dev nD) : V7 m ρ c main_v45 = shapeCast S1x512 (m ((c : Thread nD τ).loc main_arg10)) shapeCasts_S512_S1x512 :=
  (s3_v45 (W6 m ρ c)).trans (congrArg (shapeCast S1x512 · shapeCasts_S512_S1x512) (W6_arg10 m ρ c))
theorem V7_v46 (c : Dev nD) : V7 m ρ c main_v46 = shapeCast S1x256 (m ((c : Thread nD τ).loc main_arg12)) shapeCasts_S256_S1x256 :=
  (s3_v46 (W6 m ρ c)).trans (congrArg (shapeCast S1x256 · shapeCasts_S256_S1x256) (W6_arg12 m ρ c))

/-- A vector kept as a one-row matrix, read back as a vector, is the vector. -/
theorem rowVec_shapeCast {J : ℕ} (b : FVec Ideal ⟨1, ![J]⟩ .f32) (h : (⟨1, ![J]⟩ : Shape).ShapeCasts ⟨2, ![1, J]⟩) :
    rowVec (shapeCast ⟨2, ![1, J]⟩ b h) = b := by
  funext i
  obtain ⟨q, rfl⟩ : ∃ q : Fin J, i = ix1 q := ⟨i 0, eq_ix1 i⟩
  exact shapeCast_a_1a_apply b h (0 : Fin 1) q

/-- THE RESULT: the result buffer at the last boundary holds the network of the arguments. -/
theorem W8_v47 (c : Dev nD) : W8 m ρ c (Proc.devRef .tc main_v47)
    = net (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 5).trans ((final3 (V7 m ρ) c).trans ?_)
  unfold G3
  rw [V7_v42, V7_v43, V7_v44, V7_v45, V7_v46, rowVec_shapeCast, rowVec_shapeCast]
  rfl

end Cert.KernelIdeal.Hand

end
-- ==== Proof.RefStages.lean ====
/-
  The reference's 122 host operations cut into eight consecutive runs: the edge lists, then for each of the three layers
  the neighbour sums and the layer proper, then the read-out. Running the whole line is running the runs in order, and a
  buffer a run does not write keeps its contents through it.
-/
import proofs.«102595_j29858612642389_1_alg».proof.Proof.RefRunPatched

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1–4: the two rows of the edge list, each as a flat array (`main_v1` the sources, `main_v3` the destinations). -/
abbrev opsIds : List (HloOp τ sig (Elt F)) :=
  [ unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000 ]

/-- Operations 5–17: the first layer's neighbour sums, ending at `main_v13`. -/
abbrev opsAgg1 : List (HloOp τ sig (Elt F)) :=
  [ nullary main_c (constantI S_ 32 0#32),
    unary main_c main_v4 (broadcastInDim S160000 ![] bcast_S_S160000 : (⟨S_, .i32⟩ : BufTy).Contents (Elt F) → (⟨S160000, .i32⟩ : BufTy).Contents (Elt F)),
    binary main_v1 main_v4 main_v5 (cmpi .slt : (⟨S160000, .i32⟩ : BufTy).Contents (Elt F) → (⟨S160000, .i32⟩ : BufTy).Contents (Elt F) → (⟨S160000, .i1⟩ : BufTy).Contents (Elt F)),
    nullary main_c_0 (constantI S_ 32 20000#32),
    unary main_c_0 main_v6 (broadcastInDim S160000 ![] bcast_S_S160000 : (⟨S_, .i32⟩ : BufTy).Contents (Elt F) → (⟨S160000, .i32⟩ : BufTy).Contents (Elt F)),
    binary main_v1 main_v6 main_v7 (addi : (⟨S160000, .i32⟩ : BufTy).Contents (Elt F) → (⟨S160000, .i32⟩ : BufTy).Contents (Elt F) → (⟨S160000, .i32⟩ : BufTy).Contents (Elt F)),
    ternary main_v5 main_v7 main_v1 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v8 main_v9 (broadcastInDim S160000x1 ![0] bcast_S160000_S160000x1_0 : (⟨S160000, .i32⟩ : BufTy).Contents (Elt F) → (⟨S160000x1, .i32⟩ : BufTy).Contents (Elt F)),
    binary main_arg2 main_v9 main_v10 ((fun x i => Host.gather gather_S20000x512_S160000x1_S160000x512_1_0_n_n_0_1_1512 x i) : (⟨S20000x512, .f32⟩ : BufTy).Contents (Elt F) → (⟨S160000x1, .i32⟩ : BufTy).Contents (Elt F) → (⟨S160000x512, .f32⟩ : BufTy).Contents (Elt F)),
    nullary main_cst (constant S_ .f32 0x00000000#32),
    unary main_cst main_v11 (broadcastInDim S20000x512 ![] bcast_S_S20000x512 : (⟨S_, .f32⟩ : BufTy).Contents (Elt F) → (⟨S20000x512, .f32⟩ : BufTy).Contents (Elt F)),
    unary main_v3 main_v12 (broadcastInDim S160000x1 ![0] bcast_S160000_S160000x1_0 : (⟨S160000, .i32⟩ : BufTy).Contents (Elt F) → (⟨S160000x1, .i32⟩ : BufTy).Contents (Elt F)),
    ternary main_v11 main_v12 main_v10 main_v13 ((fun x i u => Host.scatterAdd scatter_S20000x512_S160000x1_S160000x512_1_0_0_1 x i u) : (⟨S20000x512, .f32⟩ : BufTy).Contents (Elt F) → (⟨S160000x1, .i32⟩ : BufTy).Contents (Elt F) → (⟨S160000x512, .f32⟩ : BufTy).Contents (Elt F) → (⟨S20000x512, .f32⟩ : BufTy).Contents (Elt F)) ]

/-- Operations 18–35: the first layer's two products, normalisation and clip, ending at `main_v27`. -/
abbrev opsLay1 : List (HloOp τ sig (Elt F)) :=
  [ unary main_arg4 main_v14 ((transpose S512x512 [1, 0] · transposes_S512x512_S512x512_1_0) : (⟨S512x512, .f32⟩ : BufTy).Contents (Elt F) → (⟨S512x512, .f32⟩ : BufTy).Contents (Elt F)),
    binary main_v13 main_v14 main_v15 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg3 main_v16 ((transpose S512x512 [1, 0] · transposes_S512x512_S512x512_1_0) : (⟨S512x512, .f32⟩ : BufTy).Contents (Elt F) → (⟨S512x512, .f32⟩ : BufTy).Contents (Elt F)),
    binary main_arg2 main_v16 main_v17 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    binary main_v15 main_v17 main_v18 (addf : (⟨S20000x512, .f32⟩ : BufTy).Contents (Elt F) → (⟨S20000x512, .f32⟩ : BufTy).Contents (Elt F) → (⟨S20000x512, .f32⟩ : BufTy).Contents (Elt F)),
    binary main_v18 main_v18 main_v19 (mulf : (⟨S20000x512, .f32⟩ : BufTy).Contents (Elt F) → (⟨S20000x512, .f32⟩ : BufTy).Contents (Elt F) → (⟨S20000x512, .f32⟩ : BufTy).Contents (Elt F)),
    nullary main_cst_1 (constant S_ .f32 0x00000000#32),
    binary main_v19 main_cst_1 main_v20 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v20 main_v21 (broadcastInDim S20000x1 ![0] bcast_S20000_S20000x1_0 : (⟨S20000, .f32⟩ : BufTy).Contents (Elt F) → (⟨S20000x1, .f32⟩ : BufTy).Contents (Elt F)),
    unary main_v21 main_v22 (Host.sqrt : (⟨S20000x1, .f32⟩ : BufTy).Contents (Elt F) → (⟨S20000x1, .f32⟩ : BufTy).Contents (Elt F)),
    nullary main_cst_2 (constant S_ .f32 0x2B8CBCCC#32),
    unary main_cst_2 main_v23 (broadcastInDim S20000x1 ![] bcast_S_S20000x1 : (⟨S_, .f32⟩ : BufTy).Contents (Elt F) → (⟨S20000x1, .f32⟩ : BufTy).Contents (Elt F)),
    binary main_v22 main_v23 main_v24 (maximumf : (⟨S20000x1, .f32⟩ : BufTy).Contents (Elt F) → (⟨S20000x1, .f32⟩ : BufTy).Contents (Elt F) → (⟨S20000x1, .f32⟩ : BufTy).Contents (Elt F)),
    unary main_v24 main_v25 (broadcastInDim S20000x512 ![0, 1] bcast_S20000x1_S20000x512_0_1 : (⟨S20000x1, .f32⟩ : BufTy).Contents (Elt F) → (⟨S20000x512, .f32⟩ : BufTy).Contents (Elt F)),
    binary main_v18 main_v25 main_v26 (Host.divf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x512, .f32⟩) main_call0_v0) (broadcastInDim S20000x512 ![] bcast_S_S20000x512),
    TRef.binary (TRef.of (T := ⟨S20000x512, .f32⟩) main_v26) (TRef.of (T := ⟨S20000x512, .f32⟩) main_call0_v0) (TRef.of (T := ⟨S20000x512, .f32⟩) main_v27) maximumf ]

/-- Operations 36–48: the second layer's neighbour sums, ending at `main_v37`. -/
abbrev opsAgg2 : List (HloOp τ sig (Elt F)) :=
  [ nullary main_c_3 (constantI S_ 32 0#32),
    unary main_c_3 main_v28 (broadcastInDim S160000 ![] bcast_S_S160000 : (⟨S_, .i32⟩ : BufTy).Contents (Elt F) → (⟨S160000, .i32⟩ : BufTy).Contents (Elt F)),
    binary main_v1 main_v28 main_v29 (cmpi .slt : (⟨S160000, .i32⟩ : BufTy).Contents (Elt F) → (⟨S160000, .i32⟩ : BufTy).Contents (Elt F) → (⟨S160000, .i1⟩ : BufTy).Contents (Elt F)),
    nullary main_c_4 (constantI S_ 32 20000#32),
    unary main_c_4 main_v30 (broadcastInDim S160000 ![] bcast_S_S160000 : (⟨S_, .i32⟩ : BufTy).Contents (Elt F) → (⟨S160000, .i32⟩ : BufTy).Contents (Elt F)),
    binary main_v1 main_v30 main_v31 (addi : (⟨S160000, .i32⟩ : BufTy).Contents (Elt F) → (⟨S160000, .i32⟩ : BufTy).Contents (Elt F) → (⟨S160000, .i32⟩ : BufTy).Contents (Elt F)),
    ternary main_v29 main_v31 main_v1 main_v32 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v32 main_v33 (broadcastInDim S160000x1 ![0] bcast_S160000_S160000x1_0 : (⟨S160000, .i32⟩ : BufTy).Contents (Elt F) → (⟨S160000x1, .i32⟩ : BufTy).Contents (Elt F)),
    binary main_v27 main_v33 main_v34 ((fun x i => Host.gather gather_S20000x512_S160000x1_S160000x512_1_0_n_n_0_1_1512 x i) : (⟨S20000x512, .f32⟩ : BufTy).Contents (Elt F) → (⟨S160000x1, .i32⟩ : BufTy).Contents (Elt F) → (⟨S160000x512, .f32⟩ : BufTy).Contents (Elt F)),
    nullary main_cst_5 (constant S_ .f32 0x00000000#32),
    unary main_cst_5 main_v35 (broadcastInDim S20000x512 ![] bcast_S_S20000x512 : (⟨S_, .f32⟩ : BufTy).Contents (Elt F) → (⟨S20000x512, .f32⟩ : BufTy).Contents (Elt F)),
    unary main_v3 main_v36 (broadcastInDim S160000x1 ![0] bcast_S160000_S160000x1_0 : (⟨S160000, .i32⟩ : BufTy).Contents (Elt F) → (⟨S160000x1, .i32⟩ : BufTy).Contents (Elt F)),
    ternary main_v35 main_v36 main_v34 main_v37 ((fun x i u => Host.scatterAdd scatter_S20000x512_S160000x1_S160000x512_1_0_0_1 x i u) : (⟨S20000x512, .f32⟩ : BufTy).Contents (Elt F) → (⟨S160000x1, .i32⟩ : BufTy).Contents (Elt F) → (⟨S160000x512, .f32⟩ : BufTy).Contents (Elt F) → (⟨S20000x512, .f32⟩ : BufTy).Contents (Elt F)) ]

/-- Operations 49–66: the second layer's products, normalisation and clip, ending at `main_v51`. -/
abbrev opsLay2 : List (HloOp τ sig (Elt F)) :=
  [ unary main_arg6 main_v38 ((transpose S512x512 [1, 0] · transposes_S512x512_S512x512_1_0) : (⟨S512x512, .f32⟩ : BufTy).Contents (Elt F) → (⟨S512x512, .f32⟩ : BufTy).Contents (Elt F)),
    binary main_v37 main_v38 main_v39 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg5 main_v40 ((transpose S512x512 [1, 0] · transposes_S512x512_S512x512_1_0) : (⟨S512x512, .f32⟩ : BufTy).Contents (Elt F) → (⟨S512x512, .f32⟩ : BufTy).Contents (Elt F)),
    binary main_v27 main_v40 main_v41 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    binary main_v39 main_v41 main_v42 (addf : (⟨S20000x512, .f32⟩ : BufTy).Contents (Elt F) → (⟨S20000x512, .f32⟩ : BufTy).Contents (Elt F) → (⟨S20000x512, .f32⟩ : BufTy).Contents (Elt F)),
    binary main_v42 main_v42 main_v43 (mulf : (⟨S20000x512, .f32⟩ : BufTy).Contents (Elt F) → (⟨S20000x512, .f32⟩ : BufTy).Contents (Elt F) → (⟨S20000x512, .f32⟩ : BufTy).Contents (Elt F)),
    nullary main_cst_6 (constant S_ .f32 0x00000000#32),
    binary main_v43 main_cst_6 main_v44 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v44 main_v45 (broadcastInDim S20000x1 ![0] bcast_S20000_S20000x1_0 : (⟨S20000, .f32⟩ : BufTy).Contents (Elt F) → (⟨S20000x1, .f32⟩ : BufTy).Contents (Elt F)),
    unary main_v45 main_v46 (Host.sqrt : (⟨S20000x1, .f32⟩ : BufTy).Contents (Elt F) → (⟨S20000x1, .f32⟩ : BufTy).Contents (Elt F)),
    nullary main_cst_7 (constant S_ .f32 0x2B8CBCCC#32),
    unary main_cst_7 main_v47 (broadcastInDim S20000x1 ![] bcast_S_S20000x1 : (⟨S_, .f32⟩ : BufTy).Contents (Elt F) → (⟨S20000x1, .f32⟩ : BufTy).Contents (Elt F)),
    binary main_v46 main_v47 main_v48 (maximumf : (⟨S20000x1, .f32⟩ : BufTy).Contents (Elt F) → (⟨S20000x1, .f32⟩ : BufTy).Contents (Elt F) → (⟨S20000x1, .f32⟩ : BufTy).Contents (Elt F)),
    unary main_v48 main_v49 (broadcastInDim S20000x512 ![0, 1] bcast_S20000x1_S20000x512_0_1 : (⟨S20000x1, .f32⟩ : BufTy).Contents (Elt F) → (⟨S20000x512, .f32⟩ : BufTy).Contents (Elt F)),
    binary main_v42 main_v49 main_v50 (Host.divf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x512, .f32⟩) main_call1_v0) (broadcastInDim S20000x512 ![] bcast_S_S20000x512),
    TRef.binary (TRef.of (T := ⟨S20000x512, .f32⟩) main_v50) (TRef.of (T := ⟨S20000x512, .f32⟩) main_call1_v0) (TRef.of (T := ⟨S20000x512, .f32⟩) main_v51) maximumf ]

/-- Operations 67–79: the third layer's neighbour sums, ending at `main_v61`. -/
abbrev opsAgg3 : List (HloOp τ sig (Elt F)) :=
  [ nullary main_c_8 (constantI S_ 32 0#32),
    unary main_c_8 main_v52 (broadcastInDim S160000 ![] bcast_S_S160000 : (⟨S_, .i32⟩ : BufTy).Contents (Elt F) → (⟨S160000, .i32⟩ : BufTy).Contents (Elt F)),
    binary main_v1 main_v52 main_v53 (cmpi .slt : (⟨S160000, .i32⟩ : BufTy).Contents (Elt F) → (⟨S160000, .i32⟩ : BufTy).Contents (Elt F) → (⟨S160000, .i1⟩ : BufTy).Contents (Elt F)),
    nullary main_c_9 (constantI S_ 32 20000#32),
    unary main_c_9 main_v54 (broadcastInDim S160000 ![] bcast_S_S160000 : (⟨S_, .i32⟩ : BufTy).Contents (Elt F) → (⟨S160000, .i32⟩ : BufTy).Contents (Elt F)),
    binary main_v1 main_v54 main_v55 (addi : (⟨S160000, .i32⟩ : BufTy).Contents (Elt F) → (⟨S160000, .i32⟩ : BufTy).Contents (Elt F) → (⟨S160000, .i32⟩ : BufTy).Contents (Elt F)),
    ternary main_v53 main_v55 main_v1 main_v56 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v56 main_v57 (broadcastInDim S160000x1 ![0] bcast_S160000_S160000x1_0 : (⟨S160000, .i32⟩ : BufTy).Contents (Elt F) → (⟨S160000x1, .i32⟩ : BufTy).Contents (Elt F)),
    binary main_v51 main_v57 main_v58 ((fun x i => Host.gather gather_S20000x512_S160000x1_S160000x512_1_0_n_n_0_1_1512 x i) : (⟨S20000x512, .f32⟩ : BufTy).Contents (Elt F) → (⟨S160000x1, .i32⟩ : BufTy).Contents (Elt F) → (⟨S160000x512, .f32⟩ : BufTy).Contents (Elt F)),
    nullary main_cst_10 (constant S_ .f32 0x00000000#32),
    unary main_cst_10 main_v59 (broadcastInDim S20000x512 ![] bcast_S_S20000x512 : (⟨S_, .f32⟩ : BufTy).Contents (Elt F) → (⟨S20000x512, .f32⟩ : BufTy).Contents (Elt F)),
    unary main_v3 main_v60 (broadcastInDim S160000x1 ![0] bcast_S160000_S160000x1_0 : (⟨S160000, .i32⟩ : BufTy).Contents (Elt F) → (⟨S160000x1, .i32⟩ : BufTy).Contents (Elt F)),
    ternary main_v59 main_v60 main_v58 main_v61 ((fun x i u => Host.scatterAdd scatter_S20000x512_S160000x1_S160000x512_1_0_0_1 x i u) : (⟨S20000x512, .f32⟩ : BufTy).Contents (Elt F) → (⟨S160000x1, .i32⟩ : BufTy).Contents (Elt F) → (⟨S160000x512, .f32⟩ : BufTy).Contents (Elt F) → (⟨S20000x512, .f32⟩ : BufTy).Contents (Elt F)) ]

/-- Operations 80–97: the third layer's products, normalisation and clip, ending at `main_v75`. -/
abbrev opsLay3 : List (HloOp τ sig (Elt F)) :=
  [ unary main_arg8 main_v62 ((transpose S512x512 [1, 0] · transposes_S512x512_S512x512_1_0) : (⟨S512x512, .f32⟩ : BufTy).Contents (Elt F) → (⟨S512x512, .f32⟩ : BufTy).Contents (Elt F)),
    binary main_v61 main_v62 main_v63 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg7 main_v64 ((transpose S512x512 [1, 0] · transposes_S512x512_S512x512_1_0) : (⟨S512x512, .f32⟩ : BufTy).Contents (Elt F) → (⟨S512x512, .f32⟩ : BufTy).Contents (Elt F)),
    binary main_v51 main_v64 main_v65 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    binary main_v63 main_v65 main_v66 (addf : (⟨S20000x512, .f32⟩ : BufTy).Contents (Elt F) → (⟨S20000x512, .f32⟩ : BufTy).Contents (Elt F) → (⟨S20000x512, .f32⟩ : BufTy).Contents (Elt F)),
    binary main_v66 main_v66 main_v67 (mulf : (⟨S20000x512, .f32⟩ : BufTy).Contents (Elt F) → (⟨S20000x512, .f32⟩ : BufTy).Contents (Elt F) → (⟨S20000x512, .f32⟩ : BufTy).Contents (Elt F)),
    nullary main_cst_11 (constant S_ .f32 0x00000000#32),
    binary main_v67 main_cst_11 main_v68 ((fun x v => Host.reduceAdd x v reducesTo_S20000x512_S20000_d1 h_S_) : (⟨S20000x512, .f32⟩ : BufTy).Contents (Elt F) → (⟨S_, .f32⟩ : BufTy).Contents (Elt F) → (⟨S20000, .f32⟩ : BufTy).Contents (Elt F)),
    unary main_v68 main_v69 (broadcastInDim S20000x1 ![0] bcast_S20000_S20000x1_0 : (⟨S20000, .f32⟩ : BufTy).Contents (Elt F) → (⟨S20000x1, .f32⟩ : BufTy).Contents (Elt F)),
    unary main_v69 main_v70 (Host.sqrt : (⟨S20000x1, .f32⟩ : BufTy).Contents (Elt F) → (⟨S20000x1, .f32⟩ : BufTy).Contents (Elt F)),
    nullary main_cst_12 (constant S_ .f32 0x2B8CBCCC#32),
    unary main_cst_12 main_v71 (broadcastInDim S20000x1 ![] bcast_S_S20000x1 : (⟨S_, .f32⟩ : BufTy).Contents (Elt F) → (⟨S20000x1, .f32⟩ : BufTy).Contents (Elt F)),
    binary main_v70 main_v71 main_v72 (maximumf : (⟨S20000x1, .f32⟩ : BufTy).Contents (Elt F) → (⟨S20000x1, .f32⟩ : BufTy).Contents (Elt F) → (⟨S20000x1, .f32⟩ : BufTy).Contents (Elt F)),
    unary main_v72 main_v73 (broadcastInDim S20000x512 ![0, 1] bcast_S20000x1_S20000x512_0_1 : (⟨S20000x1, .f32⟩ : BufTy).Contents (Elt F) → (⟨S20000x512, .f32⟩ : BufTy).Contents (Elt F)),
    binary main_v66 main_v73 main_v74 (Host.divf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x512, .f32⟩) main_call2_v0) (broadcastInDim S20000x512 ![] bcast_S_S20000x512),
    TRef.binary (TRef.of (T := ⟨S20000x512, .f32⟩) main_v74) (TRef.of (T := ⟨S20000x512, .f32⟩) main_call2_v0) (TRef.of (T := ⟨S20000x512, .f32⟩) main_v75) maximumf ]

/-- Operations 98–122: the two affine maps and the row-wise log-softmax, ending at `main_v86`. -/
abbrev opsOut : List (HloOp τ sig (Elt F)) :=
  [ unary main_arg9 main_v76 ((transpose S512x512 [1, 0] · transposes_S512x512_S512x512_1_0) : (⟨S512x512, .f32⟩ : BufTy).Contents (Elt F) → (⟨S512x512, .f32⟩ : BufTy).Contents (Elt F)),
    binary main_v75 main_v76 main_v77 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg10 main_v78 (broadcastInDim S1x512 ![1] bcast_S512_S1x512_1 : (⟨S512, .f32⟩ : BufTy).Contents (Elt F) → (⟨S1x512, .f32⟩ : BufTy).Contents (Elt F)),
    unary main_v78 main_v79 (broadcastInDim S20000x512 ![0, 1] bcast_S1x512_S20000x512_0_1 : (⟨S1x512, .f32⟩ : BufTy).Contents (Elt F) → (⟨S20000x512, .f32⟩ : BufTy).Contents (Elt F)),
    binary main_v77 main_v79 main_v80 (addf : (⟨S20000x512, .f32⟩ : BufTy).Contents (Elt F) → (⟨S20000x512, .f32⟩ : BufTy).Contents (Elt F) → (⟨S20000x512, .f32⟩ : BufTy).Contents (Elt F)),
    unary main_arg11 main_v81 ((transpose S512x256 [1, 0] · transposes_S256x512_S512x256_1_0) : (⟨S256x512, .f32⟩ : BufTy).Contents (Elt F) → (⟨S512x256, .f32⟩ : BufTy).Contents (Elt F)),
    binary main_v80 main_v81 main_v82 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg12 main_v83 (broadcastInDim S1x256 ![1] bcast_S256_S1x256_1 : (⟨S256, .f32⟩ : BufTy).Contents (Elt F) → (⟨S1x256, .f32⟩ : BufTy).Contents (Elt F)),
    unary main_v83 main_v84 (broadcastInDim S20000x256 ![0, 1] bcast_S1x256_S20000x256_0_1 : (⟨S1x256, .f32⟩ : BufTy).Contents (Elt F) → (⟨S20000x256, .f32⟩ : BufTy).Contents (Elt F)),
    binary main_v82 main_v84 main_v85 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call3_cst) (constant S_ .f32 0xFF800000#32),
    TRef.binary (TRef.of (T := ⟨S20000x256, .f32⟩) main_v85) (TRef.of (T := ⟨S_, .f32⟩) main_call3_cst) (TRef.of (T := ⟨S20000, .f32⟩) main_call3_v0) (fun x v => Host.reduce FloatOps.maximumf x v reducesTo_S20000x256_S20000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S20000, .f32⟩) main_call3_v1) (broadcastInDim S20000 ![] bcast_S_S20000),
    TRef.binary (TRef.of (T := ⟨S20000, .f32⟩) main_call3_v1) (TRef.of (T := ⟨S20000, .f32⟩) main_call3_v0) (TRef.of (T := ⟨S20000, .f32⟩) main_call3_v2) maximumf,
    TRef.unary (TRef.of (T := ⟨S20000, .f32⟩) main_call3_v2) (TRef.of (T := ⟨S20000x1, .f32⟩) main_call3_v3) (broadcastInDim S20000x1 ![0] bcast_S20000_S20000x1_0),
    TRef.unary (TRef.of (T := ⟨S20000x1, .f32⟩) main_call3_v3) (TRef.of (T := ⟨S20000x256, .f32⟩) main_call3_v4) (broadcastInDim S20000x256 ![0, 1] bcast_S20000x1_S20000x256_0_1),
    TRef.binary (TRef.of (T := ⟨S20000x256, .f32⟩) main_v85) (TRef.of (T := ⟨S20000x256, .f32⟩) main_call3_v4) (TRef.of (T := ⟨S20000x256, .f32⟩) main_call3_v5) subf,
    TRef.unary (TRef.of (T := ⟨S20000x256, .f32⟩) main_call3_v5) (TRef.of (T := ⟨S20000x256, .f32⟩) main_call3_v6) Host.exp,
    TRef.nullary (TRef.of (T := ⟨S_, .f32⟩) main_call3_cst_1) (constant S_ .f32 0x00000000#32),
    TRef.binary (TRef.of (T := ⟨S20000x256, .f32⟩) main_call3_v6) (TRef.of (T := ⟨S_, .f32⟩) main_call3_cst_1) (TRef.of (T := ⟨S20000, .f32⟩) main_call3_v7) (fun x v => Host.reduceAdd x v reducesTo_S20000x256_S20000_d1 h_S_),
    TRef.unary (TRef.of (T := ⟨S20000, .f32⟩) main_call3_v7) (TRef.of (T := ⟨S20000x1, .f32⟩) main_call3_v8) (broadcastInDim S20000x1 ![0] bcast_S20000_S20000x1_0),
    TRef.unary (TRef.of (T := ⟨S20000x1, .f32⟩) main_call3_v8) (TRef.of (T := ⟨S20000x1, .f32⟩) main_call3_v9) Host.log,
    TRef.unary (TRef.of (T := ⟨S20000x1, .f32⟩) main_call3_v9) (TRef.of (T := ⟨S20000x256, .f32⟩) main_call3_v10) (broadcastInDim S20000x256 ![0, 1] bcast_S20000x1_S20000x256_0_1),
    TRef.binary (TRef.of (T := ⟨S20000x256, .f32⟩) main_call3_v5) (TRef.of (T := ⟨S20000x256, .f32⟩) main_call3_v10) (TRef.of (T := ⟨S20000x256, .f32⟩) main_v86) subf ]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
/-- The reference's operations are the eight runs in order. -/
theorem ops_eq : (RunP.ops : List (HloOp τ sig (Elt F)))
    = opsIds ++ (opsAgg1 ++ (opsLay1 ++ (opsAgg2 ++ (opsLay2 ++ (opsAgg3 ++ (opsLay3 ++ opsOut)))))) := rfl

/-- A one-buffer write set lies in the buffers of a list of references that holds the buffer's reference. -/
theorem sub_of_mem {Wl : List (Ref sig .tc)} (y : Ref sig .tc) (hy : y ∈ Wl) :
    ({Proc.devRef .tc y} : Finset (DevRef τ sig)) ⊆ (Wl.map (Proc.devRef (τ := τ) .tc)).toFinset :=
  Finset.singleton_subset_iff.2 (List.mem_toFinset.2 (List.mem_map_of_mem hy))

/-- The buffers `opsIds` writes. -/
abbrev opsIds_w : List (Ref sig .tc) :=
  [main_v0, main_v1, main_v2, main_v3]

theorem opsIds_writes : (opsIds (F := F)).Forall fun op => op.writes ⊆ ((opsIds_w).map (Proc.devRef (τ := τ) .tc)).toFinset :=
  ⟨sub_of_mem main_v0 (by decide), sub_of_mem main_v1 (by decide), sub_of_mem main_v2 (by decide), sub_of_mem main_v3 (by decide)⟩

/-- A buffer `opsIds` does not write keeps its contents. -/
theorem opsIds_frame (W : Valuation τ sig (Elt F)) {r : Ref sig .tc} (hr : r ∉ opsIds_w) :
    after (opsIds (F := F)) W (Proc.devRef .tc r) = W (Proc.devRef .tc r) :=
  after_of_writes_sub _ W opsIds_writes hr

/-- The buffers `opsAgg1` writes. -/
abbrev opsAgg1_w : List (Ref sig .tc) :=
  [main_c, main_v4, main_v5, main_c_0, main_v6, main_v7, main_v8, main_v9, main_v10, main_cst, main_v11, main_v12, main_v13]

theorem opsAgg1_writes : (opsAgg1 (F := F)).Forall fun op => op.writes ⊆ ((opsAgg1_w).map (Proc.devRef (τ := τ) .tc)).toFinset :=
  ⟨sub_of_mem main_c (by decide), sub_of_mem main_v4 (by decide), sub_of_mem main_v5 (by decide), sub_of_mem main_c_0 (by decide), sub_of_mem main_v6 (by decide), sub_of_mem main_v7 (by decide), sub_of_mem main_v8 (by decide), sub_of_mem main_v9 (by decide), sub_of_mem main_v10 (by decide), sub_of_mem main_cst (by decide), sub_of_mem main_v11 (by decide), sub_of_mem main_v12 (by decide), sub_of_mem main_v13 (by decide)⟩

/-- A buffer `opsAgg1` does not write keeps its contents. -/
theorem opsAgg1_frame (W : Valuation τ sig (Elt F)) {r : Ref sig .tc} (hr : r ∉ opsAgg1_w) :
    after (opsAgg1 (F := F)) W (Proc.devRef .tc r) = W (Proc.devRef .tc r) :=
  after_of_writes_sub _ W opsAgg1_writes hr

/-- The buffers `opsLay1` writes. -/
abbrev opsLay1_w : List (Ref sig .tc) :=
  [main_v14, main_v15, main_v16, main_v17, main_v18, main_v19, main_cst_1, main_v20, main_v21, main_v22, main_cst_2, main_v23, main_v24, main_v25, main_v26, main_call0_cst, main_call0_v0, main_v27]

theorem opsLay1_writes : (opsLay1 (F := F)).Forall fun op => op.writes ⊆ ((opsLay1_w).map (Proc.devRef (τ := τ) .tc)).toFinset :=
  ⟨sub_of_mem main_v14 (by decide), sub_of_mem main_v15 (by decide), sub_of_mem main_v16 (by decide), sub_of_mem main_v17 (by decide), sub_of_mem main_v18 (by decide), sub_of_mem main_v19 (by decide), sub_of_mem main_cst_1 (by decide), sub_of_mem main_v20 (by decide), sub_of_mem main_v21 (by decide), sub_of_mem main_v22 (by decide), sub_of_mem main_cst_2 (by decide), sub_of_mem main_v23 (by decide), sub_of_mem main_v24 (by decide), sub_of_mem main_v25 (by decide), sub_of_mem main_v26 (by decide), sub_of_mem main_call0_cst (by decide), sub_of_mem main_call0_v0 (by decide), sub_of_mem main_v27 (by decide)⟩

/-- A buffer `opsLay1` does not write keeps its contents. -/
theorem opsLay1_frame (W : Valuation τ sig (Elt F)) {r : Ref sig .tc} (hr : r ∉ opsLay1_w) :
    after (opsLay1 (F := F)) W (Proc.devRef .tc r) = W (Proc.devRef .tc r) :=
  after_of_writes_sub _ W opsLay1_writes hr

/-- The buffers `opsAgg2` writes. -/
abbrev opsAgg2_w : List (Ref sig .tc) :=
  [main_c_3, main_v28, main_v29, main_c_4, main_v30, main_v31, main_v32, main_v33, main_v34, main_cst_5, main_v35, main_v36, main_v37]

theorem opsAgg2_writes : (opsAgg2 (F := F)).Forall fun op => op.writes ⊆ ((opsAgg2_w).map (Proc.devRef (τ := τ) .tc)).toFinset :=
  ⟨sub_of_mem main_c_3 (by decide), sub_of_mem main_v28 (by decide), sub_of_mem main_v29 (by decide), sub_of_mem main_c_4 (by decide), sub_of_mem main_v30 (by decide), sub_of_mem main_v31 (by decide), sub_of_mem main_v32 (by decide), sub_of_mem main_v33 (by decide), sub_of_mem main_v34 (by decide), sub_of_mem main_cst_5 (by decide), sub_of_mem main_v35 (by decide), sub_of_mem main_v36 (by decide), sub_of_mem main_v37 (by decide)⟩

/-- A buffer `opsAgg2` does not write keeps its contents. -/
theorem opsAgg2_frame (W : Valuation τ sig (Elt F)) {r : Ref sig .tc} (hr : r ∉ opsAgg2_w) :
    after (opsAgg2 (F := F)) W (Proc.devRef .tc r) = W (Proc.devRef .tc r) :=
  after_of_writes_sub _ W opsAgg2_writes hr

/-- The buffers `opsLay2` writes. -/
abbrev opsLay2_w : List (Ref sig .tc) :=
  [main_v38, main_v39, main_v40, main_v41, main_v42, main_v43, main_cst_6, main_v44, main_v45, main_v46, main_cst_7, main_v47, main_v48, main_v49, main_v50, main_call1_cst, main_call1_v0, main_v51]

theorem opsLay2_writes : (opsLay2 (F := F)).Forall fun op => op.writes ⊆ ((opsLay2_w).map (Proc.devRef (τ := τ) .tc)).toFinset :=
  ⟨sub_of_mem main_v38 (by decide), sub_of_mem main_v39 (by decide), sub_of_mem main_v40 (by decide), sub_of_mem main_v41 (by decide), sub_of_mem main_v42 (by decide), sub_of_mem main_v43 (by decide), sub_of_mem main_cst_6 (by decide), sub_of_mem main_v44 (by decide), sub_of_mem main_v45 (by decide), sub_of_mem main_v46 (by decide), sub_of_mem main_cst_7 (by decide), sub_of_mem main_v47 (by decide), sub_of_mem main_v48 (by decide), sub_of_mem main_v49 (by decide), sub_of_mem main_v50 (by decide), sub_of_mem main_call1_cst (by decide), sub_of_mem main_call1_v0 (by decide), sub_of_mem main_v51 (by decide)⟩

/-- A buffer `opsLay2` does not write keeps its contents. -/
theorem opsLay2_frame (W : Valuation τ sig (Elt F)) {r : Ref sig .tc} (hr : r ∉ opsLay2_w) :
    after (opsLay2 (F := F)) W (Proc.devRef .tc r) = W (Proc.devRef .tc r) :=
  after_of_writes_sub _ W opsLay2_writes hr

/-- The buffers `opsAgg3` writes. -/
abbrev opsAgg3_w : List (Ref sig .tc) :=
  [main_c_8, main_v52, main_v53, main_c_9, main_v54, main_v55, main_v56, main_v57, main_v58, main_cst_10, main_v59, main_v60, main_v61]

theorem opsAgg3_writes : (opsAgg3 (F := F)).Forall fun op => op.writes ⊆ ((opsAgg3_w).map (Proc.devRef (τ := τ) .tc)).toFinset :=
  ⟨sub_of_mem main_c_8 (by decide), sub_of_mem main_v52 (by decide), sub_of_mem main_v53 (by decide), sub_of_mem main_c_9 (by decide), sub_of_mem main_v54 (by decide), sub_of_mem main_v55 (by decide), sub_of_mem main_v56 (by decide), sub_of_mem main_v57 (by decide), sub_of_mem main_v58 (by decide), sub_of_mem main_cst_10 (by decide), sub_of_mem main_v59 (by decide), sub_of_mem main_v60 (by decide), sub_of_mem main_v61 (by decide)⟩

/-- A buffer `opsAgg3` does not write keeps its contents. -/
theorem opsAgg3_frame (W : Valuation τ sig (Elt F)) {r : Ref sig .tc} (hr : r ∉ opsAgg3_w) :
    after (opsAgg3 (F := F)) W (Proc.devRef .tc r) = W (Proc.devRef .tc r) :=
  after_of_writes_sub _ W opsAgg3_writes hr

/-- The buffers `opsLay3` writes. -/
abbrev opsLay3_w : List (Ref sig .tc) :=
  [main_v62, main_v63, main_v64, main_v65, main_v66, main_v67, main_cst_11, main_v68, main_v69, main_v70, main_cst_12, main_v71, main_v72, main_v73, main_v74, main_call2_cst, main_call2_v0, main_v75]

theorem opsLay3_writes : (opsLay3 (F := F)).Forall fun op => op.writes ⊆ ((opsLay3_w).map (Proc.devRef (τ := τ) .tc)).toFinset :=
  ⟨sub_of_mem main_v62 (by decide), sub_of_mem main_v63 (by decide), sub_of_mem main_v64 (by decide), sub_of_mem main_v65 (by decide), sub_of_mem main_v66 (by decide), sub_of_mem main_v67 (by decide), sub_of_mem main_cst_11 (by decide), sub_of_mem main_v68 (by decide), sub_of_mem main_v69 (by decide), sub_of_mem main_v70 (by decide), sub_of_mem main_cst_12 (by decide), sub_of_mem main_v71 (by decide), sub_of_mem main_v72 (by decide), sub_of_mem main_v73 (by decide), sub_of_mem main_v74 (by decide), sub_of_mem main_call2_cst (by decide), sub_of_mem main_call2_v0 (by decide), sub_of_mem main_v75 (by decide)⟩

/-- A buffer `opsLay3` does not write keeps its contents. -/
theorem opsLay3_frame (W : Valuation τ sig (Elt F)) {r : Ref sig .tc} (hr : r ∉ opsLay3_w) :
    after (opsLay3 (F := F)) W (Proc.devRef .tc r) = W (Proc.devRef .tc r) :=
  after_of_writes_sub _ W opsLay3_writes hr

/-- The buffers `opsOut` writes. -/
abbrev opsOut_w : List (Ref sig .tc) :=
  [main_v76, main_v77, main_v78, main_v79, main_v80, main_v81, main_v82, main_v83, main_v84, main_v85, main_call3_cst, main_call3_v0, main_call3_cst_0, main_call3_v1, main_call3_v2, main_call3_v3, main_call3_v4, main_call3_v5, main_call3_v6, main_call3_cst_1, main_call3_v7, main_call3_v8, main_call3_v9, main_call3_v10, main_v86]

theorem opsOut_writes : (opsOut (F := F)).Forall fun op => op.writes ⊆ ((opsOut_w).map (Proc.devRef (τ := τ) .tc)).toFinset :=
  ⟨sub_of_mem main_v76 (by decide), sub_of_mem main_v77 (by decide), sub_of_mem main_v78 (by decide), sub_of_mem main_v79 (by decide), sub_of_mem main_v80 (by decide), sub_of_mem main_v81 (by decide), sub_of_mem main_v82 (by decide), sub_of_mem main_v83 (by decide), sub_of_mem main_v84 (by decide), sub_of_mem main_v85 (by decide), sub_of_mem main_call3_cst (by decide), sub_of_mem main_call3_v0 (by decide), sub_of_mem main_call3_cst_0 (by decide), sub_of_mem main_call3_v1 (by decide), sub_of_mem main_call3_v2 (by decide), sub_of_mem main_call3_v3 (by decide), sub_of_mem main_call3_v4 (by decide), sub_of_mem main_call3_v5 (by decide), sub_of_mem main_call3_v6 (by decide), sub_of_mem main_call3_cst_1 (by decide), sub_of_mem main_call3_v7 (by decide), sub_of_mem main_call3_v8 (by decide), sub_of_mem main_call3_v9 (by decide), sub_of_mem main_call3_v10 (by decide), sub_of_mem main_v86 (by decide)⟩

/-- A buffer `opsOut` does not write keeps its contents. -/
theorem opsOut_frame (W : Valuation τ sig (Elt F)) {r : Ref sig .tc} (hr : r ∉ opsOut_w) :
    after (opsOut (F := F)) W (Proc.devRef .tc r) = W (Proc.devRef .tc r) :=
  after_of_writes_sub _ W opsOut_writes hr

end Cert.ReferenceIdeal.Hand

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«102595_j29858612642389_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.RefMath.lean ====
/-
  The reference's layer and read-out, read entry by entry. The host forms a layer's pre-activation as the sum of two
  matrix products, squares it, sums each row from 0, takes the root, floors it at ε, divides the row by it and clips
  at 0; entry (r, c) of the result is therefore  max(o(r, c) / max(√(Σ_c' o(r, c')²), ε), 0)  with
  o(r, c) = Σ_k agg(r, k)·Wr(k, c) + Σ_k h(r, k)·Wl(k, c).  The read-out applies two affine maps (a product plus a bias
  row repeated down the rows) and the row-wise log-softmax: the row maximum taken from −∞, the shifted row, the sum of
  its exponentials from 0, its logarithm, the difference.
-/
import proofs.«102595_j29858612642389_1_alg».proof.Proof.Gen.ReferenceIdeal
import proofs.«102595_j29858612642389_1_alg».proof.Proof.Spec
import proofs.«102595_j29858612642389_1_alg».proof.Proof.LibPlainDot
import proofs.«102595_j29858612642389_1_alg».proof.Proof.LibRowReduce
import Idealize.ShloMosaic.Lib.Pipeline.Value

noncomputable section

namespace Cert.ReferenceIdeal.Hand

open Cert.ReferenceIdeal Cert.ReferenceIdeal.Gen Idealize.ShloMosaic Idealize.ShloMosaic.ValueIdx

/-! ## Broadcasts read at an index -/

section Bcast
variable {α : Type}

/-- A scalar broadcast to any shape reads the scalar everywhere. -/
theorem bcast_scalar_at {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A vector of n entries placed as an n×1 column reads its entry r at (r, ·). -/
theorem bcast_vec_col_at {n : ℕ} (h : (⟨1, ![n]⟩ : Shape).BroadcastsInDim ⟨2, ![n, 1]⟩ (![0] : Fin 1 → Fin 2))
    (x : (⟨1, ![n]⟩ : Shape).Idx → α) (r : Fin n) (u : Fin 1) :
    broadcastInDim ⟨2, ![n, 1]⟩ ![0] h x (ix2 r u) = x (ix1 r) :=
  broadcastInDim_apply _ h x (ix2 r u) (ix1 r) (fun a => match a with
    | ⟨0, _⟩ => by
      show r.val = if n = 1 then 0 else r.val
      split
      · have := r.isLt; omega
      · rfl)

/-- An n×1 column repeated along its unit axis to n×m reads, at (r, c), the column's entry r. -/
theorem bcast_col_at {n m : ℕ} (h : (⟨2, ![n, 1]⟩ : Shape).BroadcastsInDim ⟨2, ![n, m]⟩ (![0, 1] : Fin 2 → Fin 2))
    (y : (⟨2, ![n, 1]⟩ : Shape).Idx → α) (r : Fin n) (c : Fin m) :
    broadcastInDim ⟨2, ![n, m]⟩ ![0, 1] h y (ix2 r c) = y (ix2 r (0 : Fin 1)) :=
  broadcastInDim_apply _ h y (ix2 r c) (ix2 r (0 : Fin 1)) (fun a => match a with
    | ⟨0, _⟩ => by
      show r.val = if n = 1 then 0 else r.val
      split
      · have := r.isLt; omega
      · rfl
    | ⟨1, _⟩ => by
      show 0 = if (1 : ℕ) = 1 then 0 else c.val
      rw [if_pos rfl])

/-- A vector of m entries placed as a 1×m row reads its entry c at (·, c). -/
theorem bcast_vec_row_at {m : ℕ} (h : (⟨1, ![m]⟩ : Shape).BroadcastsInDim ⟨2, ![1, m]⟩ (![1] : Fin 1 → Fin 2))
    (x : (⟨1, ![m]⟩ : Shape).Idx → α) (u : Fin 1) (c : Fin m) :
    broadcastInDim ⟨2, ![1, m]⟩ ![1] h x (ix2 u c) = x (ix1 c) :=
  broadcastInDim_apply _ h x (ix2 u c) (ix1 c) (fun a => match a with
    | ⟨0, _⟩ => by
      show c.val = if m = 1 then 0 else c.val
      split
      · have := c.isLt; omega
      · rfl)

/-- A 1×m row repeated down n rows reads, at (r, c), the row's entry c. -/
theorem bcast_row_at {n m : ℕ} (h : (⟨2, ![1, m]⟩ : Shape).BroadcastsInDim ⟨2, ![n, m]⟩ (![0, 1] : Fin 2 → Fin 2))
    (y : (⟨2, ![1, m]⟩ : Shape).Idx → α) (r : Fin n) (c : Fin m) :
    broadcastInDim ⟨2, ![n, m]⟩ ![0, 1] h y (ix2 r c) = y (ix2 (0 : Fin 1) c) :=
  broadcastInDim_apply _ h y (ix2 r c) (ix2 (0 : Fin 1) c) (fun a => match a with
    | ⟨0, _⟩ => by
      show 0 = if (1 : ℕ) = 1 then 0 else r.val
      rw [if_pos rfl]
    | ⟨1, _⟩ => by
      show c.val = if m = 1 then 0 else c.val
      split
      · have := c.isLt; omega
      · rfl)

end Bcast

/-! ## One layer -/

/-- The host's pre-activation: agg·Wr + h·Wl, the weights already transposed. -/
def hostPre (a h : FVec Ideal S20000x512 .f32) (wrT wlT : FVec Ideal S512x512 .f32) : FVec Ideal S20000x512 .f32 :=
  addf (Host.dotGeneral (F := Ideal) dot_S20000x512_S512x512_S20000x512_1_0_0_1_n_n none a wrT)
    (Host.dotGeneral (F := Ideal) dot_S20000x512_S512x512_S20000x512_1_0_0_1_n_n none h wlT)

/-- The host's row normalisation and clip of a pre-activation. -/
def hostNormRelu (o : FVec Ideal S20000x512 .f32) : FVec Ideal S20000x512 .f32 :=
  maximumf
    (Host.divf (F := Ideal) o
      (broadcastInDim S20000x512 ![0, 1] bcast_S20000x1_S20000x512_0_1
        (maximumf
          (Host.sqrt (F := Ideal)
            (broadcastInDim S20000x1 ![0] bcast_S20000_S20000x1_0
              (Host.reduceAdd (F := Ideal) (mulf o o) (constant (F := Ideal) S_ .f32 0x00000000#32)
                reducesTo_S20000x512_S20000_d1 h_S_)))
          (broadcastInDim S20000x1 ![] bcast_S_S20000x1 (constant (F := Ideal) S_ .f32 0x2B8CBCCC#32)))))
    (broadcastInDim S20000x512 ![] bcast_S_S20000x512 (constant (F := Ideal) S_ .f32 0x00000000#32))

/-- One layer as the host computes it. -/
def hostLayer (a h : FVec Ideal S20000x512 .f32) (wrT wlT : FVec Ideal S512x512 .f32) : FVec Ideal S20000x512 .f32 :=
  hostNormRelu (hostPre a h wrT wlT)

theorem hostPre_at (a h : FVec Ideal S20000x512 .f32) (wrT wlT : FVec Ideal S512x512 .f32) (r : Fin 20000) (c : Fin 512) :
    hostPre a h wrT wlT (ix2 r c) = SageNet.pre a h wrT wlT r c := by
  unfold hostPre SageNet.pre
  rw [addf_apply]
  exact congrArg₂ (· + ·) (PlainDot.apply none a wrT r c) (PlainDot.apply none h wlT r c)

theorem hostSqrt_apply {s : Shape} (x : FVec Ideal s .f32) (i : s.Idx) : Host.sqrt (F := Ideal) x i = Ideal.sqrt (x i) := rfl
theorem hostDivf_apply {s : Shape} (x y : FVec Ideal s .f32) (i : s.Idx) : Host.divf (F := Ideal) x y i = Ideal.div (x i) (y i) := rfl
theorem hostExp_apply {s : Shape} (x : FVec Ideal s .f32) (i : s.Idx) : Host.exp (F := Ideal) x i = Ideal.exp (x i) := rfl
theorem hostLog_apply {s : Shape} (x : FVec Ideal s .f32) (i : s.Idx) : Host.log (F := Ideal) x i = Ideal.log (x i) := rfl

theorem hostNormRelu_at (o : FVec Ideal S20000x512 .f32) (r : Fin 20000) (c : Fin 512) :
    hostNormRelu o (ix2 r c) = SageNet.unitRelu (fun c' : Fin 512 => o (ix2 r c')) c := by
  have hsum : Host.reduceAdd (F := Ideal) (mulf o o) (constant (F := Ideal) S_ .f32 0x00000000#32)
      reducesTo_S20000x512_S20000_d1 h_S_ (ix1 r) = ∑ k : Fin 512, o (ix2 r k) * o (ix2 r k) := by
    rw [RowReduce.hostSum_at (mulf o o) _ reducesTo_S20000x512_S20000_d1 (by decide) h_S_ r, constant_apply,
      Ideal.ofBits_zero_f32, zero_add]
    rfl
  unfold hostNormRelu SageNet.unitRelu
  rw [maximumf_apply, bcast_scalar_at, constant_apply, hostDivf_apply, bcast_col_at, maximumf_apply, hostSqrt_apply,
    bcast_vec_col_at, hsum, bcast_scalar_at, constant_apply]

theorem hostLayer_at (a h : FVec Ideal S20000x512 .f32) (wrT wlT : FVec Ideal S512x512 .f32) (r : Fin 20000) (c : Fin 512) :
    hostLayer a h wrT wlT (ix2 r c) = SageNet.unitRelu (SageNet.pre a h wrT wlT r) c := by
  unfold hostLayer
  rw [hostNormRelu_at]
  exact congrArg (SageNet.unitRelu · c) (funext fun c' => hostPre_at a h wrT wlT r c')

/-- The host's layer is the layer of the specification. -/
theorem hostLayer_eq (a h : FVec Ideal S20000x512 .f32) (wrT wlT : FVec Ideal S512x512 .f32) :
    hostLayer a h wrT wlT = SageNet.layer a h wrT wlT :=
  funext fun i => by
    rw [eq_ix2 i]
    exact (hostLayer_at a h wrT wlT (i 0) (i 1)).trans (SageNet.layer_ix2 a h wrT wlT (i 0) (i 1)).symm

/-! ## The read-out -/

/-- The host's logits: (h·W₁ + b₁)·W₂ + b₂, each bias a row repeated down the rows. -/
def hostLogits (h : FVec Ideal S20000x512 .f32) (w1T : FVec Ideal S512x512 .f32) (b1 : FVec Ideal S512 .f32)
    (w2T : FVec Ideal S512x256 .f32) (b2 : FVec Ideal S256 .f32) : FVec Ideal S20000x256 .f32 :=
  addf
    (Host.dotGeneral (F := Ideal) dot_S20000x512_S512x256_S20000x256_1_0_0_1_n_n none
      (addf (Host.dotGeneral (F := Ideal) dot_S20000x512_S512x512_S20000x512_1_0_0_1_n_n none h w1T)
        (broadcastInDim S20000x512 ![0, 1] bcast_S1x512_S20000x512_0_1 (broadcastInDim S1x512 ![1] bcast_S512_S1x512_1 b1)))
      w2T)
    (broadcastInDim S20000x256 ![0, 1] bcast_S1x256_S20000x256_0_1 (broadcastInDim S1x256 ![1] bcast_S256_S1x256_1 b2))

/-- The logits less each row's maximum (the maximum taken from −∞, then once more against −∞). -/
def hostShift (z : FVec Ideal S20000x256 .f32) : FVec Ideal S20000x256 .f32 :=
  subf z
    (broadcastInDim S20000x256 ![0, 1] bcast_S20000x1_S20000x256_0_1
      (broadcastInDim S20000x1 ![0] bcast_S20000_S20000x1_0
        (maximumf (broadcastInDim S20000 ![] bcast_S_S20000 (constant (F := Ideal) S_ .f32 0xFF800000#32))
          (Host.reduce (FloatOps.maximumf (F := Ideal) (φ := .f32)) z (constant (F := Ideal) S_ .f32 0xFF800000#32)
            reducesTo_S20000x256_S20000_d1 h_S_))))

/-- The host's row-wise log-softmax. -/
def hostLogSoftmax (z : FVec Ideal S20000x256 .f32) : FVec Ideal S20000x256 .f32 :=
  subf (hostShift z)
    (broadcastInDim S20000x256 ![0, 1] bcast_S20000x1_S20000x256_0_1
      (Host.log (F := Ideal)
        (broadcastInDim S20000x1 ![0] bcast_S20000_S20000x1_0
          (Host.reduceAdd (F := Ideal) (Host.exp (F := Ideal) (hostShift z)) (constant (F := Ideal) S_ .f32 0x00000000#32)
            reducesTo_S20000x256_S20000_d1 h_S_))))

/-- The read-out as the host computes it. -/
def hostReadout (h : FVec Ideal S20000x512 .f32) (w1T : FVec Ideal S512x512 .f32) (b1 : FVec Ideal S512 .f32)
    (w2T : FVec Ideal S512x256 .f32) (b2 : FVec Ideal S256 .f32) : FVec Ideal S20000x256 .f32 :=
  hostLogSoftmax (hostLogits h w1T b1 w2T b2)

theorem hostLogits_at (h : FVec Ideal S20000x512 .f32) (w1T : FVec Ideal S512x512 .f32) (b1 : FVec Ideal S512 .f32)
    (w2T : FVec Ideal S512x256 .f32) (b2 : FVec Ideal S256 .f32) (r : Fin 20000) (c : Fin 256) :
    hostLogits h w1T b1 w2T b2 (ix2 r c) = SageNet.logit h w1T b1 w2T b2 r c := by
  unfold hostLogits SageNet.logit SageNet.hid
  rw [addf_apply, bcast_row_at, bcast_vec_row_at]
  refine congrArg (· + b2 (ix1 c)) ?_
  refine (PlainDot.apply (M := 20000) (K := 512) (N := 256) none _ w2T r c).trans ?_
  refine Finset.sum_congr rfl fun j _ => ?_
  refine congrArg (· * w2T (ix2 j c)) ?_
  rw [addf_apply, bcast_row_at, bcast_vec_row_at]
  exact congrArg (· + b1 (ix1 j)) (PlainDot.apply none h w1T r j)

theorem hostShift_at (z : FVec Ideal S20000x256 .f32) (r : Fin 20000) (c : Fin 256) :
    hostShift z (ix2 r c)
      = z (ix2 r c) - (Finset.univ : Finset (Fin 256)).fold max SageNet.negInfW (fun k => z (ix2 r k)) := by
  unfold hostShift
  rw [subf_apply, bcast_col_at, bcast_vec_col_at, maximumf_apply, bcast_scalar_at, constant_apply,
    RowReduce.hostMax_at z _ reducesTo_S20000x256_S20000_d1 (by decide) h_S_ r, constant_apply, RowReduce.max_fold_self]

theorem hostLogSoftmax_at (z : FVec Ideal S20000x256 .f32) (r : Fin 20000) (c : Fin 256) :
    hostLogSoftmax z (ix2 r c) = SageNet.logSoftmax (fun c' : Fin 256 => z (ix2 r c')) c := by
  unfold hostLogSoftmax SageNet.logSoftmax
  rw [subf_apply, bcast_col_at, hostLog_apply, bcast_vec_col_at,
    RowReduce.hostSum_at (Host.exp (F := Ideal) (hostShift z)) _ reducesTo_S20000x256_S20000_d1 (by decide) h_S_ r,
    constant_apply, Ideal.ofBits_zero_f32, zero_add, hostShift_at]
  refine congrArg (fun t => _ - Ideal.log t) (Finset.sum_congr rfl fun k _ => ?_)
  rw [hostExp_apply, hostShift_at]

theorem hostReadout_at (h : FVec Ideal S20000x512 .f32) (w1T : FVec Ideal S512x512 .f32) (b1 : FVec Ideal S512 .f32)
    (w2T : FVec Ideal S512x256 .f32) (b2 : FVec Ideal S256 .f32) (r : Fin 20000) (c : Fin 256) :
    hostReadout h w1T b1 w2T b2 (ix2 r c) = SageNet.logSoftmax (SageNet.logit h w1T b1 w2T b2 r) c := by
  unfold hostReadout
  rw [hostLogSoftmax_at]
  exact congrArg (SageNet.logSoftmax · c) (funext fun c' => hostLogits_at h w1T b1 w2T b2 r c')

/-- The host's read-out is the read-out of the specification. -/
theorem hostReadout_eq (h : FVec Ideal S20000x512 .f32) (w1T : FVec Ideal S512x512 .f32) (b1 : FVec Ideal S512 .f32)
    (w2T : FVec Ideal S512x256 .f32) (b2 : FVec Ideal S256 .f32) :
    hostReadout h w1T b1 w2T b2 = SageNet.readout h w1T b1 w2T b2 :=
  funext fun i => by
    rw [eq_ix2 i]
    exact (hostReadout_at h w1T b1 w2T b2 (i 0) (i 1)).trans (SageNet.readout_ix2 h w1T b1 w2T b2 (i 0) (i 1)).symm

end Cert.ReferenceIdeal.Hand

end
-- ==== Proof.RefResults.lean ====
/-
  What each run of the reference's operations leaves in its last buffer, as a function of the contents it started from:
  the two rows of the edge list as flat arrays, a layer's neighbour sums (the rows of the activations gathered at the
  edges' sources and added into the rows named by their destinations, carried here as one function that is never
  opened), a layer proper, the read-out.
-/
import proofs.«102595_j29858612642389_1_alg».proof.Proof.RefStages
import proofs.«102595_j29858612642389_1_alg».proof.Proof.RefMath

noncomputable section

namespace Cert.ReferenceIdeal.Hand

open Cert.ReferenceIdeal Cert.ReferenceIdeal.Gen Idealize.ShloMosaic Idealize.ShloMosaic.TcCoe Idealize.SL.Sem Idealize.ShloMosaic.StableHlo

/-- The edges' source nodes: row 0 of the edge list, as a flat array. -/
def srcIds (e : (⟨S2x160000, .i32⟩ : BufTy).Contents (Elt Ideal)) : (⟨S160000, .i32⟩ : BufTy).Contents (Elt Ideal) :=
  shapeCast S160000 (extractStridedSlice S1x160000 ![0, 0] e slices_S2x160000_S1x160000_0_0) shapeCasts_S1x160000_S160000

/-- The edges' destination nodes: row 1 of the edge list, as a flat array. -/
def dstIds (e : (⟨S2x160000, .i32⟩ : BufTy).Contents (Elt Ideal)) : (⟨S160000, .i32⟩ : BufTy).Contents (Elt Ideal) :=
  shapeCast S160000 (extractStridedSlice S1x160000 ![1, 0] e slices_S2x160000_S1x160000_1_0) shapeCasts_S1x160000_S160000

/-- The neighbour sums: the rows of `h` at the edges' sources (a negative index read from the end) added, from zero,
    into the rows named by the edges' destinations. -/
def agg (src dst : (⟨S160000, .i32⟩ : BufTy).Contents (Elt Ideal)) (h : (⟨S20000x512, .f32⟩ : BufTy).Contents (Elt Ideal)) :
    (⟨S20000x512, .f32⟩ : BufTy).Contents (Elt Ideal) :=
  Host.scatterAdd (F := Ideal) scatter_S20000x512_S160000x1_S160000x512_1_0_0_1
    (broadcastInDim S20000x512 ![] bcast_S_S20000x512 (constant (F := Ideal) S_ .f32 0x00000000#32))
    (broadcastInDim S160000x1 ![0] bcast_S160000_S160000x1_0 dst)
    (Host.gather gather_S20000x512_S160000x1_S160000x512_1_0_n_n_0_1_1512 h
      (broadcastInDim S160000x1 ![0] bcast_S160000_S160000x1_0
        (select (cmpi .slt src (broadcastInDim S160000 ![] bcast_S_S160000 (constantI S_ 32 0#32)))
          (addi src (broadcastInDim S160000 ![] bcast_S_S160000 (constantI S_ 32 20000#32))) src)))

/-- A 512×512 weight matrix transposed. -/
def tr (w : (⟨S512x512, .f32⟩ : BufTy).Contents (Elt Ideal)) : (⟨S512x512, .f32⟩ : BufTy).Contents (Elt Ideal) :=
  transpose S512x512 [1, 0] w transposes_S512x512_S512x512_1_0

/-- The 256×512 weight matrix transposed. -/
def tr2 (w : (⟨S256x512, .f32⟩ : BufTy).Contents (Elt Ideal)) : (⟨S512x256, .f32⟩ : BufTy).Contents (Elt Ideal) :=
  transpose S512x256 [1, 0] w transposes_S256x512_S512x256_1_0

/-! ## Reading a typed reference

The operations of a called function go through typed references, whose contents are carried to and from the buffer's
own type. Read at the value's type, an operation's result is its function of its operands read the same way, and every
other typed reference keeps what it held. -/

section Typed
variable {Val : EltTy → Type} {T Tx Ta Tb Ty : BufTy}

/-- Contents put at a buffer's type and read back are the contents. -/
theorem ofBuf_toBuf (x : TRef sig T) (v : T.Contents Val) : x.ofBuf (x.toBuf v) = v := by
  obtain ⟨r, h, h2, h3⟩ := x
  subst h
  rfl

/-- The contents of a typed reference's buffer, at the value's type. -/
def rd (x : TRef sig T) (V : Valuation τ sig Val) : T.Contents Val := x.ofBuf (V (Proc.devRef .tc x.ref))

theorem rd_nullary (y : TRef sig Ty) (v : Ty.Contents Val) (V : Valuation τ sig Val) :
    rd y ((TRef.nullary y v : HloOp τ sig Val).result V) = v :=
  (congrArg y.ofBuf (nullary_result y.ref (y.toBuf v) _ V)).trans (ofBuf_toBuf y v)

theorem rd_unary (x : TRef sig Tx) (y : TRef sig Ty) (f : Tx.Contents Val → Ty.Contents Val) (V : Valuation τ sig Val) :
    rd y ((TRef.unary x y f : HloOp τ sig Val).result V) = f (rd x V) :=
  (congrArg y.ofBuf (unary_result x.ref y.ref _ _ _ V)).trans (ofBuf_toBuf y _)

theorem rd_binary (a : TRef sig Ta) (b : TRef sig Tb) (y : TRef sig Ty)
    (f : Ta.Contents Val → Tb.Contents Val → Ty.Contents Val) (V : Valuation τ sig Val) :
    rd y ((TRef.binary a b y f : HloOp τ sig Val).result V) = f (rd a V) (rd b V) :=
  (congrArg y.ofBuf (binary_result a.ref b.ref y.ref _ _ _ _ V)).trans (ofBuf_toBuf y _)

theorem rd_nullary_ne (z : TRef sig T) (y : TRef sig Ty) (v : Ty.Contents Val) (V : Valuation τ sig Val) (h : z.ref ≠ y.ref) :
    rd z ((TRef.nullary y v : HloOp τ sig Val).result V) = rd z V :=
  congrArg z.ofBuf (nullary_result_ne y.ref _ _ V h)

theorem rd_unary_ne (z : TRef sig T) (x : TRef sig Tx) (y : TRef sig Ty) (f : Tx.Contents Val → Ty.Contents Val)
    (V : Valuation τ sig Val) (h : z.ref ≠ y.ref) :
    rd z ((TRef.unary x y f : HloOp τ sig Val).result V) = rd z V :=
  congrArg z.ofBuf (unary_result_ne x.ref y.ref _ _ _ V h)

theorem rd_binary_ne (z : TRef sig T) (a : TRef sig Ta) (b : TRef sig Tb) (y : TRef sig Ty)
    (f : Ta.Contents Val → Tb.Contents Val → Ty.Contents Val) (V : Valuation τ sig Val) (h : z.ref ≠ y.ref) :
    rd z ((TRef.binary a b y f : HloOp τ sig Val).result V) = rd z V :=
  congrArg z.ofBuf (binary_result_ne a.ref b.ref y.ref _ _ _ _ V h)

end Typed

/-- Computes a typed reference's contents after a literal line of a called function's operations: each operation's
    result at its own reference is its function of its operands, at another reference what was there. -/
macro "rd_results" : tactic =>
  `(tactic| (simp only [after_cons, after_nil]
             repeat (first
               | rw [rd_nullary] | rw [rd_unary] | rw [rd_binary]
               | (rw [rd_nullary_ne]; rotate_left; decide)
               | (rw [rd_unary_ne]; rotate_left; decide)
               | (rw [rd_binary_ne]; rotate_left; decide))))

variable (W : Valuation τ sig (Elt Ideal))

set_option maxRecDepth 8192 in
set_option maxHeartbeats 4000000 in
theorem ids_src : after (opsIds (F := Ideal)) W (Proc.devRef .tc main_v1) = srcIds (W (Proc.devRef .tc main_arg1)) := by
  after_results
  rfl

set_option maxRecDepth 8192 in
set_option maxHeartbeats 4000000 in
theorem ids_dst : after (opsIds (F := Ideal)) W (Proc.devRef .tc main_v3) = dstIds (W (Proc.devRef .tc main_arg1)) := by
  after_results
  rfl

set_option maxRecDepth 8192 in
set_option maxHeartbeats 4000000 in
theorem agg1_out : after (opsAgg1 (F := Ideal)) W (Proc.devRef .tc main_v13) = agg (W (Proc.devRef .tc main_v1)) (W (Proc.devRef .tc main_v3)) (W (Proc.devRef .tc main_arg2)) := by
  after_results
  rfl

set_option maxRecDepth 8192 in
set_option maxHeartbeats 4000000 in
theorem agg2_out : after (opsAgg2 (F := Ideal)) W (Proc.devRef .tc main_v37) = agg (W (Proc.devRef .tc main_v1)) (W (Proc.devRef .tc main_v3)) (W (Proc.devRef .tc main_v27)) := by
  after_results
  rfl

set_option maxRecDepth 8192 in
set_option maxHeartbeats 4000000 in
theorem agg3_out : after (opsAgg3 (F := Ideal)) W (Proc.devRef .tc main_v61) = agg (W (Proc.devRef .tc main_v1)) (W (Proc.devRef .tc main_v3)) (W (Proc.devRef .tc main_v51)) := by
  after_results
  rfl

set_option maxRecDepth 8192 in
set_option maxHeartbeats 4000000 in
theorem lay1_out : after (opsLay1 (F := Ideal)) W (Proc.devRef .tc main_v27)
    = hostLayer (W (Proc.devRef .tc main_v13)) (W (Proc.devRef .tc main_arg2)) (tr (W (Proc.devRef .tc main_arg4))) (tr (W (Proc.devRef .tc main_arg3))) := by
  after_results
  rfl

set_option maxRecDepth 8192 in
set_option maxHeartbeats 4000000 in
theorem lay2_out : after (opsLay2 (F := Ideal)) W (Proc.devRef .tc main_v51)
    = hostLayer (W (Proc.devRef .tc main_v37)) (W (Proc.devRef .tc main_v27)) (tr (W (Proc.devRef .tc main_arg6))) (tr (W (Proc.devRef .tc main_arg5))) := by
  after_results
  rfl

set_option maxRecDepth 8192 in
set_option maxHeartbeats 4000000 in
theorem lay3_out : after (opsLay3 (F := Ideal)) W (Proc.devRef .tc main_v75)
    = hostLayer (W (Proc.devRef .tc main_v61)) (W (Proc.devRef .tc main_v51)) (tr (W (Proc.devRef .tc main_arg8))) (tr (W (Proc.devRef .tc main_arg7))) := by
  after_results
  rfl

section
variable {F : FTy → Type} [FloatOps F]

/-- Operations 98–107: the two affine maps, ending at the logits `main_v85`. -/
abbrev opsOutA : List (HloOp τ sig (Elt F)) :=
  [ unary main_arg9 main_v76 ((transpose S512x512 [1, 0] · transposes_S512x512_S512x512_1_0) : (⟨S512x512, .f32⟩ : BufTy).Contents (Elt F) → (⟨S512x512, .f32⟩ : BufTy).Contents (Elt F)),
    binary main_v75 main_v76 main_v77 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg10 main_v78 (broadcastInDim S1x512 ![1] bcast_S512_S1x512_1 : (⟨S512, .f32⟩ : BufTy).Contents (Elt F) → (⟨S1x512, .f32⟩ : BufTy).Contents (Elt F)),
    unary main_v78 main_v79 (broadcastInDim S20000x512 ![0, 1] bcast_S1x512_S20000x512_0_1 : (⟨S1x512, .f32⟩ : BufTy).Contents (Elt F) → (⟨S20000x512, .f32⟩ : BufTy).Contents (Elt F)),
    binary main_v77 main_v79 main_v80 (addf : (⟨S20000x512, .f32⟩ : BufTy).Contents (Elt F) → (⟨S20000x512, .f32⟩ : BufTy).Contents (Elt F) → (⟨S20000x512, .f32⟩ : BufTy).Contents (Elt F)),
    unary main_arg11 main_v81 ((transpose S512x256 [1, 0] · transposes_S256x512_S512x256_1_0) : (⟨S256x512, .f32⟩ : BufTy).Contents (Elt F) → (⟨S512x256, .f32⟩ : BufTy).Contents (Elt F)),
    binary main_v80 main_v81 main_v82 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg12 main_v83 (broadcastInDim S1x256 ![1] bcast_S256_S1x256_1 : (⟨S256, .f32⟩ : BufTy).Contents (Elt F) → (⟨S1x256, .f32⟩ : BufTy).Contents (Elt F)),
    unary main_v83 main_v84 (broadcastInDim S20000x256 ![0, 1] bcast_S1x256_S20000x256_0_1 : (⟨S1x256, .f32⟩ : BufTy).Contents (Elt F) → (⟨S20000x256, .f32⟩ : BufTy).Contents (Elt F)),
    binary main_v82 main_v84 main_v85 (addf : (⟨S20000x256, .f32⟩ : BufTy).Contents (Elt F) → (⟨S20000x256, .f32⟩ : BufTy).Contents (Elt F) → (⟨S20000x256, .f32⟩ : BufTy).Contents (Elt F)) ]

/-- Operations 108–122: the row-wise log-softmax of the logits, ending at `main_v86`. -/
abbrev opsLsm : List (HloOp τ sig (Elt F)) :=
  [ TRef.nullary (TRef.of (T := ⟨S_, .f32⟩) main_call3_cst) (constant S_ .f32 0xFF800000#32),
    TRef.binary (TRef.of (T := ⟨S20000x256, .f32⟩) main_v85) (TRef.of (T := ⟨S_, .f32⟩) main_call3_cst) (TRef.of (T := ⟨S20000, .f32⟩) main_call3_v0) (fun x v => Host.reduce FloatOps.maximumf x v reducesTo_S20000x256_S20000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S20000, .f32⟩) main_call3_v1) (broadcastInDim S20000 ![] bcast_S_S20000),
    TRef.binary (TRef.of (T := ⟨S20000, .f32⟩) main_call3_v1) (TRef.of (T := ⟨S20000, .f32⟩) main_call3_v0) (TRef.of (T := ⟨S20000, .f32⟩) main_call3_v2) maximumf,
    TRef.unary (TRef.of (T := ⟨S20000, .f32⟩) main_call3_v2) (TRef.of (T := ⟨S20000x1, .f32⟩) main_call3_v3) (broadcastInDim S20000x1 ![0] bcast_S20000_S20000x1_0),
    TRef.unary (TRef.of (T := ⟨S20000x1, .f32⟩) main_call3_v3) (TRef.of (T := ⟨S20000x256, .f32⟩) main_call3_v4) (broadcastInDim S20000x256 ![0, 1] bcast_S20000x1_S20000x256_0_1),
    TRef.binary (TRef.of (T := ⟨S20000x256, .f32⟩) main_v85) (TRef.of (T := ⟨S20000x256, .f32⟩) main_call3_v4) (TRef.of (T := ⟨S20000x256, .f32⟩) main_call3_v5) subf,
    TRef.unary (TRef.of (T := ⟨S20000x256, .f32⟩) main_call3_v5) (TRef.of (T := ⟨S20000x256, .f32⟩) main_call3_v6) Host.exp,
    TRef.nullary (TRef.of (T := ⟨S_, .f32⟩) main_call3_cst_1) (constant S_ .f32 0x00000000#32),
    TRef.binary (TRef.of (T := ⟨S20000x256, .f32⟩) main_call3_v6) (TRef.of (T := ⟨S_, .f32⟩) main_call3_cst_1) (TRef.of (T := ⟨S20000, .f32⟩) main_call3_v7) (fun x v => Host.reduceAdd x v reducesTo_S20000x256_S20000_d1 h_S_),
    TRef.unary (TRef.of (T := ⟨S20000, .f32⟩) main_call3_v7) (TRef.of (T := ⟨S20000x1, .f32⟩) main_call3_v8) (broadcastInDim S20000x1 ![0] bcast_S20000_S20000x1_0),
    TRef.unary (TRef.of (T := ⟨S20000x1, .f32⟩) main_call3_v8) (TRef.of (T := ⟨S20000x1, .f32⟩) main_call3_v9) Host.log,
    TRef.unary (TRef.of (T := ⟨S20000x1, .f32⟩) main_call3_v9) (TRef.of (T := ⟨S20000x256, .f32⟩) main_call3_v10) (broadcastInDim S20000x256 ![0, 1] bcast_S20000x1_S20000x256_0_1),
    TRef.binary (TRef.of (T := ⟨S20000x256, .f32⟩) main_call3_v5) (TRef.of (T := ⟨S20000x256, .f32⟩) main_call3_v10) (TRef.of (T := ⟨S20000x256, .f32⟩) main_v86) subf ]

set_option maxRecDepth 8192 in
theorem opsOut_split : (opsOut (F := F)) = opsOutA ++ opsLsm := rfl

end

set_option maxRecDepth 8192 in
set_option maxHeartbeats 4000000 in
theorem outA_out : after (opsOutA (F := Ideal)) W (Proc.devRef .tc main_v85)
    = hostLogits (W (Proc.devRef .tc main_v75)) (tr (W (Proc.devRef .tc main_arg9))) (W (Proc.devRef .tc main_arg10)) (tr2 (W (Proc.devRef .tc main_arg11))) (W (Proc.devRef .tc main_arg12)) := by
  after_results
  rfl

set_option maxRecDepth 8192 in
set_option maxHeartbeats 4000000 in
theorem lsm_rd : rd (TRef.of (T := ⟨S20000x256, .f32⟩) main_v86) (after (opsLsm (F := Ideal)) W)
    = hostLogSoftmax (rd (TRef.of (T := ⟨S20000x256, .f32⟩) main_v85) W) := by
  rd_results
  rfl

theorem rd_v86 (V : Valuation τ sig (Elt Ideal)) :
    rd (TRef.of (T := ⟨S20000x256, .f32⟩) main_v86) V = V (Proc.devRef .tc main_v86) := rfl

theorem rd_v85 (V : Valuation τ sig (Elt Ideal)) :
    rd (TRef.of (T := ⟨S20000x256, .f32⟩) main_v85) V = V (Proc.devRef .tc main_v85) := rfl

theorem lsm_out : after (opsLsm (F := Ideal)) W (Proc.devRef .tc main_v86) = hostLogSoftmax (W (Proc.devRef .tc main_v85)) :=
  (rd_v86 _).symm.trans ((lsm_rd W).trans (congrArg hostLogSoftmax (rd_v85 W)))

set_option maxRecDepth 8192 in
theorem out_out : after (opsOut (F := Ideal)) W (Proc.devRef .tc main_v86)
    = hostReadout (W (Proc.devRef .tc main_v75)) (tr (W (Proc.devRef .tc main_arg9))) (W (Proc.devRef .tc main_arg10)) (tr2 (W (Proc.devRef .tc main_arg11))) (W (Proc.devRef .tc main_arg12)) := by
  rw [opsOut_split, after_append, lsm_out, outA_out]
  rfl

end Cert.ReferenceIdeal.Hand

end
-- ==== Proof.RefSide.lean ====
/-
  The reference program's run: from any memory, every weakly fair execution ends with the result buffer holding the
  network of the specification — three layers  h ← layer(neighbour sums of h, h, Wrᵀ, Wlᵀ)  from the embedding, then the
  read-out — applied to the launch contents of the argument buffers, and with the arguments unchanged. The 122
  operations run as eight consecutive runs; each run's last buffer is a function of what the run started from, a buffer
  a run does not write passes through it, and the host's layer and read-out are the specification's.
-/
import proofs.«102595_j29858612642389_1_alg».proof.Proof.RefResults

noncomputable section

namespace Cert.ReferenceIdeal.Hand

open Cert.ReferenceIdeal Cert.ReferenceIdeal.Gen Idealize.ShloMosaic Idealize.ShloMosaic.TcCoe Idealize.SL.Sem Idealize.ShloMosaic.StableHlo

/-- One layer of the network over the edge list `e`: the layer of the specification at the neighbour sums of `h`,
    `h` itself and the two weight matrices transposed (the sums meet `wr`, the rows themselves `wl`). -/
def sage (e : (⟨S2x160000, .i32⟩ : BufTy).Contents (Elt Ideal)) (h : (⟨S20000x512, .f32⟩ : BufTy).Contents (Elt Ideal))
    (wl wr : (⟨S512x512, .f32⟩ : BufTy).Contents (Elt Ideal)) : (⟨S20000x512, .f32⟩ : BufTy).Contents (Elt Ideal) :=
  SageNet.layer (agg (srcIds e) (dstIds e) h) h (tr wr) (tr wl)

/-- The whole network: three layers from the embedding, then the read-out. -/
def net (e : (⟨S2x160000, .i32⟩ : BufTy).Contents (Elt Ideal)) (emb : (⟨S20000x512, .f32⟩ : BufTy).Contents (Elt Ideal))
    (wl0 wr0 wl1 wr1 wl2 wr2 w1 : (⟨S512x512, .f32⟩ : BufTy).Contents (Elt Ideal)) (b1 : (⟨S512, .f32⟩ : BufTy).Contents (Elt Ideal))
    (w2 : (⟨S256x512, .f32⟩ : BufTy).Contents (Elt Ideal)) (b2 : (⟨S256, .f32⟩ : BufTy).Contents (Elt Ideal)) : (⟨S20000x256, .f32⟩ : BufTy).Contents (Elt Ideal) :=
  SageNet.readout (sage e (sage e (sage e emb wl0 wr0) wl1 wr1) wl2 wr2) (tr w1) b1 (tr2 w2) b2

/-! Each run as a function of the contents it starts from. -/

def runIds (W : Valuation τ sig (Elt Ideal)) : Valuation τ sig (Elt Ideal) := after (opsIds (F := Ideal)) W
def runAgg1 (W : Valuation τ sig (Elt Ideal)) : Valuation τ sig (Elt Ideal) := after (opsAgg1 (F := Ideal)) W
def runLay1 (W : Valuation τ sig (Elt Ideal)) : Valuation τ sig (Elt Ideal) := after (opsLay1 (F := Ideal)) W
def runAgg2 (W : Valuation τ sig (Elt Ideal)) : Valuation τ sig (Elt Ideal) := after (opsAgg2 (F := Ideal)) W
def runLay2 (W : Valuation τ sig (Elt Ideal)) : Valuation τ sig (Elt Ideal) := after (opsLay2 (F := Ideal)) W
def runAgg3 (W : Valuation τ sig (Elt Ideal)) : Valuation τ sig (Elt Ideal) := after (opsAgg3 (F := Ideal)) W
def runLay3 (W : Valuation τ sig (Elt Ideal)) : Valuation τ sig (Elt Ideal) := after (opsLay3 (F := Ideal)) W
def runOut (W : Valuation τ sig (Elt Ideal)) : Valuation τ sig (Elt Ideal) := after (opsOut (F := Ideal)) W

set_option maxRecDepth 8192 in
/-- The whole line is the eight runs in order. -/
theorem after_ops (V : Valuation τ sig (Elt Ideal)) :
    after (RunP.ops (F := Ideal)) V = runOut (runLay3 (runAgg3 (runLay2 (runAgg2 (runLay1 (runAgg1 (runIds V))))))) := by
  rw [ops_eq]
  simp only [after_append]
  rfl

section
variable (W : Valuation τ sig (Elt Ideal))

theorem runIds_frame {r : Ref sig .tc} (hr : r ∉ opsIds_w) :
    runIds W (no_index (Proc.devRef .tc r)) = W (Proc.devRef .tc r) := opsIds_frame W hr
theorem runAgg1_frame {r : Ref sig .tc} (hr : r ∉ opsAgg1_w) :
    runAgg1 W (no_index (Proc.devRef .tc r)) = W (Proc.devRef .tc r) := opsAgg1_frame W hr
theorem runLay1_frame {r : Ref sig .tc} (hr : r ∉ opsLay1_w) :
    runLay1 W (no_index (Proc.devRef .tc r)) = W (Proc.devRef .tc r) := opsLay1_frame W hr
theorem runAgg2_frame {r : Ref sig .tc} (hr : r ∉ opsAgg2_w) :
    runAgg2 W (no_index (Proc.devRef .tc r)) = W (Proc.devRef .tc r) := opsAgg2_frame W hr
theorem runLay2_frame {r : Ref sig .tc} (hr : r ∉ opsLay2_w) :
    runLay2 W (no_index (Proc.devRef .tc r)) = W (Proc.devRef .tc r) := opsLay2_frame W hr
theorem runAgg3_frame {r : Ref sig .tc} (hr : r ∉ opsAgg3_w) :
    runAgg3 W (no_index (Proc.devRef .tc r)) = W (Proc.devRef .tc r) := opsAgg3_frame W hr
theorem runLay3_frame {r : Ref sig .tc} (hr : r ∉ opsLay3_w) :
    runLay3 W (no_index (Proc.devRef .tc r)) = W (Proc.devRef .tc r) := opsLay3_frame W hr
theorem runOut_frame {r : Ref sig .tc} (hr : r ∉ opsOut_w) :
    runOut W (no_index (Proc.devRef .tc r)) = W (Proc.devRef .tc r) := opsOut_frame W hr

theorem runIds_src : runIds W (no_index (Proc.devRef .tc main_v1)) = srcIds (W (Proc.devRef .tc main_arg1)) := ids_src W
theorem runIds_dst : runIds W (no_index (Proc.devRef .tc main_v3)) = dstIds (W (Proc.devRef .tc main_arg1)) := ids_dst W
theorem runAgg1_out : runAgg1 W (no_index (Proc.devRef .tc main_v13)) = agg (W (Proc.devRef .tc main_v1)) (W (Proc.devRef .tc main_v3)) (W (Proc.devRef .tc main_arg2)) := agg1_out W
theorem runAgg2_out : runAgg2 W (no_index (Proc.devRef .tc main_v37)) = agg (W (Proc.devRef .tc main_v1)) (W (Proc.devRef .tc main_v3)) (W (Proc.devRef .tc main_v27)) := agg2_out W
theorem runAgg3_out : runAgg3 W (no_index (Proc.devRef .tc main_v61)) = agg (W (Proc.devRef .tc main_v1)) (W (Proc.devRef .tc main_v3)) (W (Proc.devRef .tc main_v51)) := agg3_out W
theorem runLay1_out : runLay1 W (no_index (Proc.devRef .tc main_v27))
    = SageNet.layer (W (Proc.devRef .tc main_v13)) (W (Proc.devRef .tc main_arg2)) (tr (W (Proc.devRef .tc main_arg4))) (tr (W (Proc.devRef .tc main_arg3))) := (lay1_out W).trans (hostLayer_eq _ _ _ _)
theorem runLay2_out : runLay2 W (no_index (Proc.devRef .tc main_v51))
    = SageNet.layer (W (Proc.devRef .tc main_v37)) (W (Proc.devRef .tc main_v27)) (tr (W (Proc.devRef .tc main_arg6))) (tr (W (Proc.devRef .tc main_arg5))) := (lay2_out W).trans (hostLayer_eq _ _ _ _)
theorem runLay3_out : runLay3 W (no_index (Proc.devRef .tc main_v75))
    = SageNet.layer (W (Proc.devRef .tc main_v61)) (W (Proc.devRef .tc main_v51)) (tr (W (Proc.devRef .tc main_arg8))) (tr (W (Proc.devRef .tc main_arg7))) := (lay3_out W).trans (hostLayer_eq _ _ _ _)
theorem runOut_out : runOut W (no_index (Proc.devRef .tc main_v86))
    = SageNet.readout (W (Proc.devRef .tc main_v75)) (tr (W (Proc.devRef .tc main_arg9))) (W (Proc.devRef .tc main_arg10)) (tr2 (W (Proc.devRef .tc main_arg11))) (W (Proc.devRef .tc main_arg12)) :=
  (out_out W).trans (hostReadout_eq _ _ _ _ _)

end

/-- A buffer none of the eight runs writes keeps its contents through the whole line. -/
theorem after_ops_frame (V : Valuation τ sig (Elt Ideal)) {r : Ref sig .tc}
    (h1 : r ∉ opsIds_w) (h2 : r ∉ opsAgg1_w) (h3 : r ∉ opsLay1_w) (h4 : r ∉ opsAgg2_w) (h5 : r ∉ opsLay2_w) (h6 : r ∉ opsAgg3_w) (h7 : r ∉ opsLay3_w) (h8 : r ∉ opsOut_w) :
    after (RunP.ops (F := Ideal)) V (Proc.devRef .tc r) = V (Proc.devRef .tc r) := by
  rw [after_ops, runOut_frame _ h8, runLay3_frame _ h7, runAgg3_frame _ h6, runLay2_frame _ h5, runAgg2_frame _ h4, runLay1_frame _ h3, runAgg1_frame _ h2, runIds_frame _ h1]

set_option maxHeartbeats 1000000 in
/-- The whole line leaves the network of the edge list, the embedding and the weights in the result buffer. -/
theorem after_ops_out (V : Valuation τ sig (Elt Ideal)) :
    after (RunP.ops (F := Ideal)) V (Proc.devRef .tc main_v86)
      = net (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  simp (disch := decide) only [runOut_out, runLay3_out, runAgg3_out, runLay2_out, runAgg2_out, runLay1_out, runAgg1_out,
    runIds_src, runIds_dst, runIds_frame, runAgg1_frame, runLay1_frame, runAgg2_frame, runLay2_frame, runAgg3_frame, runLay3_frame, runOut_frame]
  rfl

/-- From any memory with zero counters every weakly fair execution of the reference terminates with the network of its
    arguments in the result buffer and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v86) = net (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v86).trans (after_ops_out _),
      (h c main_arg0).trans (after_ops_frame _ (by decide) (by decide) (by decide) (by decide) (by decide) (by decide) (by decide) (by decide)),
      (h c main_arg1).trans (after_ops_frame _ (by decide) (by decide) (by decide) (by decide) (by decide) (by decide) (by decide) (by decide)),
      (h c main_arg2).trans (after_ops_frame _ (by decide) (by decide) (by decide) (by decide) (by decide) (by decide) (by decide) (by decide)),
      (h c main_arg3).trans (after_ops_frame _ (by decide) (by decide) (by decide) (by decide) (by decide) (by decide) (by decide) (by decide)),
      (h c main_arg4).trans (after_ops_frame _ (by decide) (by decide) (by decide) (by decide) (by decide) (by decide) (by decide) (by decide)),
      (h c main_arg5).trans (after_ops_frame _ (by decide) (by decide) (by decide) (by decide) (by decide) (by decide) (by decide) (by decide)),
      (h c main_arg6).trans (after_ops_frame _ (by decide) (by decide) (by decide) (by decide) (by decide) (by decide) (by decide) (by decide)),
      (h c main_arg7).trans (after_ops_frame _ (by decide) (by decide) (by decide) (by decide) (by decide) (by decide) (by decide) (by decide)),
      (h c main_arg8).trans (after_ops_frame _ (by decide) (by decide) (by decide) (by decide) (by decide) (by decide) (by decide) (by decide)),
      (h c main_arg9).trans (after_ops_frame _ (by decide) (by decide) (by decide) (by decide) (by decide) (by decide) (by decide) (by decide)),
      (h c main_arg10).trans (after_ops_frame _ (by decide) (by decide) (by decide) (by decide) (by decide) (by decide) (by decide) (by decide)),
      (h c main_arg11).trans (after_ops_frame _ (by decide) (by decide) (by decide) (by decide) (by decide) (by decide) (by decide) (by decide)),
      (h c main_arg12).trans (after_ops_frame _ (by decide) (by decide) (by decide) (by decide) (by decide) (by decide) (by decide) (by decide))⟩)
    (RunP.run_after m ρ)

end Cert.ReferenceIdeal.Hand

end
-- ==== Proof.lean ====
/-
  The certificate of the node classifier: three neighbour-aggregation layers and a read-out, computed by four
  kernels among host gathers and scatter-adds, against the same network written as whole-array operations.

  Both idealized programs end with the SAME function of their arguments in the result buffer: `net` — three times
  "sum the neighbours' rows, multiply by the two weight matrices, divide every row by max(its norm, ε), clip at 0",
  then two affine maps and a row-wise log-softmax.  On the kernel side each region's blocks tile its output array and an
  output row depends on the same row of the inputs only, so the blockwise computation leaves the whole-array function; on
  the reference side every whole-array operation is read entry by entry to the same sums.  The neighbour sum itself is the
  same chain of host operations in both programs and is never opened.  No law that needs finiteness is used: every
  equation is between identically grouped sums, quotients and maxima of extended reals.

  The three frames: the two kernel programs by their region-by-region frame theorems, the reference by its run.
  `preserves` is trivial: the idealization rewrote nothing.
-/
import proofs.«102595_j29858612642389_1_alg».proof.Defs
import proofs.«102595_j29858612642389_1_alg».proof.Proof.Gen.Kernel
import proofs.«102595_j29858612642389_1_alg».proof.Proof.Gen.Kernel.Skeleton
import proofs.«102595_j29858612642389_1_alg».proof.Proof.Gen.Kernel.Launch
import proofs.«102595_j29858612642389_1_alg».proof.Proof.Gen.Kernel.Points
import proofs.«102595_j29858612642389_1_alg».proof.Proof.Gen.Kernel.Frame
import proofs.«102595_j29858612642389_1_alg».proof.Proof.Gen.KernelIdeal
import proofs.«102595_j29858612642389_1_alg».proof.Proof.Gen.KernelIdeal.Skeleton
import proofs.«102595_j29858612642389_1_alg».proof.Proof.Gen.KernelIdeal.Launch
import proofs.«102595_j29858612642389_1_alg».proof.Proof.Gen.KernelIdeal.Points
import proofs.«102595_j29858612642389_1_alg».proof.Proof.Gen.KernelIdeal.Frame
import proofs.«102595_j29858612642389_1_alg».proof.Proof.Gen.ReferenceIdeal
import proofs.«102595_j29858612642389_1_alg».proof.Proof.Gen.Pre_finite_inputs
import proofs.«102595_j29858612642389_1_alg».proof.Proof.KernelRun
import proofs.«102595_j29858612642389_1_alg».proof.Proof.KernelChain
import proofs.«102595_j29858612642389_1_alg».proof.Proof.RefSide
import Idealize.ShloMosaic.Adequacy
import Idealize.ShloMosaic.Init

noncomputable section

namespace Cert.Proof

open Idealize.ShloMosaic Idealize.ShloMosaic.TcCoe Idealize.SL.Sem

/-- The reference's network is the kernel program's: the same functions of the same arguments (the two programs' shape
    records and host records differ in name only). -/
theorem net_eq (e : (⟨Cert.KernelIdeal.S2x160000, .i32⟩ : BufTy).Contents (Elt Ideal))
    (emb : (⟨Cert.KernelIdeal.S20000x512, .f32⟩ : BufTy).Contents (Elt Ideal))
    (wl0 wr0 wl1 wr1 wl2 wr2 w1 : (⟨Cert.KernelIdeal.S512x512, .f32⟩ : BufTy).Contents (Elt Ideal))
    (b1 : (⟨Cert.KernelIdeal.S512, .f32⟩ : BufTy).Contents (Elt Ideal))
    (w2 : (⟨Cert.KernelIdeal.S256x512, .f32⟩ : BufTy).Contents (Elt Ideal))
    (b2 : (⟨Cert.KernelIdeal.S256, .f32⟩ : BufTy).Contents (Elt Ideal)) :
    Cert.ReferenceIdeal.Hand.net e emb wl0 wr0 wl1 wr1 wl2 wr2 w1 b1 w2 b2
      = Cert.KernelIdeal.Hand.net e emb wl0 wr0 wl1 wr1 wl2 wr2 w1 b1 w2 b2 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both idealized programs end with `net` of the arguments in the result buffer. -/
theorem algebraic : Cert.algebraic_KernelIdeal_ReferenceIdeal := by
  intro m ρ m' ρ' _ hagree
  refine ⟨fun c => Cert.KernelIdeal.Hand.net (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Hand.W8_v47 m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Hand.run m' ρ')
    obtain ⟨-, a1, a2, a3, a4, a5, a6, a7, a8, a9, a10, a11, a12⟩ := hagree c
    rw [a1, a2, a3, a4, a5, a6, a7, a8, a9, a10, a11, a12]
    exact net_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
